-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "inv_temperature" .f32 0x41649249#32 ((134217728 / 9395241 : ℝ) : EReal)
  ∧ IdealRules.named_const.Statement Cert.KernelIdeal.κ "inv_1000000000000000000000000000000" .f32 0x0DA24260#32 ((1 / 1000000000000000000000000000000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192 : Shape := ⟨1, ![8192]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel

variable [Facts]

def fn {F : FTy → Type} [FloatOps F] (main_arg0 : FVec F S8192x256 .f32) (main_arg1 : IVec S8192 32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  main_v3
-- ==== Kernel.lean ====
abbrev S8192x256 : Shape := ⟨2, ![8192, 256]⟩
abbrev S8192 : Shape := ⟨1, ![8192]⟩
abbrev S1024x256 : Shape := ⟨2, ![1024, 256]⟩
abbrev S1024 : Shape := ⟨1, ![1024]⟩
abbrev S1024x1 : Shape := ⟨2, ![1024, 1]⟩
abbrev S8192x1 : Shape := ⟨2, ![8192, 1]⟩
abbrev S1x8192 : Shape := ⟨2, ![1, 8192]⟩
abbrev S1x1024 : Shape := ⟨2, ![1, 1024]⟩
abbrev S256x1024 : Shape := ⟨2, ![256, 1024]⟩
abbrev S1024x1024 : Shape := ⟨2, ![1024, 1024]⟩
abbrev S_ : Shape := ⟨0, ![]⟩

abbrev nBuf : Space → Nat
  | .hbm => 14
  | .vmem => 18
  | .smem => 0
  | _ => 0

abbrev bufTy : (tb : Table) → Fin (tcTables nBuf tb) → BufTy
  | .hbm, ⟨0, _⟩ => ⟨S8192x256, .f32⟩
  | .hbm, ⟨1, _⟩ => ⟨S8192, .i32⟩
  | .hbm, ⟨2, _⟩ => ⟨S8192x256, .bf16⟩
  | .hbm, ⟨3, _⟩ => ⟨S8192x1, .i32⟩
  | .hbm, ⟨4, _⟩ => ⟨S1x8192, .i32⟩
  | .hbm, ⟨5, _⟩ => ⟨S8192x1, .f32⟩
  | .hbm, ⟨6, _⟩ => ⟨S8192x1, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .local _ .vmem, ⟨0, _⟩ => ⟨S1024x256, .f32⟩
  | .local _ .vmem, ⟨1, _⟩ => ⟨S1024x256, .f32⟩
  | .local _ .vmem, ⟨2, _⟩ => ⟨S1024x256, .bf16⟩
  | .local _ .vmem, ⟨3, _⟩ => ⟨S1024x256, .bf16⟩
  | .local _ .vmem, ⟨4, _⟩ => ⟨S1024x256, .bf16⟩
  | .local _ .vmem, ⟨5, _⟩ => ⟨S1024x256, .bf16⟩
  | .local _ .vmem, ⟨6, _⟩ => ⟨S1024x256, .bf16⟩
  | .local _ .vmem, ⟨7, _⟩ => ⟨S1024x256, .bf16⟩
  | .local _ .vmem, ⟨8, _⟩ => ⟨S1024x1, .i32⟩
  | .local _ .vmem, ⟨9, _⟩ => ⟨S1024x1, .i32⟩
  | .local _ .vmem, ⟨10, _⟩ => ⟨S1x1024, .i32⟩
  | .local _ .vmem, ⟨11, _⟩ => ⟨S1x1024, .i32⟩
  | .local _ .vmem, ⟨12, _⟩ => ⟨S1024x1, .f32⟩
  | .local _ .vmem, ⟨13, _⟩ => ⟨S1024x1, .f32⟩
  | .local _ .vmem, ⟨14, _⟩ => ⟨S1024x1, .f32⟩
  | .local _ .vmem, ⟨15, _⟩ => ⟨S1024x1, .f32⟩
  | .local _ .vmem, ⟨16, _⟩ => ⟨S1024x1, .f32⟩
  | .local _ .vmem, ⟨17, _⟩ => ⟨S1024x1, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc1_scratch0 : Ref sig .tc := ⟨.vmem, 16, rfl⟩
abbrev cc1_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v48 : BitVec 1 := Scalar.cmpi .eq arg1 c7_i32
  let v49 : BitVec 32 := Scalar.extui v48
  let c0_i32_23 : BitVec 32 := 0#32
  let v50 : BitVec 1 := Scalar.cmpi .ne v49 c0_i32_23
  v50

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1024 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1024x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1024x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

class Facts₀ : Prop where
  inb_S1024x256_S1024x256_0_0 : ∀ a, (![0, 0] : Fin 2 → Nat) a + S1024x256.size a ≤ S1024x256.size a
  h_S1024x256 : 0 < S1024x256.numel
  reduces_S1024x256_S1024 : S1024x256.Reduces [1] S1024
  shapeCasts_S1024_S1024x1 : S1024.ShapeCasts S1024x1
  broadcasts_S1024x1_S1024x256 : S1024x1.Broadcasts S1024x256
  bitsLt_bf16_f32 : FTy.bits .bf16 < FTy.bits .f32
  packedbf16_S1024x256_S1024x256_0_0 : (Rect.unit (s := S1024x256) ![0, 0] S1024x256.size inb_S1024x256_S1024x256_0_0).PackedRows (EltTy.packing .bf16)
  shapeCasts_S8192_S8192x1 : S8192.ShapeCasts S8192x1
  shapeCasts_S8192_S1x8192 : S8192.ShapeCasts S1x8192
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  shapeCasts_S1024x256_S1024x256 : S1024x256.ShapeCasts S1024x256
  transposes_S1024x256_p1_0_S256x1024 : S1024x256.Transposes [1, 0] S256x1024
  iota_S1024x1024_d0_w32 : S1024x1024.Iotas .tc 32 [0]
  iota_S1024x1024_d1_w32 : S1024x1024.Iotas .tc 32 [1]
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  reduces_S1024x1024_S1024 : S1024x1024.Reduces [1] S1024
  natLt_1_32 : 1 < 32
  reducesTo_S8192x1_S_d0_1 : S8192x1.ReducesTo [0, 1] S_
  h_S_ : 0 < S_.numel
  dot_S1024x256_S256x1024_S1024x1024_1_0_0_1_n_n_wf : DotDims.WF S1024x256 S256x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .f32 = 32 ∨ (Rect.block (s := S8192x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S8192x256.size a
  hwx0_1 : ∀ i : grid0.Coords, EltTy.bits .bf16 = 32 ∨ (Rect.block (s := S8192x256) S1024x256.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x256.size a ≤ S8192x256.size a
  hwx1_0 : ∀ i : grid1.Coords, EltTy.bits .bf16 = 32 ∨ (Rect.block (s := S8192x256) S1024x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x256.size a ≤ S8192x256.size a
  hwx1_1 : ∀ i : grid1.Coords, EltTy.bits .bf16 = 32 ∨ (Rect.block (s := S8192x256) S1024x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S8192x1.size a
  hwx1_2 : ∀ i : grid1.Coords, EltTy.bits .i32 = 32 ∨ (Rect.block (s := S8192x1) S1024x1.size (cc1_transform_2 i) (hinb1_2 i)).WholeWords (EltTy.packing .i32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024.size a ≤ S1x8192.size a
  hwx1_3 : ∀ i : grid1.Coords, EltTy.bits .i32 = 32 ∨ (Rect.block (s := S1x8192) S1x1024.size (cc1_transform_3 i) (hinb1_3 i)).WholeWords (EltTy.packing .i32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x1.size a ≤ S8192x1.size a
  hwx1_4 : ∀ i : grid1.Coords, EltTy.bits .f32 = 32 ∨ (Rect.block (s := S8192x1) S1024x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x1.size a ≤ S8192x1.size a
  hwx1_5 : ∀ i : grid1.Coords, EltTy.bits .f32 = 32 ∨ (Rect.block (s := S8192x1) S1024x1.size (cc1_transform_5 i) (hinb1_5 i)).WholeWords (EltTy.packing .f32)

variable [Facts₀]

def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v0) S1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1024x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1024x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v3_0) S1024x1.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v3_1) S1024x1.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun i => !(k1_cond2 i == 1#1) | 5 => fun i => !(k1_cond2 i == 1#1) | ⟨_ + 6, h⟩ => absurd h (Nat.not_lt.2 (Nat.le_add_left _ _))

class Facts : Prop extends Facts₀ where

variable [Facts]
-- ==== ReferenceIdeal.lean ====
abbrev S8192x256 : Shape := ⟨2, ![8192, 256]⟩
abbrev S8192 : Shape := ⟨1, ![8192]⟩
abbrev S_ : Shape := ⟨0, ![]⟩
abbrev S8192x1 : Shape := ⟨2, ![8192, 1]⟩
abbrev S256x8192 : Shape := ⟨2, ![256, 8192]⟩
abbrev S8192x8192 : Shape := ⟨2, ![8192, 8192]⟩
abbrev S1x8192 : Shape := ⟨2, ![1, 8192]⟩

abbrev nBuf : Space → Nat
  | .hbm => 60
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192, .i32⟩
  | .hbm, ⟨2, _⟩ => ⟨S8192x256, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x256, .f32⟩
  | .hbm, ⟨11, _⟩ => ⟨S8192x256, .f32⟩
  | .hbm, ⟨12, _⟩ => ⟨S256x8192, .f32⟩
  | .hbm, ⟨13, _⟩ => ⟨S8192x8192, .f32⟩
  | .hbm, ⟨14, _⟩ => ⟨S_, .f32⟩
  | .hbm, ⟨15, _⟩ => ⟨S8192x8192, .f32⟩
  | .hbm, ⟨16, _⟩ => ⟨S8192x8192, .f32⟩
  | .hbm, ⟨17, _⟩ => ⟨S8192x8192, .i32⟩
  | .hbm, ⟨18, _⟩ => ⟨S8192x8192, .i32⟩
  | .hbm, ⟨19, _⟩ => ⟨S_, .i32⟩
  | .hbm, ⟨20, _⟩ => ⟨S8192x8192, .i32⟩
  | .hbm, ⟨21, _⟩ => ⟨S8192x8192, .i32⟩
  | .hbm, ⟨22, _⟩ => ⟨S8192x8192, .i1⟩
  | .hbm, ⟨23, _⟩ => ⟨S_, .f32⟩
  | .hbm, ⟨24, _⟩ => ⟨S_, .f32⟩
  | .hbm, ⟨25, _⟩ => ⟨S8192x8192, .f32⟩
  | .hbm, ⟨26, _⟩ => ⟨S8192x8192, .f32⟩
  | .hbm, ⟨27, _⟩ => ⟨S8192x8192, .f32⟩
  | .hbm, ⟨28, _⟩ => ⟨S8192x1, .i32⟩
  | .hbm, ⟨29, _⟩ => ⟨S1x8192, .i32⟩
  | .hbm, ⟨30, _⟩ => ⟨S8192x8192, .i32⟩
  | .hbm, ⟨31, _⟩ => ⟨S8192x8192, .i32⟩
  | .hbm, ⟨32, _⟩ => ⟨S8192x8192, .i1⟩
  | .hbm, ⟨33, _⟩ => ⟨S8192x8192, .i1⟩
  | .hbm, ⟨34, _⟩ => ⟨S8192x8192, .i1⟩
  | .hbm, ⟨35, _⟩ => ⟨S_, .f32⟩
  | .hbm, ⟨36, _⟩ => ⟨S_, .f32⟩
  | .hbm, ⟨37, _⟩ => ⟨S8192x8192, .f32⟩
  | .hbm, ⟨38, _⟩ => ⟨S8192x8192, .f32⟩
  | .hbm, ⟨39, _⟩ => ⟨S_, .f32⟩
  | .hbm, ⟨40, _⟩ => ⟨S8192, .f32⟩
  | .hbm, ⟨41, _⟩ => ⟨S_, .f32⟩
  | .hbm, ⟨42, _⟩ => ⟨S8192, .f32⟩
  | .hbm, ⟨43, _⟩ => ⟨S_, .i1⟩
  | .hbm, ⟨44, _⟩ => ⟨S8192, .i1⟩
  | .hbm, ⟨45, _⟩ => ⟨S8192, .f32⟩
  | .hbm, ⟨46, _⟩ => ⟨S8192, .f32⟩
  | .hbm, ⟨47, _⟩ => ⟨S8192, .f32⟩
  | .hbm, ⟨48, _⟩ => ⟨S_, .f32⟩
  | .hbm, ⟨49, _⟩ => ⟨S_, .f32⟩
  | .hbm, ⟨50, _⟩ => ⟨S8192, .f32⟩
  | .hbm, ⟨51, _⟩ => ⟨S8192, .f32⟩
  | .hbm, ⟨52, _⟩ => ⟨S_, .f32⟩
  | .hbm, ⟨53, _⟩ => ⟨S_, .f32⟩
  | .hbm, ⟨54, _⟩ => ⟨S8192, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_call1_v0 : Ref sig .tc := ⟨.hbm, 24, rfl⟩
abbrev main_call1_v1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_2 : Ref sig .tc := ⟨.hbm, 35, rfl⟩
abbrev main_call2_v0 : Ref sig .tc := ⟨.hbm, 36, rfl⟩
abbrev main_call2_v1 : Ref sig .tc := ⟨.hbm, 37, rfl⟩
abbrev main_v23 : Ref sig .tc := ⟨.hbm, 38, rfl⟩
abbrev main_cst_3 : Ref sig .tc := ⟨.hbm, 39, rfl⟩
abbrev main_v24 : Ref sig .tc := ⟨.hbm, 40, rfl⟩
abbrev main_cst_4 : Ref sig .tc := ⟨.hbm, 41, rfl⟩
abbrev main_v25 : Ref sig .tc := ⟨.hbm, 42, rfl⟩
abbrev main_c_5 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_6 : Ref sig .tc := ⟨.hbm, 48, rfl⟩
abbrev main_call3_v0 : Ref sig .tc := ⟨.hbm, 49, rfl⟩
abbrev main_call3_v1 : Ref sig .tc := ⟨.hbm, 50, rfl⟩
abbrev main_v30 : Ref sig .tc := ⟨.hbm, 51, rfl⟩
abbrev main_cst_7 : Ref sig .tc := ⟨.hbm, 52, rfl⟩
abbrev main_v31 : Ref sig .tc := ⟨.hbm, 53, rfl⟩
abbrev main_v32 : Ref sig .tc := ⟨.hbm, 54, rfl⟩
abbrev main_cst_8 : Ref sig .tc := ⟨.hbm, 55, rfl⟩
abbrev main_v33 : Ref sig .tc := ⟨.hbm, 56, rfl⟩
abbrev main_cst_9 : Ref sig .tc := ⟨.hbm, 57, rfl⟩
abbrev main_v34 : Ref sig .tc := ⟨.hbm, 58, rfl⟩
abbrev main_v35 : Ref sig .tc := ⟨.hbm, 59, rfl⟩

abbrev nD : Nat := 1
abbrev τ : Topo := Topo.v7x

variable {F : FTy → Type} [FloatOps F]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x256_0_1 : S8192x1.BroadcastsInDim S8192x256 (![0, 1] : Fin 2 → Fin S8192x256.rank)
  transposes_S8192x256_S256x8192_1_0 : S8192x256.Transposes [1, 0] S256x8192
  bcast_S_S8192x8192 : S_.BroadcastsInDim S8192x8192 (![] : Fin 0 → Fin S8192x8192.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_
  dot_S8192x256_S256x8192_S8192x8192_1_0_0_1_n_n_wf : DotDims.WF S8192x256 S256x8192 S8192x8192 [1] [0] [0] [1] [] []

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf

class Facts : Prop extends Facts₀ where

variable [Facts]
-- ==== Proof.Bits.Region0.lean ====
/-
  Region 0 of the kernel program: the row-normalising kernel, one class of control, on a grid of 8 points.
  At each point the body reads the whole 1024 x 256 input block, and overwrites the whole 1024 x 256 output block
  with one function of that input block (each row divided by its clamped Euclidean norm, rounded to the short
  float format).  Everything here is stated at a parameter V, the buffer contents of the core when the region
  is entered, and is generic in the float model.
-/
import proofs.«123631_j42125039239359_1_alg».proof.Proof.Gen.Kernel.Launch
import proofs.«123631_j42125039239359_1_alg».proof.Proof.Gen.Kernel.Skeleton
import proofs.«123631_j42125039239359_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, for any proof data whose array is
    V's and whose body leaves the block in place: the window is fetched at every point, uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The one rectangle the body touches: the whole 1024 x 256 block. -/
abbrev r0_0 : Rect S1024x256 := Rect.unit (s := S1024x256) ![0, 0] S1024x256.size inb_S1024x256_S1024x256_0_0

/-! ## What the body leaves in the output window's buffer -/

/-- The output buffer after the body, as a function of the input block: the one store, of the normalised rows. -/
def out0_1 (x0 : Vec F S1024x256 .f32) : Vec F S1024x256 .bf16 :=
  View.canon [⟨r0_0, k0_pay1 (View.ld x0 r0_0)⟩]

/-- The one store is of the whole block, so it covers the buffer. -/
theorem cover0_1 (p0 : Vec F S1024x256 .bf16) (y : S1024x256.Idx) :
    ∃ pc ∈ ([⟨r0_0, p0⟩] : List (View.Piece (Elt F) S1024x256 .bf16)), y ∈ pc.1.set :=
  View.cover_of_tiled [⟨r0_0, p0⟩] S1024x256.size (by rfl) y

/-! ## The body's triple -/

set_option maxHeartbeats 1000000 in
/-- The body on whole staging memrefs, the input's at contents x0 and the output's at anything, runs to the
    continuation holding the input's as it was and the output's at out0_1 x0, whatever the grid coordinate. -/
theorem sound_kernel0 (c : Dev nD) (E : Set ℕ) (i : grid0.Coords) (arg1 : Memref sig .tc .vmem S1024x256 .f32) (harg1 : arg1.IsWhole)
    (arg2 : Memref sig .tc .vmem S1024x256 .bf16) (harg2 : arg2.IsWhole)
    (x0 : Vec F S1024x256 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__normalize_kernel i arg1 harg1 arg2 harg2) K := by
  simp only [cc0__normalize_kernel_eq_skeleton]; unfold cc0__normalize_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-! ## The pipeline's proof data -/

/-- The proof data of pipeline 0 on core c: the arrays as the region finds them; after the body at point t the
    input's buffer at its block and the output's at out0_1 of the input block; the invariant is the rest of the
    core's scoped memory and its generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

/-- The input's current staging buffer holds its block at every point. -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the input's memref holds its block, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.Bits.Region1Defs.lean ====
import proofs.«123631_j42125039239359_1_alg».proof.Proof.Gen.Kernel.Launch
import proofs.«123631_j42125039239359_1_alg».proof.Proof.Gen.Kernel.Skeleton
import proofs.«123631_j42125039239359_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The second call's region: the blocks its windows read, and the control of its body -/

/-- The block of window w at point t, read off the window's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every point, whether the point fetches it or not:
    where it is not fetched the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The two conditionals of the body, in closed form over the grid -/

/-- The first conditional (the reset of the two running sums): the column coordinate is 0. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- The second conditional (the row results are written out): the column coordinate is 7. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Away from the last column block the two outputs are idle and not written back. -/
theorem idleAt1_4 : ∀ t : Fin cfg1.N, ¬cond1_1 (grid1.coords t) → cfg1.idle 4 (grid1.coords t) = true := by decide +kernel
theorem idleAt1_5 : ∀ t : Fin cfg1.N, ¬cond1_1 (grid1.coords t) → cfg1.idle 5 (grid1.coords t) = true := by decide +kernel
theorem noFlush1_4 : ∀ t : Fin cfg1.N, ¬cond1_1 (grid1.coords t) → (cfg1.win 4).flush t = false := by decide +kernel
theorem noFlush1_5 : ∀ t : Fin cfg1.N, ¬cond1_1 (grid1.coords t) → (cfg1.win 5).flush t = false := by decide +kernel
/-- At the last column block they are live. -/
theorem liveAt1_4 : ∀ t : Fin cfg1.N, cond1_1 (grid1.coords t) → cfg1.idle 4 (grid1.coords t) = false := by decide +kernel
theorem liveAt1_5 : ∀ t : Fin cfg1.N, cond1_1 (grid1.coords t) → cfg1.idle 5 (grid1.coords t) = false := by decide +kernel

/-! ## The buffers the body is called on -/

abbrev ms1_0 (t : Fin cfg1.N) : Memref sig .tc .vmem S1024x256 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1 .i32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024 .i32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x1 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024x1 .f32 := win1_5.stage (cfg1.slots t 5)
abbrev hs1_5 (t : Fin cfg1.N) : (ms1_5 t).IsWhole := hstage1_5 ((cfg1.slots t 5).cast nbuf1_5)
/-- The two running sums live in two scratch buffers of the call's own. -/
abbrev scM1_0 : Memref sig .tc .vmem S1024x1 .f32 := Memref.whole cc1_scratch0
abbrev scM1_1 : Memref sig .tc .vmem S1024x1 .f32 := Memref.whole cc1_scratch1

/-- What the launch hands the body beside the windows: the first call's four staging buffers and the two
    scratch buffers, each whole at some contents, and the generator register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ d, owns (c : Thread nD τ) scM1_0 fullShare d) ∗ (∃ d, owns (c : Thread nD τ) scM1_1 fullShare d)) ∗ (∃ r, prngReg c r)) := by
  unfold Pipeline.ΦA; rw [scopedRest1_eq]; simp only [scM1_0, scM1_1, owns_whole]; try rfl

/-! ## Whole-buffer stores read back -/

theorem hzero1 : (![0, 0] : Fin 2 → Nat) = fun _ => 0 := funext fun a => by fin_cases a <;> rfl

/-- A store through the whole buffer covers it, whatever was stored before. -/
theorem cover_whole1 {Val : EltTy → Type} {S : Shape} {e : EltTy} {off : Fin S.rank → Nat} (h : off = fun _ => 0)
    (inb : ∀ a, off a + S.size a ≤ S.size a) (w : S.Idx → Val e) (L : List (View.Piece Val S e)) (y : S.Idx) :
    ∃ p ∈ ((⟨Rect.unit off S.size inb, w⟩ : View.Piece Val S e) :: L), y ∈ p.1.set := by
  subst h
  exact ⟨_, List.mem_cons_self, by show y ∈ (Rect.whole S).set; rw [Rect.set_whole]; exact Finset.mem_univ y⟩

/-- After stores the last of which went through the whole buffer, the buffer holds that store's value. -/
theorem read_writes_whole1 {Val : EltTy → Type} [∀ e, Nonempty (Val e)] {S : Shape} {e : EltTy} {sig : RefSig} {κ : Kind} {sp : Space}
    (v : View sig κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (cover_whole1 h inb w L), View.canon_cons_unit_zero h]

end Cert.Kernel.Hand

end
-- ==== Proof.Bits.Region1Data.lean ====
import proofs.«123631_j42125039239359_1_alg».proof.Proof.Gen.Kernel.Launch
import proofs.«123631_j42125039239359_1_alg».proof.Proof.Gen.Kernel.Skeleton
import proofs.«123631_j42125039239359_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«123631_j42125039239359_1_alg».proof.Proof.Bits.Region1Defs
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The second call's region: the two running sums point by point, and the proof data -/

/-- One point's step of the two running sums: the row sums of the positives' block and of the whole block of
    exponentials at point t, added to what the sums held. -/
def accStep1 (c : Dev nD) (t : Fin cfg1.N) (a : Vec F S1024x1 .f32 × Vec F S1024x1 .f32) : Vec F S1024x1 .f32 × Vec F S1024x1 .f32 :=
  (k1_pay1 a.1 (k1_pay10 (grid1.coords t) (iblk1 V c 0 t) (iblk1 V c 1 t) (iblk1 V c 2 t) (iblk1 V c 3 t)), k1_pay2 (k1_pay9 (grid1.coords t) (iblk1 V c 0 t) (iblk1 V c 1 t)) a.2)

/-- The two running sums (scratch 0, scratch 1) after the body at position n: at the first column block of a
    row block they restart from zero, elsewhere they continue from the point before. -/
def accAt1 (c : Dev nD) : (n : ℕ) → n < cfg1.N → Vec F S1024x1 .f32 × Vec F S1024x1 .f32
  | 0, hn => accStep1 V c ⟨0, hn⟩ (k1_pay6 (F := F), k1_pay7 (F := F))
  | n + 1, hn =>
    if (n + 1) % 8 = 0 then accStep1 V c ⟨n + 1, hn⟩ (k1_pay6 (F := F), k1_pay7 (F := F))
    else accStep1 V c ⟨n + 1, hn⟩ (accAt1 c n (Nat.lt_of_succ_lt hn))

theorem accAt1_first (c : Dev nD) (t : Fin cfg1.N) (h : t.val % 8 = 0) : accAt1 V c t.val t.isLt =
    (k1_pay1 (k1_pay6 (F := F)) (k1_pay10 (grid1.coords t) (iblk1 V c 0 t) (iblk1 V c 1 t) (iblk1 V c 2 t) (iblk1 V c 3 t)), k1_pay2 (k1_pay9 (grid1.coords t) (iblk1 V c 0 t) (iblk1 V c 1 t)) (k1_pay7 (F := F))) := by
  obtain ⟨n, hn⟩ := t
  cases n with
  | zero => rfl
  | succ n => exact (if_pos h).trans rfl

theorem accAt1_next (c : Dev nD) (t : Fin cfg1.N) (h : t.val % 8 ≠ 0) : accAt1 V c t.val t.isLt =
    (k1_pay1 (accAt1 V c (t.val - 1) (Nat.lt_of_le_of_lt (Nat.sub_le _ _) t.isLt)).1 (k1_pay10 (grid1.coords t) (iblk1 V c 0 t) (iblk1 V c 1 t) (iblk1 V c 2 t) (iblk1 V c 3 t)), k1_pay2 (k1_pay9 (grid1.coords t) (iblk1 V c 0 t) (iblk1 V c 1 t)) (accAt1 V c (t.val - 1) (Nat.lt_of_le_of_lt (Nat.sub_le _ _) t.isLt)).2) := by
  obtain ⟨n, hn⟩ := t
  cases n with
  | zero => exact absurd (Nat.zero_mod _) h
  | succ n => exact (if_neg h).trans rfl

/-- The invariant before position n: before the first point what the launch hands over; afterwards the two
    scratch buffers at the running sums the point before left, the other scoped buffers at some contents and the
    generator register at some state. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ owns (c : Thread nD τ) scM1_0 fullShare (accAt1 V c n hn).1 ∗ owns (c : Thread nD τ) scM1_1 fullShare (accAt1 V c n hn).2) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ owns (c : Thread nD τ) scM1_0 fullShare (accAt1 V c n hn).1 ∗ owns (c : Thread nD τ) scM1_1 fullShare (accAt1 V c n hn).2) ∗ (∃ r, prngReg c r)) := rfl

theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ owns (c : Thread nD τ) scM1_0 fullShare (accAt1 V c (n - 1) (by omega)).1 ∗ owns (c : Thread nD τ) scM1_1 fullShare (accAt1 V c (n - 1) (by omega)).2) ∗ (∃ r, prngReg c r)) := by
  cases n with
  | zero => exact absurd rfl hz
  | succ n => rfl

/-- The proof data of the second call on core c: the arrays as the region finds them; after the body each input's
    buffer at its block, the two outputs' at the row results computed from the running sums; the invariant above;
    the two windows that read one array hold half of it each; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => k1_pay4 (accAt1 V c t.val t.isLt).1 (accAt1 V c t.val t.isLt).2
    | ⟨5, _⟩ => k1_pay5 (accAt1 V c t.val t.isLt).1
  Φ t := PhiS1 V c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = k1_pay4 (accAt1 V c t.val t.isLt).1 (accAt1 V c t.val t.isLt).2 := by dsimp only [dat1]
theorem after1_5 (c : Dev nD) (t : Fin cfg1.N) : (dat1 V c).after 5 t = k1_pay5 (accAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives it back: the sums' contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨Ha, Hb, Hc, Hd, HS0, HS1⟩, Hg⟩
  isplitr [Hg]
  · isplitl [Ha]; · iexact Ha
    isplitl [Hb]; · iexact Hb
    isplitl [Hc]; · iexact Hc
    isplitl [Hd]; · iexact Hd
    isplitl [HS0]; · iexists _; iexact HS0
    iexists _; iexact HS1
  iexact Hg

theorem hout1 (c : Dev nD) : (dat1 V c).Φ (Fin.last cfg1.N) ⊢ Pipeline.ΦA spec1 c :=
  Phi_out1 V c _ (by rw [Fin.val_last]; have : cfg1.N = 64 := N_1; omega)

end Cert.Kernel.Hand

end
-- ==== Proof.LibReadBack.lean ====
/-
  A block read back after stores the last of which covered it whole.

  When a kernel keeps a running value in a scratch block — store the whole block, load the whole block, store again —
  each load reads the value of the store just before it, whatever was stored earlier and whatever the block held at
  the start. Imports only the library.
-/
import Idealize.ShloMosaic.Lib.Pipeline.Value

noncomputable section

open Idealize.ShloMosaic

namespace Cert.ReadBack

/-- A load of the whole block (the unit-stride rectangle at zero offsets of the block's own sizes, however the zeros
    are spelt), after a list of stores whose LAST one (the head of the list) went through that same rectangle, reads
    that last store's value `w`; the earlier stores `L` are arbitrary. -/
theorem readCov_whole_last {Val : EltTy → Type} [∀ e, Nonempty (Val e)] {S : Shape} {e : EltTy} {sig : RefSig} {κ : Kind}
    {sp : Space} (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl,
    View.ld_unit_zero rfl]

end Cert.ReadBack

end
-- ==== Proof.Bits.Region1RunFirst.lean ====
import proofs.«123631_j42125039239359_1_alg».proof.Proof.Gen.Kernel.Launch
import proofs.«123631_j42125039239359_1_alg».proof.Proof.Gen.Kernel.Skeleton
import proofs.«123631_j42125039239359_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«123631_j42125039239359_1_alg».proof.Proof.Bits.Region1Defs
import proofs.«123631_j42125039239359_1_alg».proof.Proof.LibReadBack
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body at the first column block of a row block: the two scratch buffers, at anything, are first reset to
    zero; then as elsewhere. The scratch buffers end at this block's row sums added to zero. -/
theorem sound_kernel1_first (c : Dev nD) (E : Set ℕ) (i : grid1.Coords) (arg2 : Memref sig .tc .vmem S1024x256 .bf16) (harg2 : arg2.IsWhole) (arg3 : Memref sig .tc .vmem S1024x256 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole)
    (hc0 : cond1_0 i) (hc1 : ¬cond1_1 i)
    (x0 x1 : Vec F S1024x256 .bf16) (x2 : Vec F S1024x1 .i32) (x3 : Vec F S1x1024 .i32) (xi4 xi5 : Vec F S1024x1 .f32)
    (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare (k1_pay1 (k1_pay6 (F := F)) (k1_pay10 i x0 x1 x2 x3)) ∗ owns (c : Thread nD τ) arg9 fullShare (k1_pay2 (k1_pay9 i x0 x1) (k1_pay7 (F := F)))) -∗ K ⟨⟩))
      ⊢ wp frame (wpE (defs₀ (F := F)) Variants.none c none) E (cc1__sim_kernel i arg2 harg2 arg3 harg3 arg4 harg4 arg5 harg5 arg6 harg6 arg7 harg7 arg8 harg8 arg9 harg9) K := by
  simp only [cc1__sim_kernel_eq_skeleton]; unfold cc1__sim_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, Hk⟩
  subst hf0; subst hf1; subst hf2; subst hf3; subst hf4; subst hf5
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [HS0]
  · iexists _; isplitr
    swap; · iexact HS0
    ipureintro
    sl_unfold_run_names
    rw [read_writes_whole1 (S := S1024x1) _ _ hzero1]
    simp only [View.readAt_eq_ld, View.ld_unit_zero (S := S1024x1) hzero1, View.ld_unit_zero (S := S1024x256) hzero1, View.ld_unit_zero (S := S1x1024) hzero1, Cert.ReadBack.readCov_whole_last (S := S1024x1) _ hzero1]
  iexists _; isplitr
  swap; · iexact HS1
  ipureintro
  sl_unfold_run_names
  rw [read_writes_whole1 (S := S1024x1) _ _ hzero1]
  simp only [View.readAt_eq_ld, View.ld_unit_zero (S := S1024x1) hzero1, View.ld_unit_zero (S := S1024x256) hzero1, View.ld_unit_zero (S := S1x1024) hzero1, Cert.ReadBack.readCov_whole_last (S := S1024x1) _ hzero1]

end Cert.Kernel.Hand

end
-- ==== Proof.Bits.Region1RunMid.lean ====
import proofs.«123631_j42125039239359_1_alg».proof.Proof.Gen.Kernel.Launch
import proofs.«123631_j42125039239359_1_alg».proof.Proof.Gen.Kernel.Skeleton
import proofs.«123631_j42125039239359_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«123631_j42125039239359_1_alg».proof.Proof.Bits.Region1Defs
import proofs.«123631_j42125039239359_1_alg».proof.Proof.LibReadBack
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body away from the first and the last column block: on whole buffers, the inputs' at their blocks, the two
    outputs' untouched, the two scratch buffers at the running sums xs0, xs1, it runs to the continuation holding
    everything as it was but the scratch buffers, which hold the sums with this block's row sums added. -/
theorem sound_kernel1_mid (c : Dev nD) (E : Set ℕ) (i : grid1.Coords) (arg2 : Memref sig .tc .vmem S1024x256 .bf16) (harg2 : arg2.IsWhole) (arg3 : Memref sig .tc .vmem S1024x256 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole)
    (hc0 : ¬cond1_0 i) (hc1 : ¬cond1_1 i)
    (x0 x1 : Vec F S1024x256 .bf16) (x2 : Vec F S1024x1 .i32) (x3 : Vec F S1x1024 .i32) (xi4 xi5 xs0 xs1 : Vec F S1024x1 .f32)
    (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xs0 ∗ owns (c : Thread nD τ) arg9 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare (k1_pay1 xs0 (k1_pay10 i x0 x1 x2 x3)) ∗ owns (c : Thread nD τ) arg9 fullShare (k1_pay2 (k1_pay9 i x0 x1) xs1)) -∗ K ⟨⟩))
      ⊢ wp frame (wpE (defs₀ (F := F)) Variants.none c none) E (cc1__sim_kernel i arg2 harg2 arg3 harg3 arg4 harg4 arg5 harg5 arg6 harg6 arg7 harg7 arg8 harg8 arg9 harg9) K := by
  simp only [cc1__sim_kernel_eq_skeleton]; unfold cc1__sim_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
  subst hf0; subst hf1; subst hf2; subst hf3; subst hf4; subst hf5; subst hfs0; subst hfs1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [HS0]
  · iexists _; isplitr
    swap; · iexact HS0
    ipureintro
    sl_unfold_run_names
    rw [read_writes_whole1 (S := S1024x1) _ _ hzero1]
    simp only [View.readAt_eq_ld, View.ld_unit_zero (S := S1024x1) hzero1, View.ld_unit_zero (S := S1024x256) hzero1, View.ld_unit_zero (S := S1x1024) hzero1, Cert.ReadBack.readCov_whole_last (S := S1024x1) _ hzero1]
  iexists _; isplitr
  swap; · iexact HS1
  ipureintro
  sl_unfold_run_names
  rw [read_writes_whole1 (S := S1024x1) _ _ hzero1]
  simp only [View.readAt_eq_ld, View.ld_unit_zero (S := S1024x1) hzero1, View.ld_unit_zero (S := S1024x256) hzero1, View.ld_unit_zero (S := S1x1024) hzero1, Cert.ReadBack.readCov_whole_last (S := S1024x1) _ hzero1]

end Cert.Kernel.Hand

end
-- ==== Proof.Bits.Region1RunLast.lean ====
import proofs.«123631_j42125039239359_1_alg».proof.Proof.Gen.Kernel.Launch
import proofs.«123631_j42125039239359_1_alg».proof.Proof.Gen.Kernel.Skeleton
import proofs.«123631_j42125039239359_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«123631_j42125039239359_1_alg».proof.Proof.Bits.Region1Defs
import proofs.«123631_j42125039239359_1_alg».proof.Proof.LibReadBack
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body at the last column block of a row block: after the sums are updated as elsewhere, the two outputs'
    buffers, at anything, receive the row results computed from the updated sums. -/
theorem sound_kernel1_last (c : Dev nD) (E : Set ℕ) (i : grid1.Coords) (arg2 : Memref sig .tc .vmem S1024x256 .bf16) (harg2 : arg2.IsWhole) (arg3 : Memref sig .tc .vmem S1024x256 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole)
    (hc0 : ¬cond1_0 i) (hc1 : cond1_1 i)
    (x0 x1 : Vec F S1024x256 .bf16) (x2 : Vec F S1024x1 .i32) (x3 : Vec F S1x1024 .i32) (xs0 xs1 : Vec F S1024x1 .f32)
    (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ owns (c : Thread nD τ) arg8 fullShare xs0 ∗ owns (c : Thread nD τ) arg9 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k1_pay4 (k1_pay1 xs0 (k1_pay10 i x0 x1 x2 x3)) (k1_pay2 (k1_pay9 i x0 x1) xs1)) ∗ owns (c : Thread nD τ) arg7 fullShare (k1_pay5 (k1_pay1 xs0 (k1_pay10 i x0 x1 x2 x3))) ∗ owns (c : Thread nD τ) arg8 fullShare (k1_pay1 xs0 (k1_pay10 i x0 x1 x2 x3)) ∗ owns (c : Thread nD τ) arg9 fullShare (k1_pay2 (k1_pay9 i x0 x1) xs1)) -∗ K ⟨⟩))
      ⊢ wp frame (wpE (defs₀ (F := F)) Variants.none c none) E (cc1__sim_kernel i arg2 harg2 arg3 harg3 arg4 harg4 arg5 harg5 arg6 harg6 arg7 harg7 arg8 harg8 arg9 harg9) K := by
  simp only [cc1__sim_kernel_eq_skeleton]; unfold cc1__sim_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, ⟨%fs1, %hfs1, HS1⟩, Hk⟩
  subst hf0; subst hf1; subst hf2; subst hf3; subst hfs0; subst hfs1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    sl_unfold_run_names
    rw [read_writes_whole1 (S := S1024x1) _ _ hzero1]
    simp only [View.readAt_eq_ld, View.ld_unit_zero (S := S1024x1) hzero1, View.ld_unit_zero (S := S1024x256) hzero1, View.ld_unit_zero (S := S1x1024) hzero1, Cert.ReadBack.readCov_whole_last (S := S1024x1) _ hzero1]
  isplitl [H5]
  · iexists _; isplitr
    swap; · iexact H5
    ipureintro
    sl_unfold_run_names
    rw [read_writes_whole1 (S := S1024x1) _ _ hzero1]
    simp only [View.readAt_eq_ld, View.ld_unit_zero (S := S1024x1) hzero1, View.ld_unit_zero (S := S1024x256) hzero1, View.ld_unit_zero (S := S1x1024) hzero1, Cert.ReadBack.readCov_whole_last (S := S1024x1) _ hzero1]
  isplitl [HS0]
  · iexists _; isplitr
    swap; · iexact HS0
    ipureintro
    sl_unfold_run_names
    rw [read_writes_whole1 (S := S1024x1) _ _ hzero1]
    simp only [View.readAt_eq_ld, View.ld_unit_zero (S := S1024x1) hzero1, View.ld_unit_zero (S := S1024x256) hzero1, View.ld_unit_zero (S := S1x1024) hzero1, Cert.ReadBack.readCov_whole_last (S := S1024x1) _ hzero1]
  iexists _; isplitr
  swap; · iexact HS1
  ipureintro
  sl_unfold_run_names
  rw [read_writes_whole1 (S := S1024x1) _ _ hzero1]
  simp only [View.readAt_eq_ld, View.ld_unit_zero (S := S1024x1) hzero1, View.ld_unit_zero (S := S1024x256) hzero1, View.ld_unit_zero (S := S1x1024) hzero1, Cert.ReadBack.readCov_whole_last (S := S1024x1) _ hzero1]

end Cert.Kernel.Hand

end
-- ==== Proof.Bits.Region1.lean ====
import proofs.«123631_j42125039239359_1_alg».proof.Proof.Gen.Kernel.Launch
import proofs.«123631_j42125039239359_1_alg».proof.Proof.Gen.Kernel.Skeleton
import proofs.«123631_j42125039239359_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«123631_j42125039239359_1_alg».proof.Proof.Bits.Region1Data
import proofs.«123631_j42125039239359_1_alg».proof.Proof.Bits.Region1RunFirst
import proofs.«123631_j42125039239359_1_alg».proof.Proof.Bits.Region1RunMid
import proofs.«123631_j42125039239359_1_alg».proof.Proof.Bits.Region1RunLast
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The second call's region: the body obligation -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- The body at any point. The inputs' buffers hold their blocks; the column coordinate says which of the three
    cases the point is in; the invariant hands the body the two scratch buffers at what the point before left (at
    anything at the very first point, where they are reset) and takes them back at this point's sums; the two
    outputs are handed back untouched except at the last column block, where they receive the row results. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  by_cases h0 : t.val % 8 = 0
  · have h1 : ¬t.val % 8 = 7 := by omega
    rw [Dat.leavesExact_idle (dat1 V c) 4 t (idleAt1_4 t (fun h => h1 ((hcond1_1 t).mp h))) (noFlush1_4 t (fun h => h1 ((hcond1_1 t).mp h)))]
    rw [Dat.leavesExact_idle (dat1 V c) 5 t (idleAt1_5 t (fun h => h1 ((hcond1_1 t).mp h))) (noFlush1_5 t (fun h => h1 ((hcond1_1 t).mp h)))]
    rw [accAt1_first V c t h0]
    (try dsimp only)
    by_cases hz : t.val = 0
    · rw [PhiS1_castSucc V c t, PhiS1_zero V c _ _ hz, PhiA1_eq]
      iintro ⟨⟨⟨Ha, Hb, Hc, Hd, HS0, HS1⟩, Hg⟩, Ho, ⟨%d0, H0⟩, ⟨%d1, H1⟩, ⟨%d2, H2⟩, ⟨%d3, H3⟩, ⟨%d4, H4⟩, ⟨%d5, H5⟩⟩
      iapply (sound_kernel1_first c Set.univ (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) _ _ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, HS0, HS1⟩
      isplitl [Ha Hb Hc Hd HS0 HS1 Hg]
      · isplitr [Hg]
        · isplitl [Ha]; · iexact Ha
          isplitl [Hb]; · iexact Hb
          isplitl [Hc]; · iexact Hc
          isplitl [Hd]; · iexact Hd
          isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
    · rw [PhiS1_castSucc V c t, PhiS1_pos V c _ _ hz]
      iintro ⟨⟨⟨Ha, Hb, Hc, Hd, HS0, HS1⟩, Hg⟩, Ho, ⟨%d0, H0⟩, ⟨%d1, H1⟩, ⟨%d2, H2⟩, ⟨%d3, H3⟩, ⟨%d4, H4⟩, ⟨%d5, H5⟩⟩
      iapply (sound_kernel1_first c Set.univ (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) _ _ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      isplitl [HS1]; · iexists _; iexact HS1
      iintro ⟨H0, H1, H2, H3, H4, H5, HS0, HS1⟩
      isplitl [Ha Hb Hc Hd HS0 HS1 Hg]
      · isplitr [Hg]
        · isplitl [Ha]; · iexact Ha
          isplitl [Hb]; · iexact Hb
          isplitl [Hc]; · iexact Hc
          isplitl [Hd]; · iexact Hd
          isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
  · have hz : t.val ≠ 0 := fun e => h0 (by rw [e])
    by_cases h1 : t.val % 8 = 7
    ·
      rw [show (dat1 V c).leavesExact 4 t = owns (c : Thread nD τ) (ms1_4 t) fullShare ((dat1 V c).after 4 t) from by
        unfold Dat.leavesExact; rw [liveAt1_4 t ((hcond1_1 t).mpr h1)], after1_4]
      rw [show (dat1 V c).leavesExact 5 t = owns (c : Thread nD τ) (ms1_5 t) fullShare ((dat1 V c).after 5 t) from by
        unfold Dat.leavesExact; rw [liveAt1_5 t ((hcond1_1 t).mpr h1)], after1_5]
      rw [accAt1_next V c t h0]
      (try dsimp only)
      rw [PhiS1_castSucc V c t, PhiS1_pos V c _ _ hz]
      iintro ⟨⟨⟨Ha, Hb, Hc, Hd, HS0, HS1⟩, Hg⟩, Ho, ⟨%d0, H0⟩, ⟨%d1, H1⟩, ⟨%d2, H2⟩, ⟨%d3, H3⟩, ⟨%d4, H4⟩, ⟨%d5, H5⟩⟩
      iapply (sound_kernel1_last c Set.univ (grid1.coords t) _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) _ _ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      isplitl [HS1]; · iexact HS1
      iintro ⟨H0, H1, H2, H3, H4, H5, HS0, HS1⟩
      isplitl [Ha Hb Hc Hd HS0 HS1 Hg]
      · isplitr [Hg]
        · isplitl [Ha]; · iexact Ha
          isplitl [Hb]; · iexact Hb
          isplitl [Hc]; · iexact Hc
          isplitl [Hd]; · iexact Hd
          isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      iexact H5
    ·
      rw [Dat.leavesExact_idle (dat1 V c) 4 t (idleAt1_4 t (fun h => h1 ((hcond1_1 t).mp h))) (noFlush1_4 t (fun h => h1 ((hcond1_1 t).mp h)))]
      rw [Dat.leavesExact_idle (dat1 V c) 5 t (idleAt1_5 t (fun h => h1 ((hcond1_1 t).mp h))) (noFlush1_5 t (fun h => h1 ((hcond1_1 t).mp h)))]
      rw [accAt1_next V c t h0]
      (try dsimp only)
      rw [PhiS1_castSucc V c t, PhiS1_pos V c _ _ hz]
      iintro ⟨⟨⟨Ha, Hb, Hc, Hd, HS0, HS1⟩, Hg⟩, Ho, ⟨%d0, H0⟩, ⟨%d1, H1⟩, ⟨%d2, H2⟩, ⟨%d3, H3⟩, ⟨%d4, H4⟩, ⟨%d5, H5⟩⟩
      iapply (sound_kernel1_mid c Set.univ (grid1.coords t) _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _ _ _ _ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, HS0, HS1⟩
      isplitl [Ha Hb Hc Hd HS0 HS1 Hg]
      · isplitr [Hg]
        · isplitl [Ha]; · iexact Ha
          isplitl [Hb]; · iexact Hb
          isplitl [Hc]; · iexact Hc
          isplitl [Hd]; · iexact Hd
          isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5

/-- The body obligation of the second call, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.Bits.Run.lean ====
/-
  The run of the whole program, from the launch to the return, for any float instance.

  @main is four segments: the first pallas_call (each block of 1024 rows of the embeddings divided by its clamped
  norm), two reshapes of the labels, the second pallas_call (the 8 x 8 grid of similarity tiles, the two row
  accumulators carried from one column block to the next inside the region's invariant), and the closing host
  operations (two sums, a maximum, a quotient).  Between two segments the core holds every unscoped buffer whole at
  a named valuation: W0 at the launch, W1 after the first pallas_call (its output array at what the write-backs
  leave), W2 after the reshapes, W3 after the second pallas_call (its two output arrays at what the write-backs
  leave), W4 at the end.

  The second pallas_call reads ONE array, the normalised embeddings, through two windows (the row block and the
  column block).  At its entry that array's full share is dealt as its two halves, one to each window, and at its exit
  the halves are joined again: both windows are inputs, so each half still holds the entry contents.

  The run theorem says every final state holds each unscoped buffer at W4; the frame (both argument arrays end as
  launched) is read off it, no segment writing an argument.
-/
import proofs.«123631_j42125039239359_1_alg».proof.Proof.Gen.Kernel.Launch
import proofs.«123631_j42125039239359_1_alg».proof.Proof.Gen.Kernel.Skeleton
import proofs.«123631_j42125039239359_1_alg».proof.Proof.Gen.Kernel.Points
import proofs.«123631_j42125039239359_1_alg».proof.Proof.Bits.Region0
import proofs.«123631_j42125039239359_1_alg».proof.Proof.Bits.Region1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The distinct buffers behind region 1's six windows: windows 0 and 1 read one array. -/
theorem arrImage1 : (Finset.univ.image (Pipeline.arrRef spec1)) = ([main_v0, main_v1, main_v2, main_v3_0, main_v3_1] : List (Ref sig .tc)).toFinset := by decide

/-- The buffers behind region 1's windows, one by one. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v0) ↦{fullShare} V main_v0) ∗ (((c : Thread nD τ).loc main_v1) ↦{fullShare} V main_v1)
          ∗ (((c : Thread nD τ).loc main_v2) ↦{fullShare} V main_v2) ∗ (((c : Thread nD τ).loc main_v3_0) ↦{fullShare} V main_v3_0)
          ∗ (((c : Thread nD τ).loc main_v3_1) ↦{fullShare} V main_v3_1)) := by
  unfold Pipeline.arrBufs; exact bigSep_eq_bigSepL_of_eq _ arrImage1 (by decide) _

section SharedArray

variable {c : Dev nD} (dat : Dat τ (Elt F) Unit ℕ (UR sig nD τ) ℕ cfg1 c)
  (hq0 : dat.q 0 = fullShare.left) (hq1 : dat.q 1 = fullShare.right) (hq2 : dat.q 2 = fullShare) (hq3 : dat.q 3 = fullShare)

include hq0 hq1 hq2 hq3 in
/-- The shares region 1's proof data hold the windows' arrays at: the two windows on the one array a half each. -/
theorem shares1 : dat.share 0 = fullShare.left ∧ dat.share 1 = fullShare.right ∧ dat.share 2 = fullShare ∧ dat.share 3 = fullShare
    ∧ dat.share 4 = fullShare ∧ dat.share 5 = fullShare := by
  unfold Dat.share
  refine ⟨?_, ?_, ?_, ?_, ?_, ?_⟩
  · rw [if_neg (by decide)]; exact hq0
  · rw [if_neg (by decide)]; exact hq1
  · rw [if_neg (by decide)]; exact hq2
  · rw [if_neg (by decide)]; exact hq3
  · rw [if_pos (by decide)]
  · rw [if_pos (by decide)]

include hq0 hq1 hq2 hq3 in
/-- ENTRY: the five buffers behind the windows, each whole at the full share, are the six windows' arrays, the
    shared one dealt as its two halves. -/
theorem arrays1_split (V : (b : Ref sig .tc) → Buf (Elt F) ((c : Thread nD τ).loc b))
    (Fa : (w : Fin cfg1.W) → Buf (Elt F) ((cfg1.win w).arr.view.loc (c.tc : Thread nD τ)))
    (hF : ∀ w, Fa w = V (Pipeline.arrRef spec1 w)) :
    (Pipeline.arrBufs (Ix := Unit) (Name := ℕ) (U := UR sig nD τ) (Lvl := ℕ) spec1 c V : sProp 𝕄) ⊢ dat.arrays Fa := by
  obtain ⟨s0, s1, s2, s3, s4, s5⟩ := shares1 dat hq0 hq1 hq2 hq3
  rw [arrBufs1_eq]
  unfold Dat.arrays
  rw [bigSep_W1]
  rw [hF 0, hF 1, hF 2, hF 3, hF 4, hF 5, s0, s1, s2, s3, s4, s5,
    (arr_whole1 0).set_eq_univ, (arr_whole1 2).set_eq_univ, (arr_whole1 3).set_eq_univ,
    (arr_whole1 4).set_eq_univ, (arr_whole1 5).set_eq_univ]
  iintro ⟨H0, H1, H2, H3, H4⟩
  ihave H0' := (pointsTo_share (PosShare.mem_left_op_right fullShare)).1 $$ H0
  icases H0' with ⟨Hl, Hr⟩
  isplitl [Hl]; · iexact Hl
  isplitl [Hr]; · iexact Hr
  isplitl [H1]; · iexact H1
  isplitl [H2]; · iexact H2
  isplitl [H3]; · iexact H3
  iexact H4

include hq0 hq1 hq2 hq3 in
/-- EXIT: the six windows' arrays, the two on the shared array at one contents, are the five buffers whole again. -/
theorem arrays1_join (V' : (b : Ref sig .tc) → Buf (Elt F) ((c : Thread nD τ).loc b))
    (Fa : (w : Fin cfg1.W) → Buf (Elt F) ((cfg1.win w).arr.view.loc (c.tc : Thread nD τ)))
    (hF : ∀ w, Fa w = V' (Pipeline.arrRef spec1 w)) :
    dat.arrays Fa ⊢ (Pipeline.arrBufs (Ix := Unit) (Name := ℕ) (U := UR sig nD τ) (Lvl := ℕ) spec1 c V' : sProp 𝕄) := by
  obtain ⟨s0, s1, s2, s3, s4, s5⟩ := shares1 dat hq0 hq1 hq2 hq3
  rw [arrBufs1_eq]
  unfold Dat.arrays
  rw [bigSep_W1]
  rw [hF 0, hF 1, hF 2, hF 3, hF 4, hF 5, s0, s1, s2, s3, s4, s5,
    (arr_whole1 0).set_eq_univ, (arr_whole1 2).set_eq_univ, (arr_whole1 3).set_eq_univ,
    (arr_whole1 4).set_eq_univ, (arr_whole1 5).set_eq_univ]
  iintro ⟨Hl, Hr, H1, H2, H3, H4⟩
  isplitl [Hl Hr]
  · iapply (pointsTo_share (PosShare.mem_left_op_right fullShare)).2
    isplitl [Hl]; · iexact Hl
    iexact Hr
  isplitl [H1]; · iexact H1
  isplitl [H2]; · iexact H2
  isplitl [H3]; · iexact H3
  iexact H4

end SharedArray

/-! # The run: @main's four segments from the launch to the return -/

section Run

variable (m : (ℓ : Loc nD τ sig) → Buf (Elt F) ℓ) (ρ : Dev nD → PrngReg)

/-- Core c's buffers at launch. -/
abbrev W0 : Dev nD → Valuation τ sig (Elt F) := fun c b => (s₀ m ρ).mem ((c : Dev nD), b)
/-- The same read at the TensorCore's references: what region 0 is entered from. -/
abbrev E0 : (c : Dev nD) → (b : Ref sig .tc) → Buf (Elt F) ((c : Thread nD τ).loc b) := fun c b => W0 m ρ c b
/-- After region 0: its output array at what the write-backs leave, every other buffer as entered. -/
def W1 (c : Dev nD) : Valuation τ sig (Elt F) :=
  Pipeline.withArrays spec0 c (W0 m ρ c) fun w => (dat0 (E0 m ρ) c).arrAt w cfg0.N
theorem W1_arr (c : Dev nD) (w : Fin cfg0.W) :
    W1 m ρ c (Proc.devRef .tc (Pipeline.arrRef spec0 w)) = (dat0 (E0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev E1 : (c : Dev nD) → (b : Ref sig .tc) → Buf (Elt F) ((c : Thread nD τ).loc b) := fun c b => W1 m ρ c b
theorem hF0 (c : Dev nD) (w : Fin cfg0.W) : (dat0 (E0 m ρ) c).arrAt w cfg0.N = E1 m ρ c (Pipeline.arrRef spec0 w) :=
  (W1_arr m ρ c w).symm
theorem hrest0 (c : Dev nD) : ∀ b, b ∉ Finset.univ.image (Pipeline.arrRef spec0) → E1 m ρ c b = E0 m ρ c b :=
  fun b hb => W1_of_ne m ρ c b fun w e => hb (Finset.mem_image.mpr ⟨w, Finset.mem_univ _, e⟩)
/-- After the two reshapes of the labels: what region 1 is entered from. -/
abbrev W2 : Dev nD → Valuation τ sig (Elt F) := fun c => StableHlo.after hostOps1 (W1 m ρ c)
abbrev E2 : (c : Dev nD) → (b : Ref sig .tc) → Buf (Elt F) ((c : Thread nD τ).loc b) := fun c b => W2 m ρ c b
/-- After region 1: its two output arrays at what the write-backs leave, every other buffer as entered. -/
def W3 (c : Dev nD) : Valuation τ sig (Elt F) :=
  Function.update (Function.update (W2 m ρ c) (Proc.devRef .tc main_v3_0) ((dat1 (E2 m ρ) c).arrAt 4 cfg1.N))
    (Proc.devRef .tc main_v3_1) ((dat1 (E2 m ρ) c).arrAt 5 cfg1.N)
theorem W3_v3_0 (c : Dev nD) : W3 m ρ c (Proc.devRef .tc main_v3_0) = (dat1 (E2 m ρ) c).arrAt 4 cfg1.N := by
  unfold W3
  rw [Function.update_of_ne (StableHlo.devRef_ne_of_ne (by decide) : (Proc.devRef .tc main_v3_0 : DevRef τ sig) ≠ Proc.devRef .tc main_v3_1), Function.update_self]
theorem W3_v3_1 (c : Dev nD) : W3 m ρ c (Proc.devRef .tc main_v3_1) = (dat1 (E2 m ρ) c).arrAt 5 cfg1.N := by
  unfold W3; rw [Function.update_self]
theorem W3_of_ne (c : Dev nD) (b : Ref sig .tc) (h0 : b ≠ main_v3_0) (h1 : b ≠ main_v3_1) :
    W3 m ρ c (Proc.devRef .tc b) = W2 m ρ c (Proc.devRef .tc b) := by
  unfold W3
  rw [Function.update_of_ne (StableHlo.devRef_ne_of_ne h1 : (Proc.devRef .tc b : DevRef τ sig) ≠ Proc.devRef .tc main_v3_1),
    Function.update_of_ne (StableHlo.devRef_ne_of_ne h0 : (Proc.devRef .tc b : DevRef τ sig) ≠ Proc.devRef .tc main_v3_0)]
abbrev E3 : (c : Dev nD) → (b : Ref sig .tc) → Buf (Elt F) ((c : Thread nD τ).loc b) := fun c b => W3 m ρ c b
/-- After the closing host operations. -/
abbrev W4 : Dev nD → Valuation τ sig (Elt F) := fun c => StableHlo.after hostOps2 (W3 m ρ c)

/-- At region 1's exit each of its arrays holds what the pipeline leaves: an input's array its entry contents. -/
theorem hF1 (c : Dev nD) (w : Fin cfg1.W) : (dat1 (E2 m ρ) c).arrAt w cfg1.N = E3 m ρ c (Pipeline.arrRef spec1 w) := by
  match w with
  | ⟨0, _⟩ => exact (((dat1 (E2 m ρ) c).arrAt_in 0 rfl _).trans (A_eq1 (E2 m ρ) c 0)).trans (W3_of_ne m ρ c main_v0 (by decide) (by decide)).symm
  | ⟨1, _⟩ => exact (((dat1 (E2 m ρ) c).arrAt_in 1 rfl _).trans (A_eq1 (E2 m ρ) c 1)).trans (W3_of_ne m ρ c main_v0 (by decide) (by decide)).symm
  | ⟨2, _⟩ => exact (((dat1 (E2 m ρ) c).arrAt_in 2 rfl _).trans (A_eq1 (E2 m ρ) c 2)).trans (W3_of_ne m ρ c main_v1 (by decide) (by decide)).symm
  | ⟨3, _⟩ => exact (((dat1 (E2 m ρ) c).arrAt_in 3 rfl _).trans (A_eq1 (E2 m ρ) c 3)).trans (W3_of_ne m ρ c main_v2 (by decide) (by decide)).symm
  | ⟨4, _⟩ => exact (W3_v3_0 m ρ c).symm
  | ⟨5, _⟩ => exact (W3_v3_1 m ρ c).symm
theorem hrest1 (c : Dev nD) : ∀ b, b ∉ Finset.univ.image (Pipeline.arrRef spec1) → E3 m ρ c b = E2 m ρ c b :=
  fun b hb => W3_of_ne m ρ c b (fun e => hb (Finset.mem_image.mpr ⟨4, Finset.mem_univ _, e.symm⟩))
    (fun e => hb (Finset.mem_image.mpr ⟨5, Finset.mem_univ _, e.symm⟩))

end Run

section Launch

variable (m : (ℓ : Loc nD τ sig) → Buf (Elt F) ℓ) (ρ : Dev nD → PrngReg)

/-- The prefetched tables' admissible contents: no pipeline has a table. -/
abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (E0 m ρ) c
  | ⟨1, _⟩ => fun c => dat1 (E2 m ρ) c
abbrev 𝒱₀ : Variants := Variants.none
abbrev L : GSem nD τ sig → Finset Unit := fun _ => ∅
abbrev lv : GSem nD τ sig → Unit → ℕ := fun _ _ => 0
/-- What rides beside the buffers through every segment: the random-number register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

set_option backward.isDefEq.respectTransparency.types false in
/-- Region 0 over the thread state: entered from every unscoped buffer at the launch contents, left with its output
    array at what the write-backs leave. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (E0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E0 m ρ c) (E1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- ENTRY of region 1, the arrays' part: the core's unscoped buffers are the six windows' arrays (the array two
    windows read dealt as its halves) and the rest. -/
theorem entry1 (c : Dev nD) :
    (unscopedBufs c (E2 m ρ c) : sProp 𝕄) ⊢ iprop((dat1 (E2 m ρ) c).arrays ((dat1 (E2 m ρ) c).arrAt · 0)
      ∗ Pipeline.unscopedRest (Ix := Unit) (Name := ℕ) (U := UR sig nD τ) (Lvl := ℕ) spec1 c (E2 m ρ c)) := by
  rw [Pipeline.unscopedBufs_split₀ cfgs 1 winFacts₀1.arr_unscoped c (E2 m ρ c)]
  exact sep_mono (arrays1_split (dat1 (E2 m ρ) c) rfl rfl rfl rfl (E2 m ρ c) _ (fun w => A_eq1 (E2 m ρ) c w)) .rfl

/-- EXIT of region 1, the arrays' part: the windows' arrays at what the pipeline leaves and the rest are the core's
    unscoped buffers at the exit contents. -/
theorem exit1 (c : Dev nD) :
    iprop((dat1 (E2 m ρ) c).arrays ((dat1 (E2 m ρ) c).arrAt · cfg1.N)
      ∗ Pipeline.unscopedRest (Ix := Unit) (Name := ℕ) (U := UR sig nD τ) (Lvl := ℕ) spec1 c (E2 m ρ c)) ⊢ (unscopedBufs c (E3 m ρ c) : sProp 𝕄) := by
  rw [Pipeline.unscopedBufs_split₀ cfgs 1 winFacts₀1.arr_unscoped c (E3 m ρ c)]
  refine sep_mono (arrays1_join (dat1 (E2 m ρ) c) rfl rfl rfl rfl (E3 m ρ c) _ (hF1 m ρ c)) (Entails.of_eq ?_)
  unfold Pipeline.unscopedRest
  exact bigSep_congr fun b hb => by rw [hrest1 m ρ c b (Finset.mem_sdiff.mp hb).2]

end Launch

section Launch2

variable (m : (ℓ : Loc nD τ sig) → Buf (Elt F) ℓ) (ρ : Dev nD → PrngReg)

set_option backward.isDefEq.respectTransparency.types false in
/-- Region 1 over the thread state: entered from every unscoped buffer after the reshapes, left with its two output
    arrays at what the write-backs leave; the carried accumulators live inside the invariant only. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (E2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (E2 m ρ c)
  hentry c := by
    rw [Pipeline.ownSems0_none]
    have hsplit : (unscopedBufs c (E2 m ρ c) : sProp 𝕄) ⊢ iprop((pdats m ρ 1 c).arrays ((pdats m ρ 1 c).arrAt · 0)
        ∗ Pipeline.unscopedRest (Ix := Unit) (Name := ℕ) (U := UR sig nD τ) (Lvl := ℕ) spec1 c (E2 m ρ c)) := entry1 m ρ c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (E2 m ρ) c)
    unfold Pipeline.ΦA
    iintro ⟨Hp, -, Hr⟩
    isplitl [Hr]; · iexact Hr
    iexact Hp
  hout c := by
    rw [Pipeline.ownSems0_none]
    refine (hout1 (E2 m ρ) c).trans ?_
    unfold Pipeline.ΦA
    iintro ⟨Hr, Hp⟩
    isplitl [Hp]; · iexact Hp
    isplitr; · iempintro
    iexact Hr
  hexit c := by
    have hjoin : iprop((pdats m ρ 1 c).arrays ((pdats m ρ 1 c).arrAt · cfg1.N)
        ∗ Pipeline.unscopedRest (Ix := Unit) (Name := ℕ) (U := UR sig nD τ) (Lvl := ℕ) spec1 c (E2 m ρ c)) ⊢ (unscopedBufs c (E3 m ρ c) : sProp 𝕄) := exit1 m ρ c
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- @main's four segments in order. -/
abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .host (hseg hostOps2 hostOps2_sub hostOps2_fresh (W3 m ρ)) ]
theorem main_run (c : Dev nD) : main (F := F) c = Pipeline.Seg.run (segs m ρ) := (main_chain c).trans (by chain_rfl)

set_option backward.isDefEq.respectTransparency.types false in
/-- THE RUN. From any memory with zero counters every weakly fair execution of @main terminates, nothing faulting,
    and every final state holds each unscoped buffer at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (W4 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

end Launch2

section Frame

variable (m : (ℓ : Loc nD τ sig) → Buf (Elt F) ℓ) (ρ : Dev nD → PrngReg)

/-- No reshape of the labels writes buffer b. -/
theorem after1_keeps (W : Valuation τ sig (Elt F)) (b : Ref sig .tc) (h1 : b ≠ main_v1) (h2 : b ≠ main_v2) :
    StableHlo.after hostOps1 W (Proc.devRef .tc b) = W (Proc.devRef .tc b) :=
  StableHlo.after_of_forall_not_mem (b := Proc.devRef .tc b) _ _ (List.forall_iff_forall_mem.mp (by
    simp only [hostOps1, List.Forall, StableHlo.reshape_writes, Finset.mem_singleton]
    exact ⟨StableHlo.devRef_ne_of_ne h1, StableHlo.devRef_ne_of_ne h2⟩))

/-- No closing host operation writes an argument. -/
theorem after2_keeps_arg (W : Valuation τ sig (Elt F)) (b : Ref sig .tc) (hb : b = main_arg0 ∨ b = main_arg1) :
    StableHlo.after hostOps2 W (Proc.devRef .tc b) = W (Proc.devRef .tc b) :=
  StableHlo.after_of_forall_not_mem (b := Proc.devRef .tc b) _ _ (List.forall_iff_forall_mem.mp (by
    simp only [hostOps2, List.Forall, StableHlo.nullary_writes, StableHlo.binary_writes, Finset.mem_singleton]
    rcases hb with rfl | rfl
    · repeat' apply And.intro
      all_goals exact StableHlo.devRef_ne_of_ne (by decide)
    · repeat' apply And.intro
      all_goals exact StableHlo.devRef_ne_of_ne (by decide)))

/-- The embeddings array reaches the end as launched. -/
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := after2_keeps_arg _ main_arg0 (Or.inl rfl)
    _ = W2 m ρ c (Proc.devRef .tc main_arg0) := W3_of_ne m ρ c main_arg0 (by decide) (by decide)
    _ = W1 m ρ c (Proc.devRef .tc main_arg0) := after1_keeps _ main_arg0 (by decide) (by decide)
    _ = W0 m ρ c (Proc.devRef .tc main_arg0) := (W1_arr m ρ c 0).trans (((dat0 (E0 m ρ) c).arrAt_in 0 rfl _).trans (A_eq0 (E0 m ρ) c 0))
    _ = m ((c : Thread nD τ).loc main_arg0) := rfl

/-- The labels array reaches the end as launched. -/
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := after2_keeps_arg _ main_arg1 (Or.inr rfl)
    _ = W2 m ρ c (Proc.devRef .tc main_arg1) := W3_of_ne m ρ c main_arg1 (by decide) (by decide)
    _ = W1 m ρ c (Proc.devRef .tc main_arg1) := after1_keeps _ main_arg1 (by decide) (by decide)
    _ = W0 m ρ c (Proc.devRef .tc main_arg1) := W1_of_ne m ρ c main_arg1 (by decide)
    _ = m ((c : Thread nD τ).loc main_arg1) := rfl

/-- THE FRAME: every weakly fair execution of @main terminates, nothing faulting, and both argument arrays end as
    launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W4_main_arg0 m ρ c),
     (h c _ (mem_uc main_arg1 (by decide))).trans (W4_main_arg1 m ρ c)⟩) (run_main m ρ)

end Frame

end Cert.Kernel.Hand

end
-- ==== Proof.Ideal.Region0.lean ====
/-
  Region 0 of the kernel program: the row-normalising kernel, one class of control, on a grid of 8 points.
  At each point the body reads the whole 1024 x 256 input block, and overwrites the whole 1024 x 256 output block
  with one function of that input block (each row divided by its clamped Euclidean norm, rounded to the short
  float format).  Everything here is stated at a parameter V, the buffer contents of the core when the region
  is entered, and is generic in the float model.
-/
import proofs.«123631_j42125039239359_1_alg».proof.Proof.Gen.KernelIdeal.Launch
import proofs.«123631_j42125039239359_1_alg».proof.Proof.Gen.KernelIdeal.Skeleton
import proofs.«123631_j42125039239359_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, for any proof data whose array is
    V's and whose body leaves the block in place: the window is fetched at every point, uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The one rectangle the body touches: the whole 1024 x 256 block. -/
abbrev r0_0 : Rect S1024x256 := Rect.unit (s := S1024x256) ![0, 0] S1024x256.size inb_S1024x256_S1024x256_0_0

/-! ## What the body leaves in the output window's buffer -/

/-- The output buffer after the body, as a function of the input block: the one store, of the normalised rows. -/
def out0_1 (x0 : Vec F S1024x256 .f32) : Vec F S1024x256 .bf16 :=
  View.canon [⟨r0_0, k0_pay1 (View.ld x0 r0_0)⟩]

/-- The one store is of the whole block, so it covers the buffer. -/
theorem cover0_1 (p0 : Vec F S1024x256 .bf16) (y : S1024x256.Idx) :
    ∃ pc ∈ ([⟨r0_0, p0⟩] : List (View.Piece (Elt F) S1024x256 .bf16)), y ∈ pc.1.set :=
  View.cover_of_tiled [⟨r0_0, p0⟩] S1024x256.size (by rfl) y

/-! ## The body's triple -/

set_option maxHeartbeats 1000000 in
/-- The body on whole staging memrefs, the input's at contents x0 and the output's at anything, runs to the
    continuation holding the input's as it was and the output's at out0_1 x0, whatever the grid coordinate. -/
theorem sound_kernel0 (c : Dev nD) (E : Set ℕ) (i : grid0.Coords) (arg1 : Memref sig .tc .vmem S1024x256 .f32) (harg1 : arg1.IsWhole)
    (arg2 : Memref sig .tc .vmem S1024x256 .bf16) (harg2 : arg2.IsWhole)
    (x0 : Vec F S1024x256 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__normalize_kernel i arg1 harg1 arg2 harg2) K := by
  simp only [cc0__normalize_kernel_eq_skeleton]; unfold cc0__normalize_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-! ## The pipeline's proof data -/

/-- The proof data of pipeline 0 on core c: the arrays as the region finds them; after the body at point t the
    input's buffer at its block and the output's at out0_1 of the input block; the invariant is the rest of the
    core's scoped memory and its generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

/-- The input's current staging buffer holds its block at every point. -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the input's memref holds its block, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.Ideal.Region1Defs.lean ====
import proofs.«123631_j42125039239359_1_alg».proof.Proof.Gen.KernelIdeal.Launch
import proofs.«123631_j42125039239359_1_alg».proof.Proof.Gen.KernelIdeal.Skeleton
import proofs.«123631_j42125039239359_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! # The second call's region: the blocks its windows read, and the control of its body -/

/-- The block of window w at point t, read off the window's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every point, whether the point fetches it or not:
    where it is not fetched the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The two conditionals of the body, in closed form over the grid -/

/-- The first conditional (the reset of the two running sums): the column coordinate is 0. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- The second conditional (the row results are written out): the column coordinate is 7. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Away from the last column block the two outputs are idle and not written back. -/
theorem idleAt1_4 : ∀ t : Fin cfg1.N, ¬cond1_1 (grid1.coords t) → cfg1.idle 4 (grid1.coords t) = true := by decide +kernel
theorem idleAt1_5 : ∀ t : Fin cfg1.N, ¬cond1_1 (grid1.coords t) → cfg1.idle 5 (grid1.coords t) = true := by decide +kernel
theorem noFlush1_4 : ∀ t : Fin cfg1.N, ¬cond1_1 (grid1.coords t) → (cfg1.win 4).flush t = false := by decide +kernel
theorem noFlush1_5 : ∀ t : Fin cfg1.N, ¬cond1_1 (grid1.coords t) → (cfg1.win 5).flush t = false := by decide +kernel
/-- At the last column block they are live. -/
theorem liveAt1_4 : ∀ t : Fin cfg1.N, cond1_1 (grid1.coords t) → cfg1.idle 4 (grid1.coords t) = false := by decide +kernel
theorem liveAt1_5 : ∀ t : Fin cfg1.N, cond1_1 (grid1.coords t) → cfg1.idle 5 (grid1.coords t) = false := by decide +kernel

/-! ## The buffers the body is called on -/

abbrev ms1_0 (t : Fin cfg1.N) : Memref sig .tc .vmem S1024x256 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1 .i32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024 .i32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x1 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024x1 .f32 := win1_5.stage (cfg1.slots t 5)
abbrev hs1_5 (t : Fin cfg1.N) : (ms1_5 t).IsWhole := hstage1_5 ((cfg1.slots t 5).cast nbuf1_5)
/-- The two running sums live in two scratch buffers of the call's own. -/
abbrev scM1_0 : Memref sig .tc .vmem S1024x1 .f32 := Memref.whole cc1_scratch0
abbrev scM1_1 : Memref sig .tc .vmem S1024x1 .f32 := Memref.whole cc1_scratch1

/-- What the launch hands the body beside the windows: the first call's four staging buffers and the two
    scratch buffers, each whole at some contents, and the generator register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ d, owns (c : Thread nD τ) scM1_0 fullShare d) ∗ (∃ d, owns (c : Thread nD τ) scM1_1 fullShare d)) ∗ (∃ r, prngReg c r)) := by
  unfold Pipeline.ΦA; rw [scopedRest1_eq]; simp only [scM1_0, scM1_1, owns_whole]; try rfl

/-! ## Whole-buffer stores read back -/

theorem hzero1 : (![0, 0] : Fin 2 → Nat) = fun _ => 0 := funext fun a => by fin_cases a <;> rfl

/-- A store through the whole buffer covers it, whatever was stored before. -/
theorem cover_whole1 {Val : EltTy → Type} {S : Shape} {e : EltTy} {off : Fin S.rank → Nat} (h : off = fun _ => 0)
    (inb : ∀ a, off a + S.size a ≤ S.size a) (w : S.Idx → Val e) (L : List (View.Piece Val S e)) (y : S.Idx) :
    ∃ p ∈ ((⟨Rect.unit off S.size inb, w⟩ : View.Piece Val S e) :: L), y ∈ p.1.set := by
  subst h
  exact ⟨_, List.mem_cons_self, by show y ∈ (Rect.whole S).set; rw [Rect.set_whole]; exact Finset.mem_univ y⟩

/-- After stores the last of which went through the whole buffer, the buffer holds that store's value. -/
theorem read_writes_whole1 {Val : EltTy → Type} [∀ e, Nonempty (Val e)] {S : Shape} {e : EltTy} {sig : RefSig} {κ : Kind} {sp : Space}
    (v : View sig κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (cover_whole1 h inb w L), View.canon_cons_unit_zero h]

end Cert.KernelIdeal.Hand

end
-- ==== Proof.Ideal.Region1Data.lean ====
import proofs.«123631_j42125039239359_1_alg».proof.Proof.Gen.KernelIdeal.Launch
import proofs.«123631_j42125039239359_1_alg».proof.Proof.Gen.KernelIdeal.Skeleton
import proofs.«123631_j42125039239359_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«123631_j42125039239359_1_alg».proof.Proof.Ideal.Region1Defs
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! # The second call's region: the two running sums point by point, and the proof data -/

/-- One point's step of the two running sums: the row sums of the positives' block and of the whole block of
    exponentials at point t, added to what the sums held. -/
def accStep1 (c : Dev nD) (t : Fin cfg1.N) (a : Vec F S1024x1 .f32 × Vec F S1024x1 .f32) : Vec F S1024x1 .f32 × Vec F S1024x1 .f32 :=
  (k1_pay1 a.1 (k1_pay10 (grid1.coords t) (iblk1 V c 0 t) (iblk1 V c 1 t) (iblk1 V c 2 t) (iblk1 V c 3 t)), k1_pay2 (k1_pay9 (grid1.coords t) (iblk1 V c 0 t) (iblk1 V c 1 t)) a.2)

/-- The two running sums (scratch 0, scratch 1) after the body at position n: at the first column block of a
    row block they restart from zero, elsewhere they continue from the point before. -/
def accAt1 (c : Dev nD) : (n : ℕ) → n < cfg1.N → Vec F S1024x1 .f32 × Vec F S1024x1 .f32
  | 0, hn => accStep1 V c ⟨0, hn⟩ (k1_pay6 (F := F), k1_pay7 (F := F))
  | n + 1, hn =>
    if (n + 1) % 8 = 0 then accStep1 V c ⟨n + 1, hn⟩ (k1_pay6 (F := F), k1_pay7 (F := F))
    else accStep1 V c ⟨n + 1, hn⟩ (accAt1 c n (Nat.lt_of_succ_lt hn))

theorem accAt1_first (c : Dev nD) (t : Fin cfg1.N) (h : t.val % 8 = 0) : accAt1 V c t.val t.isLt =
    (k1_pay1 (k1_pay6 (F := F)) (k1_pay10 (grid1.coords t) (iblk1 V c 0 t) (iblk1 V c 1 t) (iblk1 V c 2 t) (iblk1 V c 3 t)), k1_pay2 (k1_pay9 (grid1.coords t) (iblk1 V c 0 t) (iblk1 V c 1 t)) (k1_pay7 (F := F))) := by
  obtain ⟨n, hn⟩ := t
  cases n with
  | zero => rfl
  | succ n => exact (if_pos h).trans rfl

theorem accAt1_next (c : Dev nD) (t : Fin cfg1.N) (h : t.val % 8 ≠ 0) : accAt1 V c t.val t.isLt =
    (k1_pay1 (accAt1 V c (t.val - 1) (Nat.lt_of_le_of_lt (Nat.sub_le _ _) t.isLt)).1 (k1_pay10 (grid1.coords t) (iblk1 V c 0 t) (iblk1 V c 1 t) (iblk1 V c 2 t) (iblk1 V c 3 t)), k1_pay2 (k1_pay9 (grid1.coords t) (iblk1 V c 0 t) (iblk1 V c 1 t)) (accAt1 V c (t.val - 1) (Nat.lt_of_le_of_lt (Nat.sub_le _ _) t.isLt)).2) := by
  obtain ⟨n, hn⟩ := t
  cases n with
  | zero => exact absurd (Nat.zero_mod _) h
  | succ n => exact (if_neg h).trans rfl

/-- The invariant before position n: before the first point what the launch hands over; afterwards the two
    scratch buffers at the running sums the point before left, the other scoped buffers at some contents and the
    generator register at some state. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ owns (c : Thread nD τ) scM1_0 fullShare (accAt1 V c n hn).1 ∗ owns (c : Thread nD τ) scM1_1 fullShare (accAt1 V c n hn).2) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ owns (c : Thread nD τ) scM1_0 fullShare (accAt1 V c n hn).1 ∗ owns (c : Thread nD τ) scM1_1 fullShare (accAt1 V c n hn).2) ∗ (∃ r, prngReg c r)) := rfl

theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ owns (c : Thread nD τ) scM1_0 fullShare (accAt1 V c (n - 1) (by omega)).1 ∗ owns (c : Thread nD τ) scM1_1 fullShare (accAt1 V c (n - 1) (by omega)).2) ∗ (∃ r, prngReg c r)) := by
  cases n with
  | zero => exact absurd rfl hz
  | succ n => rfl

/-- The proof data of the second call on core c: the arrays as the region finds them; after the body each input's
    buffer at its block, the two outputs' at the row results computed from the running sums; the invariant above;
    the two windows that read one array hold half of it each; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => k1_pay4 (accAt1 V c t.val t.isLt).1 (accAt1 V c t.val t.isLt).2
    | ⟨5, _⟩ => k1_pay5 (accAt1 V c t.val t.isLt).1
  Φ t := PhiS1 V c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = k1_pay4 (accAt1 V c t.val t.isLt).1 (accAt1 V c t.val t.isLt).2 := by dsimp only [dat1]
theorem after1_5 (c : Dev nD) (t : Fin cfg1.N) : (dat1 V c).after 5 t = k1_pay5 (accAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives it back: the sums' contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨Ha, Hb, Hc, Hd, HS0, HS1⟩, Hg⟩
  isplitr [Hg]
  · isplitl [Ha]; · iexact Ha
    isplitl [Hb]; · iexact Hb
    isplitl [Hc]; · iexact Hc
    isplitl [Hd]; · iexact Hd
    isplitl [HS0]; · iexists _; iexact HS0
    iexists _; iexact HS1
  iexact Hg

theorem hout1 (c : Dev nD) : (dat1 V c).Φ (Fin.last cfg1.N) ⊢ Pipeline.ΦA spec1 c :=
  Phi_out1 V c _ (by rw [Fin.val_last]; have : cfg1.N = 64 := N_1; omega)

end Cert.KernelIdeal.Hand

end
-- ==== Proof.Ideal.Region1RunFirst.lean ====
import proofs.«123631_j42125039239359_1_alg».proof.Proof.Gen.KernelIdeal.Launch
import proofs.«123631_j42125039239359_1_alg».proof.Proof.Gen.KernelIdeal.Skeleton
import proofs.«123631_j42125039239359_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«123631_j42125039239359_1_alg».proof.Proof.Ideal.Region1Defs
import proofs.«123631_j42125039239359_1_alg».proof.Proof.LibReadBack
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body at the first column block of a row block: the two scratch buffers, at anything, are first reset to
    zero; then as elsewhere. The scratch buffers end at this block's row sums added to zero. -/
theorem sound_kernel1_first (c : Dev nD) (E : Set ℕ) (i : grid1.Coords) (arg2 : Memref sig .tc .vmem S1024x256 .bf16) (harg2 : arg2.IsWhole) (arg3 : Memref sig .tc .vmem S1024x256 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole)
    (hc0 : cond1_0 i) (hc1 : ¬cond1_1 i)
    (x0 x1 : Vec F S1024x256 .bf16) (x2 : Vec F S1024x1 .i32) (x3 : Vec F S1x1024 .i32) (xi4 xi5 : Vec F S1024x1 .f32)
    (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare (k1_pay1 (k1_pay6 (F := F)) (k1_pay10 i x0 x1 x2 x3)) ∗ owns (c : Thread nD τ) arg9 fullShare (k1_pay2 (k1_pay9 i x0 x1) (k1_pay7 (F := F)))) -∗ K ⟨⟩))
      ⊢ wp frame (wpE (defs₀ (F := F)) Variants.none c none) E (cc1__sim_kernel i arg2 harg2 arg3 harg3 arg4 harg4 arg5 harg5 arg6 harg6 arg7 harg7 arg8 harg8 arg9 harg9) K := by
  simp only [cc1__sim_kernel_eq_skeleton]; unfold cc1__sim_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, Hk⟩
  subst hf0; subst hf1; subst hf2; subst hf3; subst hf4; subst hf5
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [HS0]
  · iexists _; isplitr
    swap; · iexact HS0
    ipureintro
    sl_unfold_run_names
    rw [read_writes_whole1 (S := S1024x1) _ _ hzero1]
    simp only [View.readAt_eq_ld, View.ld_unit_zero (S := S1024x1) hzero1, View.ld_unit_zero (S := S1024x256) hzero1, View.ld_unit_zero (S := S1x1024) hzero1, Cert.ReadBack.readCov_whole_last (S := S1024x1) _ hzero1]
  iexists _; isplitr
  swap; · iexact HS1
  ipureintro
  sl_unfold_run_names
  rw [read_writes_whole1 (S := S1024x1) _ _ hzero1]
  simp only [View.readAt_eq_ld, View.ld_unit_zero (S := S1024x1) hzero1, View.ld_unit_zero (S := S1024x256) hzero1, View.ld_unit_zero (S := S1x1024) hzero1, Cert.ReadBack.readCov_whole_last (S := S1024x1) _ hzero1]

end Cert.KernelIdeal.Hand

end
-- ==== Proof.Ideal.Region1RunMid.lean ====
import proofs.«123631_j42125039239359_1_alg».proof.Proof.Gen.KernelIdeal.Launch
import proofs.«123631_j42125039239359_1_alg».proof.Proof.Gen.KernelIdeal.Skeleton
import proofs.«123631_j42125039239359_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«123631_j42125039239359_1_alg».proof.Proof.Ideal.Region1Defs
import proofs.«123631_j42125039239359_1_alg».proof.Proof.LibReadBack
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body away from the first and the last column block: on whole buffers, the inputs' at their blocks, the two
    outputs' untouched, the two scratch buffers at the running sums xs0, xs1, it runs to the continuation holding
    everything as it was but the scratch buffers, which hold the sums with this block's row sums added. -/
theorem sound_kernel1_mid (c : Dev nD) (E : Set ℕ) (i : grid1.Coords) (arg2 : Memref sig .tc .vmem S1024x256 .bf16) (harg2 : arg2.IsWhole) (arg3 : Memref sig .tc .vmem S1024x256 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole)
    (hc0 : ¬cond1_0 i) (hc1 : ¬cond1_1 i)
    (x0 x1 : Vec F S1024x256 .bf16) (x2 : Vec F S1024x1 .i32) (x3 : Vec F S1x1024 .i32) (xi4 xi5 xs0 xs1 : Vec F S1024x1 .f32)
    (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xs0 ∗ owns (c : Thread nD τ) arg9 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare (k1_pay1 xs0 (k1_pay10 i x0 x1 x2 x3)) ∗ owns (c : Thread nD τ) arg9 fullShare (k1_pay2 (k1_pay9 i x0 x1) xs1)) -∗ K ⟨⟩))
      ⊢ wp frame (wpE (defs₀ (F := F)) Variants.none c none) E (cc1__sim_kernel i arg2 harg2 arg3 harg3 arg4 harg4 arg5 harg5 arg6 harg6 arg7 harg7 arg8 harg8 arg9 harg9) K := by
  simp only [cc1__sim_kernel_eq_skeleton]; unfold cc1__sim_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
  subst hf0; subst hf1; subst hf2; subst hf3; subst hf4; subst hf5; subst hfs0; subst hfs1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [HS0]
  · iexists _; isplitr
    swap; · iexact HS0
    ipureintro
    sl_unfold_run_names
    rw [read_writes_whole1 (S := S1024x1) _ _ hzero1]
    simp only [View.readAt_eq_ld, View.ld_unit_zero (S := S1024x1) hzero1, View.ld_unit_zero (S := S1024x256) hzero1, View.ld_unit_zero (S := S1x1024) hzero1, Cert.ReadBack.readCov_whole_last (S := S1024x1) _ hzero1]
  iexists _; isplitr
  swap; · iexact HS1
  ipureintro
  sl_unfold_run_names
  rw [read_writes_whole1 (S := S1024x1) _ _ hzero1]
  simp only [View.readAt_eq_ld, View.ld_unit_zero (S := S1024x1) hzero1, View.ld_unit_zero (S := S1024x256) hzero1, View.ld_unit_zero (S := S1x1024) hzero1, Cert.ReadBack.readCov_whole_last (S := S1024x1) _ hzero1]

end Cert.KernelIdeal.Hand

end
-- ==== Proof.Ideal.Region1RunLast.lean ====
import proofs.«123631_j42125039239359_1_alg».proof.Proof.Gen.KernelIdeal.Launch
import proofs.«123631_j42125039239359_1_alg».proof.Proof.Gen.KernelIdeal.Skeleton
import proofs.«123631_j42125039239359_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«123631_j42125039239359_1_alg».proof.Proof.Ideal.Region1Defs
import proofs.«123631_j42125039239359_1_alg».proof.Proof.LibReadBack
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body at the last column block of a row block: after the sums are updated as elsewhere, the two outputs'
    buffers, at anything, receive the row results computed from the updated sums. -/
theorem sound_kernel1_last (c : Dev nD) (E : Set ℕ) (i : grid1.Coords) (arg2 : Memref sig .tc .vmem S1024x256 .bf16) (harg2 : arg2.IsWhole) (arg3 : Memref sig .tc .vmem S1024x256 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole)
    (hc0 : ¬cond1_0 i) (hc1 : cond1_1 i)
    (x0 x1 : Vec F S1024x256 .bf16) (x2 : Vec F S1024x1 .i32) (x3 : Vec F S1x1024 .i32) (xs0 xs1 : Vec F S1024x1 .f32)
    (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ owns (c : Thread nD τ) arg8 fullShare xs0 ∗ owns (c : Thread nD τ) arg9 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k1_pay4 (k1_pay1 xs0 (k1_pay10 i x0 x1 x2 x3)) (k1_pay2 (k1_pay9 i x0 x1) xs1)) ∗ owns (c : Thread nD τ) arg7 fullShare (k1_pay5 (k1_pay1 xs0 (k1_pay10 i x0 x1 x2 x3))) ∗ owns (c : Thread nD τ) arg8 fullShare (k1_pay1 xs0 (k1_pay10 i x0 x1 x2 x3)) ∗ owns (c : Thread nD τ) arg9 fullShare (k1_pay2 (k1_pay9 i x0 x1) xs1)) -∗ K ⟨⟩))
      ⊢ wp frame (wpE (defs₀ (F := F)) Variants.none c none) E (cc1__sim_kernel i arg2 harg2 arg3 harg3 arg4 harg4 arg5 harg5 arg6 harg6 arg7 harg7 arg8 harg8 arg9 harg9) K := by
  simp only [cc1__sim_kernel_eq_skeleton]; unfold cc1__sim_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, ⟨%fs1, %hfs1, HS1⟩, Hk⟩
  subst hf0; subst hf1; subst hf2; subst hf3; subst hfs0; subst hfs1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    sl_unfold_run_names
    rw [read_writes_whole1 (S := S1024x1) _ _ hzero1]
    simp only [View.readAt_eq_ld, View.ld_unit_zero (S := S1024x1) hzero1, View.ld_unit_zero (S := S1024x256) hzero1, View.ld_unit_zero (S := S1x1024) hzero1, Cert.ReadBack.readCov_whole_last (S := S1024x1) _ hzero1]
  isplitl [H5]
  · iexists _; isplitr
    swap; · iexact H5
    ipureintro
    sl_unfold_run_names
    rw [read_writes_whole1 (S := S1024x1) _ _ hzero1]
    simp only [View.readAt_eq_ld, View.ld_unit_zero (S := S1024x1) hzero1, View.ld_unit_zero (S := S1024x256) hzero1, View.ld_unit_zero (S := S1x1024) hzero1, Cert.ReadBack.readCov_whole_last (S := S1024x1) _ hzero1]
  isplitl [HS0]
  · iexists _; isplitr
    swap; · iexact HS0
    ipureintro
    sl_unfold_run_names
    rw [read_writes_whole1 (S := S1024x1) _ _ hzero1]
    simp only [View.readAt_eq_ld, View.ld_unit_zero (S := S1024x1) hzero1, View.ld_unit_zero (S := S1024x256) hzero1, View.ld_unit_zero (S := S1x1024) hzero1, Cert.ReadBack.readCov_whole_last (S := S1024x1) _ hzero1]
  iexists _; isplitr
  swap; · iexact HS1
  ipureintro
  sl_unfold_run_names
  rw [read_writes_whole1 (S := S1024x1) _ _ hzero1]
  simp only [View.readAt_eq_ld, View.ld_unit_zero (S := S1024x1) hzero1, View.ld_unit_zero (S := S1024x256) hzero1, View.ld_unit_zero (S := S1x1024) hzero1, Cert.ReadBack.readCov_whole_last (S := S1024x1) _ hzero1]

end Cert.KernelIdeal.Hand

end
-- ==== Proof.Ideal.Region1.lean ====
import proofs.«123631_j42125039239359_1_alg».proof.Proof.Gen.KernelIdeal.Launch
import proofs.«123631_j42125039239359_1_alg».proof.Proof.Gen.KernelIdeal.Skeleton
import proofs.«123631_j42125039239359_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«123631_j42125039239359_1_alg».proof.Proof.Ideal.Region1Data
import proofs.«123631_j42125039239359_1_alg».proof.Proof.Ideal.Region1RunFirst
import proofs.«123631_j42125039239359_1_alg».proof.Proof.Ideal.Region1RunMid
import proofs.«123631_j42125039239359_1_alg».proof.Proof.Ideal.Region1RunLast
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! # The second call's region: the body obligation -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- The body at any point. The inputs' buffers hold their blocks; the column coordinate says which of the three
    cases the point is in; the invariant hands the body the two scratch buffers at what the point before left (at
    anything at the very first point, where they are reset) and takes them back at this point's sums; the two
    outputs are handed back untouched except at the last column block, where they receive the row results. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  by_cases h0 : t.val % 8 = 0
  · have h1 : ¬t.val % 8 = 7 := by omega
    rw [Dat.leavesExact_idle (dat1 V c) 4 t (idleAt1_4 t (fun h => h1 ((hcond1_1 t).mp h))) (noFlush1_4 t (fun h => h1 ((hcond1_1 t).mp h)))]
    rw [Dat.leavesExact_idle (dat1 V c) 5 t (idleAt1_5 t (fun h => h1 ((hcond1_1 t).mp h))) (noFlush1_5 t (fun h => h1 ((hcond1_1 t).mp h)))]
    rw [accAt1_first V c t h0]
    (try dsimp only)
    by_cases hz : t.val = 0
    · rw [PhiS1_castSucc V c t, PhiS1_zero V c _ _ hz, PhiA1_eq]
      iintro ⟨⟨⟨Ha, Hb, Hc, Hd, HS0, HS1⟩, Hg⟩, Ho, ⟨%d0, H0⟩, ⟨%d1, H1⟩, ⟨%d2, H2⟩, ⟨%d3, H3⟩, ⟨%d4, H4⟩, ⟨%d5, H5⟩⟩
      iapply (sound_kernel1_first c Set.univ (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) _ _ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, HS0, HS1⟩
      isplitl [Ha Hb Hc Hd HS0 HS1 Hg]
      · isplitr [Hg]
        · isplitl [Ha]; · iexact Ha
          isplitl [Hb]; · iexact Hb
          isplitl [Hc]; · iexact Hc
          isplitl [Hd]; · iexact Hd
          isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
    · rw [PhiS1_castSucc V c t, PhiS1_pos V c _ _ hz]
      iintro ⟨⟨⟨Ha, Hb, Hc, Hd, HS0, HS1⟩, Hg⟩, Ho, ⟨%d0, H0⟩, ⟨%d1, H1⟩, ⟨%d2, H2⟩, ⟨%d3, H3⟩, ⟨%d4, H4⟩, ⟨%d5, H5⟩⟩
      iapply (sound_kernel1_first c Set.univ (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) _ _ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      isplitl [HS1]; · iexists _; iexact HS1
      iintro ⟨H0, H1, H2, H3, H4, H5, HS0, HS1⟩
      isplitl [Ha Hb Hc Hd HS0 HS1 Hg]
      · isplitr [Hg]
        · isplitl [Ha]; · iexact Ha
          isplitl [Hb]; · iexact Hb
          isplitl [Hc]; · iexact Hc
          isplitl [Hd]; · iexact Hd
          isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
  · have hz : t.val ≠ 0 := fun e => h0 (by rw [e])
    by_cases h1 : t.val % 8 = 7
    ·
      rw [show (dat1 V c).leavesExact 4 t = owns (c : Thread nD τ) (ms1_4 t) fullShare ((dat1 V c).after 4 t) from by
        unfold Dat.leavesExact; rw [liveAt1_4 t ((hcond1_1 t).mpr h1)], after1_4]
      rw [show (dat1 V c).leavesExact 5 t = owns (c : Thread nD τ) (ms1_5 t) fullShare ((dat1 V c).after 5 t) from by
        unfold Dat.leavesExact; rw [liveAt1_5 t ((hcond1_1 t).mpr h1)], after1_5]
      rw [accAt1_next V c t h0]
      (try dsimp only)
      rw [PhiS1_castSucc V c t, PhiS1_pos V c _ _ hz]
      iintro ⟨⟨⟨Ha, Hb, Hc, Hd, HS0, HS1⟩, Hg⟩, Ho, ⟨%d0, H0⟩, ⟨%d1, H1⟩, ⟨%d2, H2⟩, ⟨%d3, H3⟩, ⟨%d4, H4⟩, ⟨%d5, H5⟩⟩
      iapply (sound_kernel1_last c Set.univ (grid1.coords t) _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) _ _ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      isplitl [HS1]; · iexact HS1
      iintro ⟨H0, H1, H2, H3, H4, H5, HS0, HS1⟩
      isplitl [Ha Hb Hc Hd HS0 HS1 Hg]
      · isplitr [Hg]
        · isplitl [Ha]; · iexact Ha
          isplitl [Hb]; · iexact Hb
          isplitl [Hc]; · iexact Hc
          isplitl [Hd]; · iexact Hd
          isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      iexact H5
    ·
      rw [Dat.leavesExact_idle (dat1 V c) 4 t (idleAt1_4 t (fun h => h1 ((hcond1_1 t).mp h))) (noFlush1_4 t (fun h => h1 ((hcond1_1 t).mp h)))]
      rw [Dat.leavesExact_idle (dat1 V c) 5 t (idleAt1_5 t (fun h => h1 ((hcond1_1 t).mp h))) (noFlush1_5 t (fun h => h1 ((hcond1_1 t).mp h)))]
      rw [accAt1_next V c t h0]
      (try dsimp only)
      rw [PhiS1_castSucc V c t, PhiS1_pos V c _ _ hz]
      iintro ⟨⟨⟨Ha, Hb, Hc, Hd, HS0, HS1⟩, Hg⟩, Ho, ⟨%d0, H0⟩, ⟨%d1, H1⟩, ⟨%d2, H2⟩, ⟨%d3, H3⟩, ⟨%d4, H4⟩, ⟨%d5, H5⟩⟩
      iapply (sound_kernel1_mid c Set.univ (grid1.coords t) _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _ _ _ _ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, HS0, HS1⟩
      isplitl [Ha Hb Hc Hd HS0 HS1 Hg]
      · isplitr [Hg]
        · isplitl [Ha]; · iexact Ha
          isplitl [Hb]; · iexact Hb
          isplitl [Hc]; · iexact Hc
          isplitl [Hd]; · iexact Hd
          isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5

/-- The body obligation of the second call, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.Ideal.Run.lean ====
/-
  The run of the whole program, from the launch to the return, for any float instance.

  @main is four segments: the first pallas_call (each block of 1024 rows of the embeddings divided by its clamped
  norm), two reshapes of the labels, the second pallas_call (the 8 x 8 grid of similarity tiles, the two row
  accumulators carried from one column block to the next inside the region's invariant), and the closing host
  operations (two sums, a maximum, a quotient).  Between two segments the core holds every unscoped buffer whole at
  a named valuation: W0 at the launch, W1 after the first pallas_call (its output array at what the write-backs
  leave), W2 after the reshapes, W3 after the second pallas_call (its two output arrays at what the write-backs
  leave), W4 at the end.

  The second pallas_call reads ONE array, the normalised embeddings, through two windows (the row block and the
  column block).  At its entry that array's full share is dealt as its two halves, one to each window, and at its exit
  the halves are joined again: both windows are inputs, so each half still holds the entry contents.

  The run theorem says every final state holds each unscoped buffer at W4; the frame (both argument arrays end as
  launched) is read off it, no segment writing an argument.
-/
import proofs.«123631_j42125039239359_1_alg».proof.Proof.Gen.KernelIdeal.Launch
import proofs.«123631_j42125039239359_1_alg».proof.Proof.Gen.KernelIdeal.Skeleton
import proofs.«123631_j42125039239359_1_alg».proof.Proof.Gen.KernelIdeal.Points
import proofs.«123631_j42125039239359_1_alg».proof.Proof.Ideal.Region0
import proofs.«123631_j42125039239359_1_alg».proof.Proof.Ideal.Region1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The distinct buffers behind region 1's six windows: windows 0 and 1 read one array. -/
theorem arrImage1 : (Finset.univ.image (Pipeline.arrRef spec1)) = ([main_v0, main_v1, main_v2, main_v3_0, main_v3_1] : List (Ref sig .tc)).toFinset := by decide

/-- The buffers behind region 1's windows, one by one. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v0) ↦{fullShare} V main_v0) ∗ (((c : Thread nD τ).loc main_v1) ↦{fullShare} V main_v1)
          ∗ (((c : Thread nD τ).loc main_v2) ↦{fullShare} V main_v2) ∗ (((c : Thread nD τ).loc main_v3_0) ↦{fullShare} V main_v3_0)
          ∗ (((c : Thread nD τ).loc main_v3_1) ↦{fullShare} V main_v3_1)) := by
  unfold Pipeline.arrBufs; exact bigSep_eq_bigSepL_of_eq _ arrImage1 (by decide) _

section SharedArray

variable {c : Dev nD} (dat : Dat τ (Elt F) Unit ℕ (UR sig nD τ) ℕ cfg1 c)
  (hq0 : dat.q 0 = fullShare.left) (hq1 : dat.q 1 = fullShare.right) (hq2 : dat.q 2 = fullShare) (hq3 : dat.q 3 = fullShare)

include hq0 hq1 hq2 hq3 in
/-- The shares region 1's proof data hold the windows' arrays at: the two windows on the one array a half each. -/
theorem shares1 : dat.share 0 = fullShare.left ∧ dat.share 1 = fullShare.right ∧ dat.share 2 = fullShare ∧ dat.share 3 = fullShare
    ∧ dat.share 4 = fullShare ∧ dat.share 5 = fullShare := by
  unfold Dat.share
  refine ⟨?_, ?_, ?_, ?_, ?_, ?_⟩
  · rw [if_neg (by decide)]; exact hq0
  · rw [if_neg (by decide)]; exact hq1
  · rw [if_neg (by decide)]; exact hq2
  · rw [if_neg (by decide)]; exact hq3
  · rw [if_pos (by decide)]
  · rw [if_pos (by decide)]

include hq0 hq1 hq2 hq3 in
/-- ENTRY: the five buffers behind the windows, each whole at the full share, are the six windows' arrays, the
    shared one dealt as its two halves. -/
theorem arrays1_split (V : (b : Ref sig .tc) → Buf (Elt F) ((c : Thread nD τ).loc b))
    (Fa : (w : Fin cfg1.W) → Buf (Elt F) ((cfg1.win w).arr.view.loc (c.tc : Thread nD τ)))
    (hF : ∀ w, Fa w = V (Pipeline.arrRef spec1 w)) :
    (Pipeline.arrBufs (Ix := Unit) (Name := ℕ) (U := UR sig nD τ) (Lvl := ℕ) spec1 c V : sProp 𝕄) ⊢ dat.arrays Fa := by
  obtain ⟨s0, s1, s2, s3, s4, s5⟩ := shares1 dat hq0 hq1 hq2 hq3
  rw [arrBufs1_eq]
  unfold Dat.arrays
  rw [bigSep_W1]
  rw [hF 0, hF 1, hF 2, hF 3, hF 4, hF 5, s0, s1, s2, s3, s4, s5,
    (arr_whole1 0).set_eq_univ, (arr_whole1 2).set_eq_univ, (arr_whole1 3).set_eq_univ,
    (arr_whole1 4).set_eq_univ, (arr_whole1 5).set_eq_univ]
  iintro ⟨H0, H1, H2, H3, H4⟩
  ihave H0' := (pointsTo_share (PosShare.mem_left_op_right fullShare)).1 $$ H0
  icases H0' with ⟨Hl, Hr⟩
  isplitl [Hl]; · iexact Hl
  isplitl [Hr]; · iexact Hr
  isplitl [H1]; · iexact H1
  isplitl [H2]; · iexact H2
  isplitl [H3]; · iexact H3
  iexact H4

include hq0 hq1 hq2 hq3 in
/-- EXIT: the six windows' arrays, the two on the shared array at one contents, are the five buffers whole again. -/
theorem arrays1_join (V' : (b : Ref sig .tc) → Buf (Elt F) ((c : Thread nD τ).loc b))
    (Fa : (w : Fin cfg1.W) → Buf (Elt F) ((cfg1.win w).arr.view.loc (c.tc : Thread nD τ)))
    (hF : ∀ w, Fa w = V' (Pipeline.arrRef spec1 w)) :
    dat.arrays Fa ⊢ (Pipeline.arrBufs (Ix := Unit) (Name := ℕ) (U := UR sig nD τ) (Lvl := ℕ) spec1 c V' : sProp 𝕄) := by
  obtain ⟨s0, s1, s2, s3, s4, s5⟩ := shares1 dat hq0 hq1 hq2 hq3
  rw [arrBufs1_eq]
  unfold Dat.arrays
  rw [bigSep_W1]
  rw [hF 0, hF 1, hF 2, hF 3, hF 4, hF 5, s0, s1, s2, s3, s4, s5,
    (arr_whole1 0).set_eq_univ, (arr_whole1 2).set_eq_univ, (arr_whole1 3).set_eq_univ,
    (arr_whole1 4).set_eq_univ, (arr_whole1 5).set_eq_univ]
  iintro ⟨Hl, Hr, H1, H2, H3, H4⟩
  isplitl [Hl Hr]
  · iapply (pointsTo_share (PosShare.mem_left_op_right fullShare)).2
    isplitl [Hl]; · iexact Hl
    iexact Hr
  isplitl [H1]; · iexact H1
  isplitl [H2]; · iexact H2
  isplitl [H3]; · iexact H3
  iexact H4

end SharedArray

/-! # The run: @main's four segments from the launch to the return -/

section Run

variable (m : (ℓ : Loc nD τ sig) → Buf (Elt F) ℓ) (ρ : Dev nD → PrngReg)

/-- Core c's buffers at launch. -/
abbrev W0 : Dev nD → Valuation τ sig (Elt F) := fun c b => (s₀ m ρ).mem ((c : Dev nD), b)
/-- The same read at the TensorCore's references: what region 0 is entered from. -/
abbrev E0 : (c : Dev nD) → (b : Ref sig .tc) → Buf (Elt F) ((c : Thread nD τ).loc b) := fun c b => W0 m ρ c b
/-- After region 0: its output array at what the write-backs leave, every other buffer as entered. -/
def W1 (c : Dev nD) : Valuation τ sig (Elt F) :=
  Pipeline.withArrays spec0 c (W0 m ρ c) fun w => (dat0 (E0 m ρ) c).arrAt w cfg0.N
theorem W1_arr (c : Dev nD) (w : Fin cfg0.W) :
    W1 m ρ c (Proc.devRef .tc (Pipeline.arrRef spec0 w)) = (dat0 (E0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev E1 : (c : Dev nD) → (b : Ref sig .tc) → Buf (Elt F) ((c : Thread nD τ).loc b) := fun c b => W1 m ρ c b
theorem hF0 (c : Dev nD) (w : Fin cfg0.W) : (dat0 (E0 m ρ) c).arrAt w cfg0.N = E1 m ρ c (Pipeline.arrRef spec0 w) :=
  (W1_arr m ρ c w).symm
theorem hrest0 (c : Dev nD) : ∀ b, b ∉ Finset.univ.image (Pipeline.arrRef spec0) → E1 m ρ c b = E0 m ρ c b :=
  fun b hb => W1_of_ne m ρ c b fun w e => hb (Finset.mem_image.mpr ⟨w, Finset.mem_univ _, e⟩)
/-- After the two reshapes of the labels: what region 1 is entered from. -/
abbrev W2 : Dev nD → Valuation τ sig (Elt F) := fun c => StableHlo.after hostOps1 (W1 m ρ c)
abbrev E2 : (c : Dev nD) → (b : Ref sig .tc) → Buf (Elt F) ((c : Thread nD τ).loc b) := fun c b => W2 m ρ c b
/-- After region 1: its two output arrays at what the write-backs leave, every other buffer as entered. -/
def W3 (c : Dev nD) : Valuation τ sig (Elt F) :=
  Function.update (Function.update (W2 m ρ c) (Proc.devRef .tc main_v3_0) ((dat1 (E2 m ρ) c).arrAt 4 cfg1.N))
    (Proc.devRef .tc main_v3_1) ((dat1 (E2 m ρ) c).arrAt 5 cfg1.N)
theorem W3_v3_0 (c : Dev nD) : W3 m ρ c (Proc.devRef .tc main_v3_0) = (dat1 (E2 m ρ) c).arrAt 4 cfg1.N := by
  unfold W3
  rw [Function.update_of_ne (StableHlo.devRef_ne_of_ne (by decide) : (Proc.devRef .tc main_v3_0 : DevRef τ sig) ≠ Proc.devRef .tc main_v3_1), Function.update_self]
theorem W3_v3_1 (c : Dev nD) : W3 m ρ c (Proc.devRef .tc main_v3_1) = (dat1 (E2 m ρ) c).arrAt 5 cfg1.N := by
  unfold W3; rw [Function.update_self]
theorem W3_of_ne (c : Dev nD) (b : Ref sig .tc) (h0 : b ≠ main_v3_0) (h1 : b ≠ main_v3_1) :
    W3 m ρ c (Proc.devRef .tc b) = W2 m ρ c (Proc.devRef .tc b) := by
  unfold W3
  rw [Function.update_of_ne (StableHlo.devRef_ne_of_ne h1 : (Proc.devRef .tc b : DevRef τ sig) ≠ Proc.devRef .tc main_v3_1),
    Function.update_of_ne (StableHlo.devRef_ne_of_ne h0 : (Proc.devRef .tc b : DevRef τ sig) ≠ Proc.devRef .tc main_v3_0)]
abbrev E3 : (c : Dev nD) → (b : Ref sig .tc) → Buf (Elt F) ((c : Thread nD τ).loc b) := fun c b => W3 m ρ c b
/-- After the closing host operations. -/
abbrev W4 : Dev nD → Valuation τ sig (Elt F) := fun c => StableHlo.after hostOps2 (W3 m ρ c)

/-- At region 1's exit each of its arrays holds what the pipeline leaves: an input's array its entry contents. -/
theorem hF1 (c : Dev nD) (w : Fin cfg1.W) : (dat1 (E2 m ρ) c).arrAt w cfg1.N = E3 m ρ c (Pipeline.arrRef spec1 w) := by
  match w with
  | ⟨0, _⟩ => exact (((dat1 (E2 m ρ) c).arrAt_in 0 rfl _).trans (A_eq1 (E2 m ρ) c 0)).trans (W3_of_ne m ρ c main_v0 (by decide) (by decide)).symm
  | ⟨1, _⟩ => exact (((dat1 (E2 m ρ) c).arrAt_in 1 rfl _).trans (A_eq1 (E2 m ρ) c 1)).trans (W3_of_ne m ρ c main_v0 (by decide) (by decide)).symm
  | ⟨2, _⟩ => exact (((dat1 (E2 m ρ) c).arrAt_in 2 rfl _).trans (A_eq1 (E2 m ρ) c 2)).trans (W3_of_ne m ρ c main_v1 (by decide) (by decide)).symm
  | ⟨3, _⟩ => exact (((dat1 (E2 m ρ) c).arrAt_in 3 rfl _).trans (A_eq1 (E2 m ρ) c 3)).trans (W3_of_ne m ρ c main_v2 (by decide) (by decide)).symm
  | ⟨4, _⟩ => exact (W3_v3_0 m ρ c).symm
  | ⟨5, _⟩ => exact (W3_v3_1 m ρ c).symm
theorem hrest1 (c : Dev nD) : ∀ b, b ∉ Finset.univ.image (Pipeline.arrRef spec1) → E3 m ρ c b = E2 m ρ c b :=
  fun b hb => W3_of_ne m ρ c b (fun e => hb (Finset.mem_image.mpr ⟨4, Finset.mem_univ _, e.symm⟩))
    (fun e => hb (Finset.mem_image.mpr ⟨5, Finset.mem_univ _, e.symm⟩))

end Run

section Launch

variable (m : (ℓ : Loc nD τ sig) → Buf (Elt F) ℓ) (ρ : Dev nD → PrngReg)

/-- The prefetched tables' admissible contents: no pipeline has a table. -/
abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (E0 m ρ) c
  | ⟨1, _⟩ => fun c => dat1 (E2 m ρ) c
abbrev 𝒱₀ : Variants := Variants.none
abbrev L : GSem nD τ sig → Finset Unit := fun _ => ∅
abbrev lv : GSem nD τ sig → Unit → ℕ := fun _ _ => 0
/-- What rides beside the buffers through every segment: the random-number register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

set_option backward.isDefEq.respectTransparency.types false in
/-- Region 0 over the thread state: entered from every unscoped buffer at the launch contents, left with its output
    array at what the write-backs leave. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (E0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E0 m ρ c) (E1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- ENTRY of region 1, the arrays' part: the core's unscoped buffers are the six windows' arrays (the array two
    windows read dealt as its halves) and the rest. -/
theorem entry1 (c : Dev nD) :
    (unscopedBufs c (E2 m ρ c) : sProp 𝕄) ⊢ iprop((dat1 (E2 m ρ) c).arrays ((dat1 (E2 m ρ) c).arrAt · 0)
      ∗ Pipeline.unscopedRest (Ix := Unit) (Name := ℕ) (U := UR sig nD τ) (Lvl := ℕ) spec1 c (E2 m ρ c)) := by
  rw [Pipeline.unscopedBufs_split₀ cfgs 1 winFacts₀1.arr_unscoped c (E2 m ρ c)]
  exact sep_mono (arrays1_split (dat1 (E2 m ρ) c) rfl rfl rfl rfl (E2 m ρ c) _ (fun w => A_eq1 (E2 m ρ) c w)) .rfl

/-- EXIT of region 1, the arrays' part: the windows' arrays at what the pipeline leaves and the rest are the core's
    unscoped buffers at the exit contents. -/
theorem exit1 (c : Dev nD) :
    iprop((dat1 (E2 m ρ) c).arrays ((dat1 (E2 m ρ) c).arrAt · cfg1.N)
      ∗ Pipeline.unscopedRest (Ix := Unit) (Name := ℕ) (U := UR sig nD τ) (Lvl := ℕ) spec1 c (E2 m ρ c)) ⊢ (unscopedBufs c (E3 m ρ c) : sProp 𝕄) := by
  rw [Pipeline.unscopedBufs_split₀ cfgs 1 winFacts₀1.arr_unscoped c (E3 m ρ c)]
  refine sep_mono (arrays1_join (dat1 (E2 m ρ) c) rfl rfl rfl rfl (E3 m ρ c) _ (hF1 m ρ c)) (Entails.of_eq ?_)
  unfold Pipeline.unscopedRest
  exact bigSep_congr fun b hb => by rw [hrest1 m ρ c b (Finset.mem_sdiff.mp hb).2]

end Launch

section Launch2

variable (m : (ℓ : Loc nD τ sig) → Buf (Elt F) ℓ) (ρ : Dev nD → PrngReg)

set_option backward.isDefEq.respectTransparency.types false in
/-- Region 1 over the thread state: entered from every unscoped buffer after the reshapes, left with its two output
    arrays at what the write-backs leave; the carried accumulators live inside the invariant only. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (E2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (E2 m ρ c)
  hentry c := by
    rw [Pipeline.ownSems0_none]
    have hsplit : (unscopedBufs c (E2 m ρ c) : sProp 𝕄) ⊢ iprop((pdats m ρ 1 c).arrays ((pdats m ρ 1 c).arrAt · 0)
        ∗ Pipeline.unscopedRest (Ix := Unit) (Name := ℕ) (U := UR sig nD τ) (Lvl := ℕ) spec1 c (E2 m ρ c)) := entry1 m ρ c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (E2 m ρ) c)
    unfold Pipeline.ΦA
    iintro ⟨Hp, -, Hr⟩
    isplitl [Hr]; · iexact Hr
    iexact Hp
  hout c := by
    rw [Pipeline.ownSems0_none]
    refine (hout1 (E2 m ρ) c).trans ?_
    unfold Pipeline.ΦA
    iintro ⟨Hr, Hp⟩
    isplitl [Hp]; · iexact Hp
    isplitr; · iempintro
    iexact Hr
  hexit c := by
    have hjoin : iprop((pdats m ρ 1 c).arrays ((pdats m ρ 1 c).arrAt · cfg1.N)
        ∗ Pipeline.unscopedRest (Ix := Unit) (Name := ℕ) (U := UR sig nD τ) (Lvl := ℕ) spec1 c (E2 m ρ c)) ⊢ (unscopedBufs c (E3 m ρ c) : sProp 𝕄) := exit1 m ρ c
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- @main's four segments in order. -/
abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .host (hseg hostOps2 hostOps2_sub hostOps2_fresh (W3 m ρ)) ]
theorem main_run (c : Dev nD) : main (F := F) c = Pipeline.Seg.run (segs m ρ) := (main_chain c).trans (by chain_rfl)

set_option backward.isDefEq.respectTransparency.types false in
/-- THE RUN. From any memory with zero counters every weakly fair execution of @main terminates, nothing faulting,
    and every final state holds each unscoped buffer at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (W4 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

end Launch2

section Frame

variable (m : (ℓ : Loc nD τ sig) → Buf (Elt F) ℓ) (ρ : Dev nD → PrngReg)

/-- No reshape of the labels writes buffer b. -/
theorem after1_keeps (W : Valuation τ sig (Elt F)) (b : Ref sig .tc) (h1 : b ≠ main_v1) (h2 : b ≠ main_v2) :
    StableHlo.after hostOps1 W (Proc.devRef .tc b) = W (Proc.devRef .tc b) :=
  StableHlo.after_of_forall_not_mem (b := Proc.devRef .tc b) _ _ (List.forall_iff_forall_mem.mp (by
    simp only [hostOps1, List.Forall, StableHlo.reshape_writes, Finset.mem_singleton]
    exact ⟨StableHlo.devRef_ne_of_ne h1, StableHlo.devRef_ne_of_ne h2⟩))

/-- No closing host operation writes an argument. -/
theorem after2_keeps_arg (W : Valuation τ sig (Elt F)) (b : Ref sig .tc) (hb : b = main_arg0 ∨ b = main_arg1) :
    StableHlo.after hostOps2 W (Proc.devRef .tc b) = W (Proc.devRef .tc b) :=
  StableHlo.after_of_forall_not_mem (b := Proc.devRef .tc b) _ _ (List.forall_iff_forall_mem.mp (by
    simp only [hostOps2, List.Forall, StableHlo.nullary_writes, StableHlo.binary_writes, Finset.mem_singleton]
    rcases hb with rfl | rfl
    · repeat' apply And.intro
      all_goals exact StableHlo.devRef_ne_of_ne (by decide)
    · repeat' apply And.intro
      all_goals exact StableHlo.devRef_ne_of_ne (by decide)))

/-- The embeddings array reaches the end as launched. -/
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := after2_keeps_arg _ main_arg0 (Or.inl rfl)
    _ = W2 m ρ c (Proc.devRef .tc main_arg0) := W3_of_ne m ρ c main_arg0 (by decide) (by decide)
    _ = W1 m ρ c (Proc.devRef .tc main_arg0) := after1_keeps _ main_arg0 (by decide) (by decide)
    _ = W0 m ρ c (Proc.devRef .tc main_arg0) := (W1_arr m ρ c 0).trans (((dat0 (E0 m ρ) c).arrAt_in 0 rfl _).trans (A_eq0 (E0 m ρ) c 0))
    _ = m ((c : Thread nD τ).loc main_arg0) := rfl

/-- The labels array reaches the end as launched. -/
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := after2_keeps_arg _ main_arg1 (Or.inr rfl)
    _ = W2 m ρ c (Proc.devRef .tc main_arg1) := W3_of_ne m ρ c main_arg1 (by decide) (by decide)
    _ = W1 m ρ c (Proc.devRef .tc main_arg1) := after1_keeps _ main_arg1 (by decide) (by decide)
    _ = W0 m ρ c (Proc.devRef .tc main_arg1) := W1_of_ne m ρ c main_arg1 (by decide)
    _ = m ((c : Thread nD τ).loc main_arg1) := rfl

/-- THE FRAME: every weakly fair execution of @main terminates, nothing faulting, and both argument arrays end as
    launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W4_main_arg0 m ρ c),
     (h c _ (mem_uc main_arg1 (by decide))).trans (W4_main_arg1 m ρ c)⟩) (run_main m ρ)

end Frame

end Cert.KernelIdeal.Hand

end
-- ==== Proof.Ideal.Array1.lean ====
/-
  What the second call's region leaves in its two output arrays, entry by entry.

  Each output array is one column of 8192 rows, written in 8 blocks of 1024 rows.  The grid has 8 x 8 points; point t
  works on row block t / 8 and column block t % 8, and an output block is written back only at the last column block
  (t % 8 = 7).  So row 1024 a + p of the array ends holding row p of what the body left in the window's buffer at
  the point 8 a + 7, and these 8 points cover the array: row i lies in the block of the point 8 (i / 1024) + 7.
  Stated for any proof data of the pipeline, given what the body leaves at those points.
-/
import proofs.«123631_j42125039239359_1_alg».proof.Proof.Ideal.Region1Defs
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F] [Named F]

/-! ## The assembled column -/

/-- The row block of a point of the 8 x 8 grid. -/
abbrev rowBlk1 (t : Fin cfg1.N) : Fin 8 :=
  ⟨t.val / 8, by have := lt_of_lt_of_eq t.isLt (show cfg1.N = 64 from N_1); omega⟩

/-- The column of 8192 rows whose block a of 1024 rows is G a. -/
def colArray (G : Fin 8 → Vec F S1024x1 .f32) : S8192x1.Idx → Elt F .f32 :=
  fun j => G (⟨(j 0).val / 1024, by have := idx2_lt0 j; omega⟩ : Fin 8)
    (ix2 (⟨(j 0).val % 1024, Nat.mod_lt _ (by decide)⟩ : Fin 1024) (⟨(j 1).val, idx2_lt1 j⟩ : Fin 1))

/-- At row 1024 a + r (r below 1024) the assembled column is G a at row r. -/
theorem colArray_block (G : Fin 8 → Vec F S1024x1 .f32) (a : Fin 8) (y : S1024x1.Idx) (i : S8192x1.Idx)
    (hi0 : (i 0).val = a.val * 1024 + (y 0).val) (hi1 : (i 1).val = (y 1).val) :
    colArray G i = G a y := by
  unfold colArray
  have hy0 : (y 0).val < 1024 := idx2_lt0 y
  have ha : (⟨(i 0).val / 1024, by have := idx2_lt0 i; omega⟩ : Fin 8) = a := Fin.ext (by show (i 0).val / 1024 = a.val; omega)
  have hy : ix2 (⟨(i 0).val % 1024, Nat.mod_lt _ (by decide)⟩ : Fin 1024) (⟨(i 1).val, idx2_lt1 i⟩ : Fin 1) = y := by
    funext d
    match d with
    | ⟨0, _⟩ => exact Fin.ext (by show (i 0).val % 1024 = (y 0).val; omega)
    | ⟨1, _⟩ => exact Fin.ext (by show (i 1).val = (y 1).val; omega)
  exact congr (congrArg G ha) hy

/-- The two output windows' index maps over the grid: the block of point t is block (t / 8, 0). -/
theorem idx_facts1 : ∀ t : Fin cfg1.N, win1_4.index t (0 : Fin 2) = t.val / 8 ∧ win1_4.index t (1 : Fin 2) = 0
    ∧ win1_5.index t (0 : Fin 2) = t.val / 8 ∧ win1_5.index t (1 : Fin 2) = 0 :=
  (by decide +kernel : ∀ t : Fin grid1.N, _)

/-! ## Output window 4 -/

/-- What a point of the last column block writes back to window 4's array is block (row block of the point) of
    the assembled array. -/
theorem flushed4_of {c : Dev nD} (dat : Dat τ (Elt F) Unit ℕ (UR sig nD τ) ℕ cfg1 c) (G : Fin 8 → Vec F S1024x1 .f32)
    (h : ∀ t : Fin cfg1.N, t.val % 8 = 7 → dat.after 4 t = G (rowBlk1 t))
    (t : Fin cfg1.N) (hf : (cfg1.win 4).flush t = true) :
    dat.flushed 4 t = ((cfg1.win 4).blk t).view.read (Elt F) (colArray G) := by
  have ht : t.val % 8 = 7 := (flush1_4 t).mp hf
  show (cfg1.win 4).cut (grid1.coords t) (dat.after 4 t) = _
  rw [h t ht]
  have e0 := (idx_facts1 t).1
  have e1 := (idx_facts1 t).2.1
  funext y
  show G (rowBlk1 t) (fun a => ⟨(y a).val, _⟩) = colArray G (((cfg1.win 4).blk t).view.emb y)
  refine (colArray_block G (rowBlk1 t) _ _ ?_ ?_).symm
  · show win1_4.index t (0 : Fin 2) * 1024 + 1 * (y 0).val = t.val / 8 * 1024 + (y 0).val; rw [e0]; omega
  · show win1_4.index t (1 : Fin 2) * 1 + 1 * (y 1).val = (y 1).val; rw [e1]; omega

/-- An index of window 4's array is in point t's block iff each coordinate is in the block's range on its axis. -/
theorem mem_blk1_4 (t : Fin cfg1.N) (i : S8192x1.Idx) :
    i ∈ ((cfg1.win 4).blk t).view.set ↔ ∀ a : Fin 2, win1_4.index t a * S1024x1.size a ≤ (i a).val ∧ (i a).val < win1_4.index t a * S1024x1.size a + S1024x1.size a := by
  show i ∈ ((View.whole main_v3_0).slice (win1_4.rect t)).set ↔ _
  rw [View.set_slice_whole, Rect.mem_set_unit]
  exact Iff.rfl

/-- Every index of window 4's array is in the block of a point that writes back: row i in the block of the last
    point of row block i / 1024. -/
theorem cover1_4_arr (i : S8192x1.Idx) : ∃ t : Fin cfg1.N, (cfg1.win 4).flush t = true ∧ i ∈ ((cfg1.win 4).blk t).view.set := by
  have hi0 : (i 0).val < 8192 := idx2_lt0 i
  have hi1 : (i 1).val < 1 := idx2_lt1 i
  have hN : cfg1.N = 64 := N_1
  let t : Fin cfg1.N := ⟨(i 0).val / 1024 * 8 + 7, by rw [hN]; omega⟩
  have e0 : win1_4.index t (0 : Fin 2) = ((i 0).val / 1024 * 8 + 7) / 8 := (idx_facts1 t).1
  have e1 : win1_4.index t (1 : Fin 2) = 0 := (idx_facts1 t).2.1
  refine ⟨t, (flush1_4 t).mpr (by show ((i 0).val / 1024 * 8 + 7) % 8 = 7; omega), ?_⟩
  rw [mem_blk1_4]
  intro a
  match a with
  | ⟨0, _⟩ => show win1_4.index t (0 : Fin 2) * 1024 ≤ (i 0).val ∧ (i 0).val < win1_4.index t (0 : Fin 2) * 1024 + 1024; rw [e0]; omega
  | ⟨1, _⟩ => show win1_4.index t (1 : Fin 2) * 1 ≤ (i 1).val ∧ (i 1).val < win1_4.index t (1 : Fin 2) * 1 + 1; rw [e1]; omega

/-- After the last point window 4's array is the assembled array, for any proof data whose body leaves G (row block)
    in the window's buffer at the points of the last column block. -/
theorem arr4_eq_of {c : Dev nD} (dat : Dat τ (Elt F) Unit ℕ (UR sig nD τ) ℕ cfg1 c) (G : Fin 8 → Vec F S1024x1 .f32)
    (h : ∀ t : Fin cfg1.N, t.val % 8 = 7 → dat.after 4 t = G (rowBlk1 t)) :
    dat.arrAt 4 cfg1.N = colArray G :=
  dat.arrAt_eq_of_cover 4 (colArray G) (fun t hf => flushed4_of dat G h t hf) cover1_4_arr

/-- Entry by entry: row 1024 a + p of window 4's array is row p of G a. -/
theorem arr4_of {c : Dev nD} (dat : Dat τ (Elt F) Unit ℕ (UR sig nD τ) ℕ cfg1 c) (G : Fin 8 → Vec F S1024x1 .f32)
    (h : ∀ t : Fin cfg1.N, t.val % 8 = 7 → dat.after 4 t = G (rowBlk1 t)) (a : Fin 8) (p : Fin 1024) :
    dat.arrAt 4 cfg1.N (ix2 (⟨a.val * 1024 + p.val, by have := a.isLt; have := p.isLt; omega⟩ : Fin 8192) (0 : Fin 1)) = G a (ix2 p 0) := by
  rw [arr4_eq_of dat G h]
  exact colArray_block G a (ix2 p 0) _ rfl rfl

/-! ## Output window 5 -/

/-- What a point of the last column block writes back to window 5's array is block (row block of the point) of
    the assembled array. -/
theorem flushed5_of {c : Dev nD} (dat : Dat τ (Elt F) Unit ℕ (UR sig nD τ) ℕ cfg1 c) (G : Fin 8 → Vec F S1024x1 .f32)
    (h : ∀ t : Fin cfg1.N, t.val % 8 = 7 → dat.after 5 t = G (rowBlk1 t))
    (t : Fin cfg1.N) (hf : (cfg1.win 5).flush t = true) :
    dat.flushed 5 t = ((cfg1.win 5).blk t).view.read (Elt F) (colArray G) := by
  have ht : t.val % 8 = 7 := (flush1_5 t).mp hf
  show (cfg1.win 5).cut (grid1.coords t) (dat.after 5 t) = _
  rw [h t ht]
  have e0 := (idx_facts1 t).2.2.1
  have e1 := (idx_facts1 t).2.2.2
  funext y
  show G (rowBlk1 t) (fun a => ⟨(y a).val, _⟩) = colArray G (((cfg1.win 5).blk t).view.emb y)
  refine (colArray_block G (rowBlk1 t) _ _ ?_ ?_).symm
  · show win1_5.index t (0 : Fin 2) * 1024 + 1 * (y 0).val = t.val / 8 * 1024 + (y 0).val; rw [e0]; omega
  · show win1_5.index t (1 : Fin 2) * 1 + 1 * (y 1).val = (y 1).val; rw [e1]; omega

/-- An index of window 5's array is in point t's block iff each coordinate is in the block's range on its axis. -/
theorem mem_blk1_5 (t : Fin cfg1.N) (i : S8192x1.Idx) :
    i ∈ ((cfg1.win 5).blk t).view.set ↔ ∀ a : Fin 2, win1_5.index t a * S1024x1.size a ≤ (i a).val ∧ (i a).val < win1_5.index t a * S1024x1.size a + S1024x1.size a := by
  show i ∈ ((View.whole main_v3_1).slice (win1_5.rect t)).set ↔ _
  rw [View.set_slice_whole, Rect.mem_set_unit]
  exact Iff.rfl

/-- Every index of window 5's array is in the block of a point that writes back: row i in the block of the last
    point of row block i / 1024. -/
theorem cover1_5_arr (i : S8192x1.Idx) : ∃ t : Fin cfg1.N, (cfg1.win 5).flush t = true ∧ i ∈ ((cfg1.win 5).blk t).view.set := by
  have hi0 : (i 0).val < 8192 := idx2_lt0 i
  have hi1 : (i 1).val < 1 := idx2_lt1 i
  have hN : cfg1.N = 64 := N_1
  let t : Fin cfg1.N := ⟨(i 0).val / 1024 * 8 + 7, by rw [hN]; omega⟩
  have e0 : win1_5.index t (0 : Fin 2) = ((i 0).val / 1024 * 8 + 7) / 8 := (idx_facts1 t).2.2.1
  have e1 : win1_5.index t (1 : Fin 2) = 0 := (idx_facts1 t).2.2.2
  refine ⟨t, (flush1_5 t).mpr (by show ((i 0).val / 1024 * 8 + 7) % 8 = 7; omega), ?_⟩
  rw [mem_blk1_5]
  intro a
  match a with
  | ⟨0, _⟩ => show win1_5.index t (0 : Fin 2) * 1024 ≤ (i 0).val ∧ (i 0).val < win1_5.index t (0 : Fin 2) * 1024 + 1024; rw [e0]; omega
  | ⟨1, _⟩ => show win1_5.index t (1 : Fin 2) * 1 ≤ (i 1).val ∧ (i 1).val < win1_5.index t (1 : Fin 2) * 1 + 1; rw [e1]; omega

/-- After the last point window 5's array is the assembled array, for any proof data whose body leaves G (row block)
    in the window's buffer at the points of the last column block. -/
theorem arr5_eq_of {c : Dev nD} (dat : Dat τ (Elt F) Unit ℕ (UR sig nD τ) ℕ cfg1 c) (G : Fin 8 → Vec F S1024x1 .f32)
    (h : ∀ t : Fin cfg1.N, t.val % 8 = 7 → dat.after 5 t = G (rowBlk1 t)) :
    dat.arrAt 5 cfg1.N = colArray G :=
  dat.arrAt_eq_of_cover 5 (colArray G) (fun t hf => flushed5_of dat G h t hf) cover1_5_arr

/-- Entry by entry: row 1024 a + p of window 5's array is row p of G a. -/
theorem arr5_of {c : Dev nD} (dat : Dat τ (Elt F) Unit ℕ (UR sig nD τ) ℕ cfg1 c) (G : Fin 8 → Vec F S1024x1 .f32)
    (h : ∀ t : Fin cfg1.N, t.val % 8 = 7 → dat.after 5 t = G (rowBlk1 t)) (a : Fin 8) (p : Fin 1024) :
    dat.arrAt 5 cfg1.N (ix2 (⟨a.val * 1024 + p.val, by have := a.isLt; have := p.isLt; omega⟩ : Fin 8192) (0 : Fin 1)) = G a (ix2 p 0) := by
  rw [arr5_eq_of dat G h]
  exact colArray_block G a (ix2 p 0) _ rfl rfl

end Cert.KernelIdeal.Hand

end
-- ==== Proof.Ideal.Array0.lean ====
/-
  What region 0 leaves in its output array, as one function of the argument array, index by index.

  The output array has 8192 rows of 256 entries and is written in 8 blocks of 1024 rows, block a by grid point a.
  Each block is one function (the body's payload) of the block of the same rows of the argument array.  So row i
  of the output is row i % 1024 of the payload of rows 1024 (i / 1024) ... 1024 (i / 1024) + 1023 of the argument.
  The 8 blocks cover the array: row i lies in block i / 1024.
-/
import proofs.«123631_j42125039239359_1_alg».proof.Proof.Ideal.Region0
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The whole-array function -/

/-- Rows 1024 a ... 1024 a + 1023 of an array of 8192 rows, as a block of 1024 rows. -/
def blockRows (X : S8192x256.Idx → Elt F .f32) (a : Fin 8) : Vec F S1024x256 .f32 :=
  fun y => X (ix2 (⟨a.val * 1024 + (y 0).val, by have := a.isLt; have := idx2_lt0 y; omega⟩ : Fin 8192)
                  (⟨(y 1).val, idx2_lt1 y⟩ : Fin 256))

/-- The output array: row i is row i % 1024 of the payload of the block of 1024 rows of X that holds row i. -/
def normArray (X : S8192x256.Idx → Elt F .f32) : S8192x256.Idx → Elt F .bf16 :=
  fun j => k0_pay1 (blockRows X (⟨(j 0).val / 1024, by have := idx2_lt0 j; omega⟩ : Fin 8))
    (ix2 (⟨(j 0).val % 1024, Nat.mod_lt _ (by decide)⟩ : Fin 1024) (⟨(j 1).val, idx2_lt1 j⟩ : Fin 256))

/-- At row 1024 a + r (r below 1024) and column q the output array is the payload of block a at (r, q). -/
theorem normArray_block (X : S8192x256.Idx → Elt F .f32) (a : Fin 8) (y : S1024x256.Idx) (i : S8192x256.Idx)
    (hi0 : (i 0).val = a.val * 1024 + (y 0).val) (hi1 : (i 1).val = (y 1).val) :
    normArray X i = k0_pay1 (blockRows X a) y := by
  unfold normArray
  have hy0 : (y 0).val < 1024 := idx2_lt0 y
  have ha : (⟨(i 0).val / 1024, by have := idx2_lt0 i; omega⟩ : Fin 8) = a := Fin.ext (by show (i 0).val / 1024 = a.val; omega)
  have hy : ix2 (⟨(i 0).val % 1024, Nat.mod_lt _ (by decide)⟩ : Fin 1024) (⟨(i 1).val, idx2_lt1 i⟩ : Fin 256) = y := by
    funext d
    match d with
    | ⟨0, _⟩ => exact Fin.ext (by show (i 0).val % 1024 = (y 0).val; omega)
    | ⟨1, _⟩ => exact Fin.ext (by show (i 1).val = (y 1).val; omega)
  exact congr (congrArg k0_pay1 (congrArg (blockRows X) ha)) hy

/-! ## The blocks of the two windows -/

theorem hz0 : (![0, 0] : Fin 2 → Nat) = fun _ => 0 := funext fun a => by fin_cases a <;> rfl

/-- The two index maps over the grid: both windows' block at point t is block (t, 0). -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- The input window's block at point t is rows 1024 t ... 1024 t + 1023 of the argument array. -/
theorem iblk0_0_eq (c : Dev nD) (t : Fin cfg0.N) (a : Fin 8) (hat : a.val = t.val) :
    (iblk0 V c 0 t : Vec F S1024x256 .f32) = blockRows (V c main_arg0) a := by
  obtain ⟨e0, e1, -, -⟩ := idx_facts0 t
  funext x
  unfold iblk0 blockRows
  rw [View.read_apply]
  show V c main_arg0 _ = V c main_arg0 _
  congr 1
  funext d
  apply Fin.ext
  match d with
  | ⟨0, _⟩ => show win0_0.index t (0 : Fin 2) * 1024 + 1 * (x 0).val = a.val * 1024 + (x 0).val; rw [e0, hat]; omega
  | ⟨1, _⟩ => show win0_0.index t (1 : Fin 2) * 256 + 1 * (x 1).val = (x 1).val; rw [e1]; omega

/-- What point t writes back is block t of the output array. -/
theorem flushed0_1_eq (c : Dev nD) (t : Fin cfg0.N) :
    (dat0 V c).flushed 1 t = ((cfg0.win 1).blk t).view.read (Elt F) (normArray (V c main_arg0)) := by
  show (cfg0.win 1).cut (grid0.coords t) ((dat0 V c).after 1 t) = _
  rw [after0_1]
  unfold out0_1
  rw [View.canon_unit_zero hz0]
  simp only [View.ld_unit_zero (S := S1024x256) hz0]
  obtain ⟨-, -, e2, e3⟩ := idx_facts0 t
  have htN : t.val < 8 := lt_of_lt_of_eq t.isLt (show cfg0.N = 8 from N_0)
  rw [iblk0_0_eq V c t ⟨t.val, htN⟩ rfl]
  funext y
  show k0_pay1 (blockRows (V c main_arg0) ⟨t.val, htN⟩) (fun a => ⟨(y a).val, _⟩) = normArray (V c main_arg0) (((cfg0.win 1).blk t).view.emb y)
  refine (normArray_block (V c main_arg0) ⟨t.val, htN⟩ _ _ ?_ ?_).symm
  · show win0_1.index t (0 : Fin 2) * 1024 + 1 * (y 0).val = t.val * 1024 + (y 0).val; rw [e2]; omega
  · show win0_1.index t (1 : Fin 2) * 256 + 1 * (y 1).val = (y 1).val; rw [e3]; omega

/-- An index of the array is in point t's block iff each coordinate is in the block's range on its axis. -/
theorem mem_blk0_1 (t : Fin cfg0.N) (i : S8192x256.Idx) :
    i ∈ ((cfg0.win 1).blk t).view.set ↔ ∀ a : Fin 2, win0_1.index t a * S1024x256.size a ≤ (i a).val ∧ (i a).val < win0_1.index t a * S1024x256.size a + S1024x256.size a := by
  show i ∈ ((View.whole main_v0).slice (win0_1.rect t)).set ↔ _
  rw [View.set_slice_whole, Rect.mem_set_unit]
  exact Iff.rfl

/-- Every index of the array is in some point's block: row i in the block of point i / 1024. -/
theorem cover0_1_arr (i : S8192x256.Idx) : ∃ t : Fin cfg0.N, (cfg0.win 1).flush t = true ∧ i ∈ ((cfg0.win 1).blk t).view.set := by
  have hi0 : (i 0).val < 8192 := idx2_lt0 i
  have hi1 : (i 1).val < 256 := idx2_lt1 i
  have hN : cfg0.N = 8 := N_0
  let t : Fin cfg0.N := ⟨(i 0).val / 1024, by rw [hN]; omega⟩
  obtain ⟨-, -, e2, e3⟩ := idx_facts0 t
  have e2' : win0_1.index t (0 : Fin 2) = (i 0).val / 1024 := e2
  refine ⟨t, flush0_1 t, ?_⟩
  rw [mem_blk0_1]
  intro a
  match a with
  | ⟨0, _⟩ => show win0_1.index t (0 : Fin 2) * 1024 ≤ (i 0).val ∧ (i 0).val < win0_1.index t (0 : Fin 2) * 1024 + 1024; rw [e2']; omega
  | ⟨1, _⟩ => show win0_1.index t (1 : Fin 2) * 256 ≤ (i 1).val ∧ (i 1).val < win0_1.index t (1 : Fin 2) * 256 + 256; rw [e3]; omega

/-! ## The array after the region -/

/-- After the last point the output array holds normArray of the argument array as the region found it. -/
theorem arr0_eq (c : Dev nD) : (dat0 V c).arrAt 1 cfg0.N = normArray (V c main_arg0) :=
  (dat0 V c).arrAt_eq_of_cover 1 (normArray (V c main_arg0)) (fun t _ => flushed0_1_eq V c t) cover0_1_arr

end Cert.KernelIdeal.Hand

end
-- ==== Proof.Spec.lean ====
/-
  The two sides of the claim as functions of the argument arrays, index by index, on the extended reals.

  Input: x, 8192 rows of 256 features, and one integer label per row.  Each row is divided by its Euclidean
  norm, clamped below by a small constant; "cosine i j" is the inner product of two such rows.  Row j is a
  POSITIVE of row i when it carries the same label and is another row.  Both programs compute, per row i,

      pos i = sum over the positives j of exp (cosine i j / T),   all i = sum over every j other than i of exp (cosine i j / T),

  the row's loss  -log (pos i / all i)  where row i has a positive (0 elsewhere), and return the sum of the row
  losses over the number of rows that have a positive (at least 1).

  They differ in four places, which "result_eq" (module Bridge) closes:
  * the reference divides the cosine by the temperature T (a binary fraction, 9395241 / 2^27); the kernel
    multiplies by the exact reciprocal 2^27 / 9395241 — one function on every extended real;
  * the reference puts -infinity on the diagonal before the exponential (exp (-infinity) = 0); the kernel puts 0
    after it;
  * the reference says a row has a positive when one exists; the kernel when pos i > 0 — the same for finite
    input, every exponential of a finite number being positive;
  * the kernel clamps pos i below by 10^-30 before the quotient — no change where the row has a positive: a
    cosine of two vectors of norm at most one is at least -1, so pos i >= exp (-2^27 / 9395241) > 10^-30.
-/
import Idealize.ShloMosaic.PureOps.Ideal
import Idealize.ShloMosaic.Lib.ValueIdx

noncomputable section

namespace Cert.Contrastive

open Idealize.ShloMosaic

/-- The embeddings array as rows of features. -/
def rowsOf (X : (⟨2, ![8192, 256]⟩ : Shape).Idx → EReal) : Fin 8192 → Fin 256 → EReal := fun i k => X (ValueIdx.ix2 i k)

/-- The labels array as a function of the row. -/
def labelsOf (L : (⟨1, ![8192]⟩ : Shape).Idx → BitVec 32) : Fin 8192 → BitVec 32 := fun i => L (ValueIdx.ix1 i)

variable (x : Fin 8192 → Fin 256 → EReal) (ids : Fin 8192 → BitVec 32)

/-! ## What both programs share -/

/-- The lower clamp of a row's norm, the same binary word in both programs. -/
def normFloor : EReal := Ideal.ofBits .f32 0x2B8CBCCC#32

/-- The clamped Euclidean norm of row i. -/
def rowNorm (i : Fin 8192) : EReal := max (Ideal.sqrt (∑ k : Fin 256, x i k * x i k)) normFloor

/-- Row i divided by its clamped norm. -/
def unitRow (i : Fin 8192) (k : Fin 256) : EReal := Ideal.div (x i k) (rowNorm x i)

/-- The inner product of the normalised rows i and j. -/
def cosine (i j : Fin 8192) : EReal := ∑ k : Fin 256, unitRow x i k * unitRow x j k

/-- Row j is a positive of row i: the same label, another row. -/
def Positive (i j : Fin 8192) : Prop := ids i = ids j ∧ i ≠ j

instance (i j : Fin 8192) : Decidable (Positive ids i j) := by unfold Positive; infer_instance

/-- The floor of the count of rows with a positive: the word of 1.0, the same in both programs. -/
def countFloor : EReal := Ideal.ofBits .f32 0x3F800000#32

/-! ## The reference -/

/-- The temperature, the reference's divisor: the binary fraction 9395241 / 2^27. -/
def temperature : EReal := Ideal.ofBits .f32 0x3D8F5C29#32

/-- exp of the similarity with -infinity on the diagonal. -/
def expRef (i j : Fin 8192) : EReal := Ideal.exp (if i = j then ⊥ else Ideal.div (cosine x i j) temperature)

def posRef (i : Fin 8192) : EReal := ∑ j : Fin 8192, if Positive ids i j then expRef x i j else 0

def allRef (i : Fin 8192) : EReal := ∑ j : Fin 8192, expRef x i j

def rowLossRef (i : Fin 8192) : EReal :=
  if ∃ j, Positive ids i j then -(Ideal.log (Ideal.div (posRef x ids i) (allRef x i))) else 0

def rowCountRef (i : Fin 8192) : EReal := if ∃ j, Positive ids i j then 1 else 0

/-- The reference's result. -/
def resultRef : EReal :=
  Ideal.div (∑ i : Fin 8192, rowLossRef x ids i) (max (∑ i : Fin 8192, rowCountRef ids i) countFloor)

/-! ## The kernel -/

/-- The kernel's factor: the exact reciprocal of the temperature. -/
def invTemperature : EReal := ((134217728 / 9395241 : ℝ) : EReal)

/-- The kernel's lower clamp of pos i. -/
def posFloor : EReal := ((1 / 1000000000000000000000000000000 : ℝ) : EReal)

/-- exp of the similarity, 0 on the diagonal. -/
def expKer (i j : Fin 8192) : EReal := if i = j then 0 else Ideal.exp (cosine x i j * invTemperature)

def posKer (i : Fin 8192) : EReal := ∑ j : Fin 8192, if Positive ids i j then expKer x i j else 0

def allKer (i : Fin 8192) : EReal := ∑ j : Fin 8192, expKer x i j

def rowLossKer (i : Fin 8192) : EReal :=
  if 0 < posKer x ids i then 0 - Ideal.log (Ideal.div (max (posKer x ids i) posFloor) (allKer x i)) else 0

def rowCountKer (i : Fin 8192) : EReal := if 0 < posKer x ids i then 1 else 0

/-- The kernel's result. -/
def resultKer : EReal :=
  Ideal.div (∑ i : Fin 8192, rowLossKer x ids i) (max (∑ i : Fin 8192, rowCountKer x ids i) countFloor)

end Cert.Contrastive

end
-- ==== Proof.LibKeepdims.lean ====
/-
  Two layout operations read at an index given by coordinates, for a reduction that keeps its reduced axis as a
  unit axis: a vector of `a` entries cast to a column `[a, 1]`, and a column `[a, 1]` broadcast along its unit
  axis to `[a, b]`. Both are instances of the library's general lemmas (a shape cast reads the operand at the index
  with the same row-major position; a broadcast reads the operand at the trailing coordinates, `0` on unit axes)
  with the coordinates' arithmetic discharged.
-/
import Idealize.ShloMosaic.Lib.Pipeline.Value
import Idealize.ShloMosaic.Lib.ValueIdx

namespace Cert.Keepdims

open Idealize.ShloMosaic Idealize.ShloMosaic.ValueIdx

variable {α : Type}

/-- An `[a]` array cast to a column `[a, 1]` reads, at `(i, u)`, the operand at `i`, whatever the unit coordinate `u`:
    the row-major position of `(i, u)` in `[a, 1]` is `i · 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.LibMinReduce.lean ====
/-
  A float vector.multi_reduction <minimumf> over ONE axis, read at the ideal values: the fold of min, from the
  accumulator's value, over that axis's coordinates (the reduced index with the coordinate inserted). The mirror of
  the library's statement for <maximumf>; min on the extended reals commutes and associates, so the order in which
  the reduction visits the axis does not matter. Also the index the coordinate is inserted into, written by
  coordinates, for a matrix reduced along its columns (one value per row) and along its rows (one per column).
-/
import Idealize.ShloMosaic.PureOps.Ideal.Laws
import Idealize.ShloMosaic.PureOps.Reduce
import Idealize.ShloMosaic.Lib.ValueIdx

namespace Cert.MinReduce

open Idealize.ShloMosaic Idealize.ShloMosaic.ValueIdx

/-- A one-axis <minimumf> reduction at the ideal values is the fold of min over the axis's coordinates. -/
theorem multiReduction_minimumf_single {s t : Shape} {a : Fin s.rank} {φ : FTy} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (Ideal.ofBits φ acc) (src ∘ h.lift j) := by
  rw [multiReduction_minimumf_eq_fold]; exact h.fold_filter_drop_single _ _ src j

/-- A matrix reduced along its columns: row p with column coordinate c inserted is the entry (p, c). -/
theorem lift_cols {a b : ℕ} (h : (⟨2, ![a, b]⟩ : Shape).Reduces [1] ⟨1, ![a]⟩) (p : Fin a) (c : Fin b) :
    h.lift (ix1 p) c = ix2 p c :=
  funext fun ax => Fin.ext (by match ax with | ⟨0, _⟩ => rfl | ⟨1, _⟩ => rfl)

/-- A matrix reduced along its rows: column c with row coordinate p inserted is the entry (p, c). -/
theorem lift_rows {a b : ℕ} (h : (⟨2, ![a, b]⟩ : Shape).Reduces [0] ⟨1, ![b]⟩) (c : Fin b) (p : Fin a) :
    h.lift (ix1 c) p = ix2 p c :=
  funext fun ax => Fin.ext (by match ax with | ⟨0, _⟩ => rfl | ⟨1, _⟩ => rfl)

end Cert.MinReduce
-- ==== Proof.LibRowReduce.lean ====
/-
  A matrix reduced along its columns (one value per row), and a per-row value spread back over the row.

  For an [a, b] matrix `src` of extended reals:
  * `rowMax_apply`: a one-axis maximum reduction over axis 1, read at row p, is the fold of max from the accumulator's
    value over the entries src(p, c) of that row;
  * `rowSum_apply`: a one-axis add reduction over axis 1 from the neutral accumulator, read at row p, is ∑ c, src(p, c);
  * `keepdims_apply`: a vector of `a` entries cast to a column [a, 1] and broadcast to [a, b] reads, at (p, c), the
    vector's entry p — the reduced axis kept as a unit axis and spread back over the row.
-/
import Idealize.ShloMosaic.PureOps.Ideal.Laws
import Idealize.ShloMosaic.PureOps.Reduce
import Idealize.ShloMosaic.Lib.ValueIdx
import Idealize.ShloMosaic.Lib.Pipeline.Value
import proofs.«123631_j42125039239359_1_alg».proof.Proof.LibKeepdims
import proofs.«123631_j42125039239359_1_alg».proof.Proof.LibMinReduce

noncomputable section

namespace Cert.RowReduce

open Idealize.ShloMosaic Idealize.ShloMosaic.ValueIdx

/-- The maximum of row p: the fold of max, from the accumulator's value, over the row's entries. -/
theorem rowMax_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun c => src (ix2 p c)) := by
  refine (Ideal.multiReduction_maximumf_single src acc h hφ hacc (ix1 p)).trans ?_
  refine congrArg (fun f => (Finset.univ : Finset (Fin b)).fold max (Ideal.ofBits φ acc) f) ?_
  funext c
  exact congrArg src (Cert.MinReduce.lift_cols h p c)

/-- The sum of row p: the sum of the row's entries. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ c : Fin b, src (ix2 p c) := by
  refine (Ideal.multiReduction_add_single src acc h hφ hacc (ix1 p)).trans ?_
  exact Finset.sum_congr rfl fun c _ => congrArg src (Cert.MinReduce.lift_cols h p c)

/-- A vector cast to a column and broadcast along the unit axis reads, at (p, c), the vector's entry p. -/
theorem keepdims_apply {α : Type} {a b : ℕ} (v : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (p : Fin a) (c : Fin b) :
    broadcastTo ⟨2, ![a, b]⟩ (shapeCast ⟨2, ![a, 1]⟩ v hc) hb (ix2 p c) = v (ix1 p) :=
  (Cert.Keepdims.broadcastTo_a1_ab_apply (shapeCast ⟨2, ![a, 1]⟩ v hc) hb p c).trans
    (Cert.Keepdims.shapeCast_a_a1_apply v hc p 0)

end Cert.RowReduce

end
-- ==== Proof.KerPayloadNorm.lean ====
/-
  The first kernel's value: a block of 1024 rows of 256 features, each row divided by its Euclidean norm clamped below
  by a small constant. Entry (r, k) is  x(r, k) / max (sqrt (sum over k' of x(r, k')^2)) floor; the change of float format
  that follows is the identity on the extended reals.
-/
import proofs.«123631_j42125039239359_1_alg».proof.Proof.Gen.KernelIdeal.Skeleton
import proofs.«123631_j42125039239359_1_alg».proof.Proof.Spec
import proofs.«123631_j42125039239359_1_alg».proof.Proof.LibRowReduce

noncomputable section

namespace Cert.KernelIdeal.KerValue

open Idealize.ShloMosaic Idealize.ShloMosaic.ValueIdx Cert.KernelIdeal

/-- The normalised block read at (r, k). -/
theorem pay0_apply (v0 : Vec Ideal S1024x256 .f32) (r : Fin 1024) (k : Fin 256) :
    Gen.k0_pay1 (F := Ideal) v0 (ix2 r k)
      = Ideal.div (v0 (ix2 r k))
          (max (Ideal.sqrt (∑ k' : Fin 256, v0 (ix2 r k') * v0 (ix2 r k'))) Cert.Contrastive.normFloor) := by
  unfold Gen.k0_pay1
  show Ideal.div (v0 (ix2 r k)) (broadcastTo S1024x256 _ _ (ix2 r k)) = _
  refine congrArg (Ideal.div (v0 (ix2 r k))) ?_
  refine (Cert.Keepdims.broadcastTo_a1_ab_apply _ _ r k).trans ?_
  show max (Ideal.sqrt (shapeCast S1024x1 _ _ (ix2 r 0))) (Ideal.ofBits .f32 0x2B8CBCCC#32) = _
  refine congrArg (fun t => max (Ideal.sqrt t) Cert.Contrastive.normFloor) ?_
  refine (Cert.Keepdims.shapeCast_a_a1_apply _ _ r 0).trans ?_
  exact Cert.RowReduce.rowSum_apply (mulf v0 v0) _ _ _ _ r

end Cert.KernelIdeal.KerValue

end
-- ==== Proof.KerArray0.lean ====
/-
  Region 0's output array, entry by entry, on the extended reals: entry (i, k) is entry k of row i of the argument
  array divided by the row's clamped Euclidean norm.

  The array is written in blocks of 1024 rows, each block the body's payload of the same rows of the argument.  Row r
  of block a is row 1024 a + r of the argument, so the row sum the payload takes over its block's row r is the row
  sum of row i = 1024 a + r of the argument, and the entry it divides is entry (i, k).
-/
import proofs.«123631_j42125039239359_1_alg».proof.Proof.Ideal.Array0
import proofs.«123631_j42125039239359_1_alg».proof.Proof.KerPayloadNorm
import proofs.«123631_j42125039239359_1_alg».proof.Proof.Spec

set_option maxRecDepth 16384

noncomputable section

namespace Cert.KernelIdeal.KerValue

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat)

/-- Row r of block a of an array of 8192 rows is row 1024 a + r of the array. -/
theorem blockRows_apply (X : S8192x256.Idx → Elt Ideal .f32) (a : Fin 8) (r : Fin 1024) (k : Fin 256) (i : Fin 8192)
    (h : i.val = a.val * 1024 + r.val) : blockRows X a (ix2 r k) = X (ix2 i k) := by
  unfold blockRows
  congr 1
  funext d
  match d with
  | ⟨0, _⟩ => exact Fin.ext (by show a.val * 1024 + r.val = i.val; omega)
  | ⟨1, _⟩ => exact Fin.ext rfl

/-- Entry (i, k) of the output array of region 0: the normalised row i of the argument array, at k. -/
theorem unit0_apply (V : (c : Dev nD) → (b : Ref sig .tc) → Buf (Elt Ideal) ((c : Thread nD τ).loc b)) (c : Dev nD)
    (i : Fin 8192) (k : Fin 256) :
    (dat0 V c).arrAt 1 cfg0.N (ix2 i k) = Cert.Contrastive.unitRow (Cert.Contrastive.rowsOf (V c main_arg0)) i k := by
  have hi : i.val < 8192 := i.isLt
  let a : Fin 8 := ⟨i.val / 1024, by omega⟩
  let r : Fin 1024 := ⟨i.val % 1024, Nat.mod_lt _ (by decide)⟩
  have har : i.val = a.val * 1024 + r.val := by show i.val = i.val / 1024 * 1024 + i.val % 1024; omega
  rw [arr0_eq V c]
  refine (normArray_block (V c main_arg0) a (ix2 r k) (ix2 i k) har rfl).trans ?_
  rw [pay0_apply]
  simp only [blockRows_apply (V c main_arg0) a r _ i har]
  rfl

end Cert.KernelIdeal.KerValue

end
-- ==== Proof.KerAccIdx.lean ====
/-
  The 64 points of the second call's grid and the 8192 rows.

  Point t works on row block t / 8 and column block t % 8, each of 1024 rows: row p of the row block is row
  1024 (t / 8) + p of the whole array, row q of the column block is row 1024 (t % 8) + q.  The 8192 rows are the 8
  blocks of 1024 rows one after the other, so a sum over all rows is the sum over the blocks of the sums over a block.
-/
import proofs.«123631_j42125039239359_1_alg».proof.Proof.Gen.KernelIdeal.Skeleton
import Mathlib.Algebra.BigOperators.Fin
import Mathlib.Logic.Equiv.Fin.Basic

noncomputable section

namespace Cert.KernelIdeal.KerValue

open Cert.KernelIdeal

/-- The grid has 64 points. -/
theorem points_eq : cfg1.N = 64 := by decide

/-- A point is below 64. -/
theorem point_lt (t : Fin cfg1.N) : t.val < 64 := lt_of_lt_of_eq t.isLt points_eq

/-- The number before a point's is a point's. -/
theorem pred_lt (t : Fin cfg1.N) : t.val - 1 < cfg1.N := lt_of_le_of_lt (Nat.sub_le _ _) t.isLt

/-- A row of the row block of point t, as a row of the whole array. -/
def rowOf (t : Fin cfg1.N) (p : Fin 1024) : Fin 8192 :=
  ⟨(t.val / 8) * 1024 + p.val, by have := point_lt t; have := p.isLt; omega⟩

/-- A row of the column block of point t, as a row of the whole array. -/
def colOf (t : Fin cfg1.N) (q : Fin 1024) : Fin 8192 :=
  ⟨(t.val % 8) * 1024 + q.val, by have := point_lt t; have := q.isLt; omega⟩

/-- The sum of f over the rows of block b (zero for a b that is no block). -/
def blockSum {M : Type*} [AddCommMonoid M] (f : Fin 8192 → M) (b : ℕ) : M :=
  if h : b < 8 then ∑ q : Fin 1024, f ⟨b * 1024 + q.val, by have := q.isLt; omega⟩ else 0

/-- The sum over the column block of point t. -/
theorem blockSum_col {M : Type*} [AddCommMonoid M] (f : Fin 8192 → M) (t : Fin cfg1.N) :
    blockSum f (t.val % 8) = ∑ q : Fin 1024, f (colOf t q) := by
  unfold blockSum
  rw [dif_pos (Nat.mod_lt _ (by decide))]
  rfl

/-- A sum over the 8192 rows, block by block. -/
theorem sum_blocks {M : Type*} [AddCommMonoid M] (f : Fin 8192 → M) :
    ∑ j : Fin 8192, f j
      = ∑ b : Fin 8, ∑ q : Fin 1024, f ⟨b.val * 1024 + q.val, by have := b.isLt; have := q.isLt; omega⟩ := by
  calc ∑ j : Fin 8192, f j
      = ∑ y : Fin 8 × Fin 1024, f (finProdFinEquiv (m := 8) (n := 1024) y) :=
        (Equiv.sum_comp (finProdFinEquiv (m := 8) (n := 1024)) f).symm
    _ = ∑ b : Fin 8, ∑ q : Fin 1024, f (finProdFinEquiv (m := 8) (n := 1024) (b, q)) := Fintype.sum_prod_type _
    _ = _ := Finset.sum_congr rfl fun b _ => Finset.sum_congr rfl fun q _ =>
        congrArg f (Fin.ext (by show q.val + 1024 * b.val = b.val * 1024 + q.val; omega))

/-- The eight block sums add up to the sum over all rows. -/
theorem sum_range_blockSum {M : Type*} [AddCommMonoid M] (f : Fin 8192 → M) :
    ∑ b ∈ Finset.range 8, blockSum f b = ∑ j : Fin 8192, f j := by
  rw [Finset.sum_range, sum_blocks]
  refine Finset.sum_congr rfl fun b _ => ?_
  unfold blockSum
  rw [dif_pos b.isLt]

end Cert.KernelIdeal.KerValue

end
-- ==== Proof.LibIndicatorSum.lean ====
/-
  The count of a 0/1 indicator, two ways. An integer sum of one-bit words widened to 32 bits, read as a number, is the
  sum of the words each read as a number — as long as there are fewer than 2³¹ of them, so that the integer sum does not
  wrap. One program counts in integers and converts once; the other converts every word and sums the numbers.
  Also: a finite sum of reals, taken in the extended reals, is the real sum.
-/
import Idealize.ShloMosaic.PureOps.Ideal.Laws
import Idealize.ShloMosaic.Lib.IndicatorCount
import Idealize.ShloMosaic.Lib.KernelVsHost

open scoped BigOperators

namespace Cert.IndicatorSum

open Idealize.ShloMosaic

/-- A finite sum of real numbers, computed in the extended reals, is the real sum. -/
theorem coe_sum {ι : Type} (S : Finset ι) (f : ι → ℝ) :
    ∑ k ∈ S, ((f k : ℝ) : EReal) = ((∑ k ∈ S, f k : ℝ) : EReal) := by
  classical
  induction S using Finset.induction_on with
  | empty => simp
  | insert a S ha ih => rw [Finset.sum_insert ha, Finset.sum_insert ha, ih, EReal.coe_add]

/-- A one-bit word is the number 1 when it is the word 1, else 0. -/
theorem bit_toNat : ∀ b : BitVec 1, b.toNat = if b = 1#1 then 1 else 0 := by decide

/-- A one-bit word widened to 32 bits and read as a signed number is 1 or 0. -/
theorem sitofp_bit (b : BitVec 1) :
    (FloatOps.sitofp (F := Ideal) .f32 (b.setWidth 32) : EReal) = (((if b = 1#1 then 1 else 0 : ℕ) : ℝ) : EReal) := by
  show ((((b.setWidth 32).toInt : ℤ) : ℝ) : EReal) = _
  rw [toInt_setWidth_bit, bit_toNat]
  norm_cast

/-- A natural number below 2³¹, as a 32-bit word read signed, is itself. -/
theorem toInt_ofNat_small (n : ℕ) (hn : n < 2 ^ 31) : (BitVec.ofNat 32 n).toInt = (n : ℤ) := by
  rw [BitVec.toInt_eq_toNat_cond, BitVec.toNat_ofNat]
  have e : n % 2 ^ 32 = n := Nat.mod_eq_of_lt (by omega)
  rw [e]
  split
  · rfl
  · omega

/-- The integer count converted once is the sum of the converted words. -/
theorem sitofp_fold_addi {ι : Type} (S : Finset ι) (p : ι → BitVec 1) (hS : S.card < 2 ^ 31) :
    (FloatOps.sitofp (F := Ideal) .f32 (S.fold IntOp.addi (0#32) (fun k => (p k).setWidth 32)) : EReal)
      = ∑ k ∈ S, (FloatOps.sitofp (F := Ideal) .f32 ((p k).setWidth 32) : EReal) := by
  classical
  rw [IndicatorCount.fold_addi_setWidth_eq_card]
  have hn : (S.filter fun k => p k = 1#1).card < 2 ^ 31 := lt_of_le_of_lt (Finset.card_filter_le _ _) hS
  have e1 : (FloatOps.sitofp (F := Ideal) .f32 (BitVec.ofNat 32 (S.filter fun k => p k = 1#1).card) : EReal)
      = (((S.filter fun k => p k = 1#1).card : ℝ) : EReal) := by
    show ((((BitVec.ofNat 32 _).toInt : ℤ) : ℝ) : EReal) = _
    rw [toInt_ofNat_small _ hn]
    norm_cast
  rw [e1, Finset.sum_congr rfl fun k _ => sitofp_bit (p k), coe_sum, Finset.card_filter]
  norm_cast

/-- The host's count along ONE axis — an integer `reduce` by addition, from zero, of one-bit words widened to 32 bits —
    converted to a number once, is the sum over that axis's coordinates of the words each converted: the axis is shorter
    than 2³¹, so the integer sum does not wrap. -/
theorem sitofp_hostReduce_addi {s t : Shape} {a : Fin s.rank} (h' : s.ReducesTo [a] t) (h : s.Reduces [a] t)
    {u : Shape} (hu : 0 < u.numel) (init : u.Idx → BitVec 32) (hinit : init (Shape.Idx.first hu) = 0#32)
    (p : s.Idx → BitVec 1) (hsz : s.size a < 2 ^ 31) (j : t.Idx) :
    (FloatOps.sitofp (F := Ideal) .f32 (Host.reduce IntOp.addi (fun i => (p i).setWidth 32) init h' hu j) : EReal)
      = ∑ k : Fin (s.size a), (FloatOps.sitofp (F := Ideal) .f32 ((p (h.lift j k)).setWidth 32) : EReal) := by
  rw [Host.reduce_eq_fold, hinit, Shape.ReducesTo.drop_eq_drop h' h]
  have hcard : (Finset.univ.filter fun i => h.drop i = j).card = s.size a := by
    rw [Finset.card_eq_sum_ones, h.sum_filter_drop_single (fun _ => 1) j]
    simp
  rw [sitofp_fold_addi _ p (by rw [hcard]; exact hsz)]
  exact h.sum_filter_drop_single (fun i => (FloatOps.sitofp (F := Ideal) .f32 ((p i).setWidth 32) : EReal)) j

end Cert.IndicatorSum
-- ==== Proof.KerPayloadSmall.lean ====
/-
  The second kernel's accumulation and finalisation values, read at a row, on the extended reals.

  The two running sums are columns of 1024 entries. A step adds to the first the step's own column, and to the
  second the row sums of the step's 1024 by 1024 tile; both start at zero. The finalisation says a row is valid
  when its first sum is positive, and gives the row's loss  0 - log (max pos floor / all)  where valid, 0 elsewhere,
  and the validity as the number 1 or 0.
-/
import proofs.«123631_j42125039239359_1_alg».proof.Proof.Gen.KernelIdeal.Skeleton
import proofs.«123631_j42125039239359_1_alg».proof.Proof.Spec
import proofs.«123631_j42125039239359_1_alg».proof.Proof.LibRowReduce
import proofs.«123631_j42125039239359_1_alg».proof.Proof.LibIndicatorSum
import Idealize.ShloMosaic.PureOps.IdealRules
import Idealize.ShloMosaic.Lib.ValueLayout

noncomputable section

namespace Cert.KernelIdeal.KerValue

open Idealize.ShloMosaic Idealize.ShloMosaic.ValueIdx Cert.KernelIdeal

/-- The kernel's lower clamp of the positives' sum is the specification's: the named value 10^-30. -/
theorem posFloor_named :
    Named.named (F := Ideal) Cert.KernelIdeal.κ "inv_1000000000000000000000000000000" (φ := .f32) 0x0DA24260#32
      = Cert.Contrastive.posFloor :=
  IdealRules.named_const.ideal_named_scalar _ _ _ _ rfl

/-- The kernel's factor is the specification's: the named reciprocal of the temperature. -/
theorem invTemperature_named :
    Named.named (F := Ideal) Cert.KernelIdeal.κ "inv_temperature" (φ := .f32) 0x41649249#32
      = Cert.Contrastive.invTemperature :=
  IdealRules.named_const.ideal_named_scalar _ _ _ _ rfl

/-- The first running sum after a step: the sum before it plus the step's column. -/
theorem acc1_apply (v34 v36 : Vec Ideal S1024x1 .f32) (p : Fin 1024) :
    Gen.k1_pay1 (F := Ideal) v34 v36 (ix2 p 0) = v34 (ix2 p 0) + v36 (ix2 p 0) := by
  unfold Gen.k1_pay1
  rw [shapeCast_self]
  rfl

/-- The second running sum after a step: the sum before it plus the row sum of the step's tile. -/
theorem acc2_apply (v22 : FVec Ideal S1024x1024 .f32) (v41 : Vec Ideal S1024x1 .f32) (p : Fin 1024) :
    Gen.k1_pay2 (F := Ideal) v22 v41 (ix2 p 0) = v41 (ix2 p 0) + ∑ q : Fin 1024, v22 (ix2 p q) := by
  unfold Gen.k1_pay2
  rw [shapeCast_self]
  show v41 (ix2 p 0) + _ = _
  refine congrArg (v41 (ix2 p 0) + ·) ?_
  refine (Cert.Keepdims.shapeCast_a_a1_apply _ _ p 0).trans ?_
  exact Cert.RowReduce.rowSum_apply v22 _ _ _ _ p

/-- Both running sums start at zero. -/
theorem zero6_apply (p : Fin 1024) : Gen.k1_pay6 (F := Ideal) (ix2 p 0) = 0 := by
  unfold Gen.k1_pay6
  rw [shapeCast_self]
  exact Ideal.ofBits_zero_f32

theorem zero7_apply (p : Fin 1024) : Gen.k1_pay7 (F := Ideal) (ix2 p 0) = 0 := by
  unfold Gen.k1_pay7
  rw [shapeCast_self]
  exact Ideal.ofBits_zero_f32

/-- A row is valid exactly when its sum over the positives is positive. -/
theorem valid_iff (v51 : Vec Ideal S1024x1 .f32) (p : Fin 1024) :
    Gen.k1_pay3 (F := Ideal) v51 (ix2 p 0) = 1#1 ↔ 0 < v51 (ix2 p 0) := by
  unfold Gen.k1_pay3
  show BitVec.ofBool (decide (Ideal.ofBits .f32 0x00000000#32 < v51 (ix2 p 0))) = 1#1 ↔ _
  rw [Ideal.ofBits_zero_f32]
  by_cases h : 0 < v51 (ix2 p 0)
  · simp [h]
  · simp [h]

/-- The row's loss: 0 - log (max pos floor / all) on a valid row, 0 elsewhere. -/
theorem loss_apply (v51 v52 : Vec Ideal S1024x1 .f32) (p : Fin 1024) :
    Gen.k1_pay4 (F := Ideal) v51 v52 (ix2 p 0)
      = if 0 < v51 (ix2 p 0)
        then 0 - Ideal.log (Ideal.div (max (v51 (ix2 p 0)) Cert.Contrastive.posFloor) (v52 (ix2 p 0)))
        else 0 := by
  unfold Gen.k1_pay4
  rw [select_apply]
  by_cases h : 0 < v51 (ix2 p 0)
  · rw [(valid_iff v51 p).mpr h, select_one, if_pos h]
    show Ideal.ofBits .f32 0x00000000#32 - Ideal.log (Ideal.div (max (v51 (ix2 p 0)) (Named.named (F := Ideal) Cert.KernelIdeal.κ "inv_1000000000000000000000000000000" (φ := .f32) 0x0DA24260#32)) (v52 (ix2 p 0))) = _
    rw [Ideal.ofBits_zero_f32, posFloor_named]
  · rw [eq_zero_of_ne_one (mt (valid_iff v51 p).mp h), select_zero, if_neg h]
    exact Ideal.ofBits_zero_f32

/-- The row's validity as a number: 1 on a valid row, 0 elsewhere. -/
theorem count_apply (v51 : Vec Ideal S1024x1 .f32) (p : Fin 1024) :
    Gen.k1_pay5 (F := Ideal) v51 (ix2 p 0) = if 0 < v51 (ix2 p 0) then 1 else 0 := by
  unfold Gen.k1_pay5
  show FloatOps.sitofp (F := Ideal) .f32 ((Gen.k1_pay3 (F := Ideal) v51 (ix2 p 0)).setWidth 32) = _
  rw [Cert.IndicatorSum.sitofp_bit]
  by_cases h : 0 < v51 (ix2 p 0)
  · rw [if_pos ((valid_iff v51 p).mpr h), if_pos h]; norm_cast
  · rw [if_neg (mt (valid_iff v51 p).mp h), if_neg h]; norm_cast

end Cert.KernelIdeal.KerValue

end
-- ==== Proof.KerAccCore.lean ====
/-
  The two running sums of the second call, row by row, for any sequence of values that obeys the body's two
  equations: at a point on column block 0 the sums are zero plus the point's step, at every other point the
  sums of the point before plus the point's step.

  If the step of point t at row p is the sum of g over the rows of t's column block, then after the point on
  column block b the running sum at row p is the sum of g over the rows of the blocks 0 ... b, and after column
  block 7 the sum of g over all 8192 rows.
-/
import proofs.«123631_j42125039239359_1_alg».proof.Proof.KerAccIdx
import proofs.«123631_j42125039239359_1_alg».proof.Proof.KerPayloadSmall

noncomputable section

namespace Cert.KernelIdeal.KerValue

open Idealize.ShloMosaic Idealize.ShloMosaic.ValueIdx Cert.KernelIdeal

/-- A sequence over the points that starts again at every column block 0 and adds one block's sum per point
    holds, after the point on column block b, the sum over the blocks 0 ... b. -/
theorem partial_sums (u : (n : ℕ) → n < cfg1.N → EReal) (s : Fin cfg1.N → EReal) (f : Fin 8192 → EReal) (a : ℕ)
    (h0 : ∀ t : Fin cfg1.N, t.val % 8 = 0 → u t.val t.isLt = 0 + s t)
    (h1 : ∀ t : Fin cfg1.N, t.val % 8 ≠ 0 → u t.val t.isLt = u (t.val - 1) (pred_lt t) + s t)
    (hs : ∀ t : Fin cfg1.N, t.val / 8 = a → s t = blockSum f (t.val % 8)) :
    ∀ (b : ℕ) (t : Fin cfg1.N), t.val / 8 = a → t.val % 8 = b →
      u t.val t.isLt = ∑ b' ∈ Finset.range (b + 1), blockSum f b' := by
  intro b
  induction b with
  | zero =>
    intro t hta ht
    rw [h0 t ht, zero_add, hs t hta, ht, Finset.sum_range_one]
  | succ b ih =>
    intro t hta ht
    have hne : t.val % 8 ≠ 0 := by omega
    have hprev : u (t.val - 1) (pred_lt t) = ∑ b' ∈ Finset.range (b + 1), blockSum f b' :=
      ih ⟨t.val - 1, pred_lt t⟩ (by show (t.val - 1) / 8 = a; omega) (by show (t.val - 1) % 8 = b; omega)
    rw [h1 t hne, hprev, hs t hta, ht, Finset.sum_range_succ _ (b + 1)]

/-- After the point on column block 7 the sequence holds the sum over all rows. -/
theorem full_sums (u : (n : ℕ) → n < cfg1.N → EReal) (s : Fin cfg1.N → EReal) (f : Fin 8192 → EReal) (a : ℕ)
    (h0 : ∀ t : Fin cfg1.N, t.val % 8 = 0 → u t.val t.isLt = 0 + s t)
    (h1 : ∀ t : Fin cfg1.N, t.val % 8 ≠ 0 → u t.val t.isLt = u (t.val - 1) (pred_lt t) + s t)
    (hs : ∀ t : Fin cfg1.N, t.val / 8 = a → s t = blockSum f (t.val % 8))
    (t : Fin cfg1.N) (hta : t.val / 8 = a) (ht : t.val % 8 = 7) :
    u t.val t.isLt = ∑ j : Fin 8192, f j := by
  rw [partial_sums u s f a h0 h1 hs 7 t hta ht, sum_range_blockSum]

variable (acc : (n : ℕ) → n < cfg1.N → Vec Ideal S1024x1 .f32 × Vec Ideal S1024x1 .f32)
  (P : Fin cfg1.N → Vec Ideal S1024x1 .f32) (E : Fin cfg1.N → FVec Ideal S1024x1024 .f32)

/-- The first running sum, by column block: the sum of g over the rows of the blocks so far. -/
theorem acc_fst_partial
    (hfirst : ∀ t : Fin cfg1.N, t.val % 8 = 0 →
      acc t.val t.isLt = (Gen.k1_pay1 (F := Ideal) (Gen.k1_pay6 (F := Ideal)) (P t), Gen.k1_pay2 (F := Ideal) (E t) (Gen.k1_pay7 (F := Ideal))))
    (hnext : ∀ t : Fin cfg1.N, t.val % 8 ≠ 0 →
      acc t.val t.isLt = (Gen.k1_pay1 (F := Ideal) (acc (t.val - 1) (pred_lt t)).1 (P t),
        Gen.k1_pay2 (F := Ideal) (E t) (acc (t.val - 1) (pred_lt t)).2))
    (g : Fin 8192 → Fin 8192 → EReal)
    (hP : ∀ (t : Fin cfg1.N) (p : Fin 1024), P t (ix2 p 0) = ∑ q : Fin 1024, g (rowOf t p) (colOf t q))
    (t : Fin cfg1.N) (p : Fin 1024) :
    (acc t.val t.isLt).1 (ix2 p 0) = ∑ b' ∈ Finset.range (t.val % 8 + 1), blockSum (g (rowOf t p)) b' := by
  refine partial_sums (fun n hn => (acc n hn).1 (ix2 p 0)) (fun t' => P t' (ix2 p 0)) (g (rowOf t p)) (t.val / 8)
    (fun t' h => ?_) (fun t' h => ?_) (fun t' h => ?_) (t.val % 8) t rfl rfl
  · show (acc t'.val t'.isLt).1 (ix2 p 0) = 0 + P t' (ix2 p 0)
    rw [hfirst t' h]
    show Gen.k1_pay1 (F := Ideal) (Gen.k1_pay6 (F := Ideal)) (P t') (ix2 p 0) = _
    rw [acc1_apply, zero6_apply]
  · show (acc t'.val t'.isLt).1 (ix2 p 0) = (acc (t'.val - 1) (pred_lt t')).1 (ix2 p 0) + P t' (ix2 p 0)
    rw [hnext t' h]
    show Gen.k1_pay1 (F := Ideal) (acc (t'.val - 1) (pred_lt t')).1 (P t') (ix2 p 0) = _
    rw [acc1_apply]
  · show P t' (ix2 p 0) = _
    have hrow : rowOf t' p = rowOf t p := Fin.ext (by show t'.val / 8 * 1024 + p.val = t.val / 8 * 1024 + p.val; rw [h])
    rw [hP, hrow, blockSum_col]

/-- The second running sum, by column block: the sum of g over the rows of the blocks so far. -/
theorem acc_snd_partial
    (hfirst : ∀ t : Fin cfg1.N, t.val % 8 = 0 →
      acc t.val t.isLt = (Gen.k1_pay1 (F := Ideal) (Gen.k1_pay6 (F := Ideal)) (P t), Gen.k1_pay2 (F := Ideal) (E t) (Gen.k1_pay7 (F := Ideal))))
    (hnext : ∀ t : Fin cfg1.N, t.val % 8 ≠ 0 →
      acc t.val t.isLt = (Gen.k1_pay1 (F := Ideal) (acc (t.val - 1) (pred_lt t)).1 (P t),
        Gen.k1_pay2 (F := Ideal) (E t) (acc (t.val - 1) (pred_lt t)).2))
    (g : Fin 8192 → Fin 8192 → EReal)
    (hE : ∀ (t : Fin cfg1.N) (p q : Fin 1024), E t (ix2 p q) = g (rowOf t p) (colOf t q))
    (t : Fin cfg1.N) (p : Fin 1024) :
    (acc t.val t.isLt).2 (ix2 p 0) = ∑ b' ∈ Finset.range (t.val % 8 + 1), blockSum (g (rowOf t p)) b' := by
  refine partial_sums (fun n hn => (acc n hn).2 (ix2 p 0)) (fun t' => ∑ q : Fin 1024, E t' (ix2 p q)) (g (rowOf t p))
    (t.val / 8) (fun t' h => ?_) (fun t' h => ?_) (fun t' h => ?_) (t.val % 8) t rfl rfl
  · show (acc t'.val t'.isLt).2 (ix2 p 0) = 0 + ∑ q : Fin 1024, E t' (ix2 p q)
    rw [hfirst t' h]
    show Gen.k1_pay2 (F := Ideal) (E t') (Gen.k1_pay7 (F := Ideal)) (ix2 p 0) = _
    rw [acc2_apply, zero7_apply]
  · show (acc t'.val t'.isLt).2 (ix2 p 0)
      = (acc (t'.val - 1) (pred_lt t')).2 (ix2 p 0) + ∑ q : Fin 1024, E t' (ix2 p q)
    rw [hnext t' h]
    show Gen.k1_pay2 (F := Ideal) (E t') (acc (t'.val - 1) (pred_lt t')).2 (ix2 p 0) = _
    rw [acc2_apply]
  · show ∑ q : Fin 1024, E t' (ix2 p q) = _
    have hrow : rowOf t' p = rowOf t p := Fin.ext (by show t'.val / 8 * 1024 + p.val = t.val / 8 * 1024 + p.val; rw [h])
    rw [blockSum_col, ← hrow]
    exact Finset.sum_congr rfl fun q _ => hE t' p q

/-- After the point on column block 7 the two running sums at row p are the sums over all 8192 rows. -/
theorem acc_full
    (hfirst : ∀ t : Fin cfg1.N, t.val % 8 = 0 →
      acc t.val t.isLt = (Gen.k1_pay1 (F := Ideal) (Gen.k1_pay6 (F := Ideal)) (P t), Gen.k1_pay2 (F := Ideal) (E t) (Gen.k1_pay7 (F := Ideal))))
    (hnext : ∀ t : Fin cfg1.N, t.val % 8 ≠ 0 →
      acc t.val t.isLt = (Gen.k1_pay1 (F := Ideal) (acc (t.val - 1) (pred_lt t)).1 (P t),
        Gen.k1_pay2 (F := Ideal) (E t) (acc (t.val - 1) (pred_lt t)).2))
    (g1 g2 : Fin 8192 → Fin 8192 → EReal)
    (hP : ∀ (t : Fin cfg1.N) (p : Fin 1024), P t (ix2 p 0) = ∑ q : Fin 1024, g1 (rowOf t p) (colOf t q))
    (hE : ∀ (t : Fin cfg1.N) (p q : Fin 1024), E t (ix2 p q) = g2 (rowOf t p) (colOf t q))
    (t : Fin cfg1.N) (ht : t.val % 8 = 7) (p : Fin 1024) :
    (acc t.val t.isLt).1 (ix2 p 0) = ∑ j : Fin 8192, g1 (rowOf t p) j
      ∧ (acc t.val t.isLt).2 (ix2 p 0) = ∑ j : Fin 8192, g2 (rowOf t p) j := by
  constructor
  · rw [acc_fst_partial acc P E hfirst hnext g1 hP t p, ht, sum_range_blockSum]
  · rw [acc_snd_partial acc P E hfirst hnext g2 hE t p, ht, sum_range_blockSum]

end Cert.KernelIdeal.KerValue

end
-- ==== Proof.KerAccBlocks.lean ====
/-
  The blocks the second call's four input windows read, at an index.

  The grid has 64 points; point t works on row block t / 8 and column block t % 8.  Window 0 reads rows
  1024 (t / 8) ... 1024 (t / 8) + 1023 of the normalised embeddings, window 1 rows 1024 (t % 8) ... 1024 (t % 8) + 1023
  of the same array, window 2 the same rows as window 0 of the labels as a column, window 3 the same positions as
  window 1 of the labels as a row.  An element of a block sits in its array, on each axis, at the block index
  times the block's size plus its own coordinate.
-/
import proofs.«123631_j42125039239359_1_alg».proof.Proof.Ideal.Region1Defs
import proofs.«123631_j42125039239359_1_alg».proof.Proof.KerAccIdx
import Idealize.ShloMosaic.Lib.Pipeline.Value
import Idealize.ShloMosaic.Lib.ValueIdx

set_option maxRecDepth 16384

noncomputable section

namespace Cert.KernelIdeal.KerValue

open Cert.KernelIdeal Cert.KernelIdeal.Gen Cert.KernelIdeal.Hand
open Idealize.ShloMosaic Idealize.ShloMosaic.TcCoe
open Idealize.SL Idealize.SL.Sem
open Idealize.ShloMosaic.ValueIdx

variable (V : (c : Dev nD) → (b : Ref sig .tc) → Buf (Elt Ideal) ((c : Thread nD τ).loc b))

/-- The four index maps over the grid: the row block is t / 8, the column block t % 8. -/
theorem idx_facts1 : ∀ t : Fin cfg1.N,
    win1_0.index t (0 : Fin 2) = t.val / 8 ∧ win1_0.index t (1 : Fin 2) = 0
    ∧ win1_1.index t (0 : Fin 2) = t.val % 8 ∧ win1_1.index t (1 : Fin 2) = 0
    ∧ win1_2.index t (0 : Fin 2) = t.val / 8 ∧ win1_2.index t (1 : Fin 2) = 0
    ∧ win1_3.index t (0 : Fin 2) = 0 ∧ win1_3.index t (1 : Fin 2) = t.val % 8 :=
  (by decide +kernel : ∀ t : Fin grid1.N, _)

/-- Window 0's block at point t: the rows of row block t / 8 of the normalised embeddings. -/
theorem iblk1_0_apply (c : Dev nD) (t : Fin cfg1.N) (p : Fin 1024) (k : Fin 256) :
    (iblk1 V c 0 t : Vec Ideal S1024x256 .bf16) (ix2 p k) = V c main_v0 (ix2 (rowOf t p) k) := by
  obtain ⟨e0, e1, -⟩ := idx_facts1 t
  unfold iblk1
  rw [View.read_apply]
  show V c main_v0 _ = V c main_v0 _
  congr 1
  funext d
  apply Fin.ext
  match d with
  | ⟨0, _⟩ => show win1_0.index t (0 : Fin 2) * 1024 + 1 * p.val = (t.val / 8) * 1024 + p.val; rw [e0]; omega
  | ⟨1, _⟩ => show win1_0.index t (1 : Fin 2) * 256 + 1 * k.val = k.val; rw [e1]; omega

/-- Window 1's block at point t: the rows of column block t % 8 of the normalised embeddings. -/
theorem iblk1_1_apply (c : Dev nD) (t : Fin cfg1.N) (q : Fin 1024) (k : Fin 256) :
    (iblk1 V c 1 t : Vec Ideal S1024x256 .bf16) (ix2 q k) = V c main_v0 (ix2 (colOf t q) k) := by
  obtain ⟨-, -, e2, e3, -⟩ := idx_facts1 t
  unfold iblk1
  rw [View.read_apply]
  show V c main_v0 _ = V c main_v0 _
  congr 1
  funext d
  apply Fin.ext
  match d with
  | ⟨0, _⟩ => show win1_1.index t (0 : Fin 2) * 1024 + 1 * q.val = (t.val % 8) * 1024 + q.val; rw [e2]; omega
  | ⟨1, _⟩ => show win1_1.index t (1 : Fin 2) * 256 + 1 * k.val = k.val; rw [e3]; omega

/-- Window 2's block at point t: the labels of row block t / 8, as a column. -/
theorem iblk1_2_apply (c : Dev nD) (t : Fin cfg1.N) (p : Fin 1024) :
    (iblk1 V c 2 t : Vec Ideal S1024x1 .i32) (ix2 p 0) = V c main_v1 (ix2 (rowOf t p) 0) := by
  obtain ⟨-, -, -, -, e4, e5, -⟩ := idx_facts1 t
  unfold iblk1
  rw [View.read_apply]
  show V c main_v1 _ = V c main_v1 _
  congr 1
  funext d
  apply Fin.ext
  match d with
  | ⟨0, _⟩ => show win1_2.index t (0 : Fin 2) * 1024 + 1 * p.val = (t.val / 8) * 1024 + p.val; rw [e4]; omega
  | ⟨1, _⟩ => show win1_2.index t (1 : Fin 2) * 1 + 1 * 0 = 0; rw [e5]

/-- Window 3's block at point t: the labels of column block t % 8, as a row. -/
theorem iblk1_3_apply (c : Dev nD) (t : Fin cfg1.N) (q : Fin 1024) :
    (iblk1 V c 3 t : Vec Ideal S1x1024 .i32) (ix2 0 q) = V c main_v2 (ix2 0 (colOf t q)) := by
  obtain ⟨-, -, -, -, -, -, e6, e7⟩ := idx_facts1 t
  unfold iblk1
  rw [View.read_apply]
  show V c main_v2 _ = V c main_v2 _
  congr 1
  funext d
  apply Fin.ext
  match d with
  | ⟨0, _⟩ => show win1_3.index t (0 : Fin 2) * 1 + 1 * 0 = 0; rw [e6]
  | ⟨1, _⟩ => show win1_3.index t (1 : Fin 2) * 1024 + 1 * q.val = (t.val % 8) * 1024 + q.val; rw [e7]; omega

end Cert.KernelIdeal.KerValue

end
-- ==== Proof.LibDenseLayer.lean ====
/-
  A dense graph layer over the extended reals, and a rank-2 matrix product read at an entry.

  The layer: for an adjacency matrix `A` ([N, N]), features `X` ([N, K]), weights `W` ([K, M]), a bias `b` (M
  entries) and a scale `s`, entry (r, c) of the layer's output is
      (∑ j, ((∑ k, A(r,k) · X(k,j)) + s · X(r,j)) · W(j,c)) + b(c):
  the neighbours' features summed and added to the scaled own features, then the linear map and the bias. `rowLayer`
  is the same entry written from row r of `A` and row r of `X` alone, which is what one row band of a blocked
  evaluation has at hand; `layerAt` is `rowLayer` at the two rows (`layerAt_eq_rowLayer`).

  `matmul_rows_cols`: a matrix unit's product of an [A, K] by a [K, B] matrix into a zero accumulator, read at (p, q),
  is ∑ k, L(p,k) · R(k,q) — stated for any dimension record whose four index facts (the left index takes the output
  row and the contraction position, the right index the contraction position and the output column) are supplied.
-/
import Idealize.ShloMosaic.Lib.ValueIdx
import Idealize.ShloMosaic.Lib.Pipeline.Value
import Idealize.ShloMosaic.PureOps.Ideal.Laws

noncomputable section

namespace Cert.DenseLayer

open Idealize.ShloMosaic Idealize.ShloMosaic.ValueIdx

/-- Entry `c` of one output row of the layer, from that row `a` of the adjacency matrix and that row `xr` of the
    features: `(∑ j, ((∑ k, a k · X(k,j)) + s · xr j) · W(j,c)) + b c`. -/
def rowLayer {N K M : ℕ} (a : Fin N → EReal) (X : (⟨2, ![N, K]⟩ : Shape).Idx → EReal)
    (W : (⟨2, ![K, M]⟩ : Shape).Idx → EReal) (b : Fin M → EReal) (s : EReal) (xr : Fin K → EReal) (c : Fin M) : EReal :=
  (∑ j : Fin K, ((∑ k : Fin N, a k * X (ix2 k j)) + s * xr j) * W (ix2 j c)) + b c

/-- Entry (r, c) of the layer's output. -/
def layerAt {N K M : ℕ} (A : (⟨2, ![N, N]⟩ : Shape).Idx → EReal) (X : (⟨2, ![N, K]⟩ : Shape).Idx → EReal)
    (W : (⟨2, ![K, M]⟩ : Shape).Idx → EReal) (b : Fin M → EReal) (s : EReal) (r : Fin N) (c : Fin M) : EReal :=
  (∑ j : Fin K, ((∑ k : Fin N, A (ix2 r k) * X (ix2 k j)) + s * X (ix2 r j)) * W (ix2 j c)) + b c

/-- The entry from the two rows it depends on. -/
theorem layerAt_eq_rowLayer {N K M : ℕ} (A : (⟨2, ![N, N]⟩ : Shape).Idx → EReal) (X : (⟨2, ![N, K]⟩ : Shape).Idx → EReal)
    (W : (⟨2, ![K, M]⟩ : Shape).Idx → EReal) (b : Fin M → EReal) (s : EReal) (r : Fin N) (c : Fin M) :
    layerAt A X W b s r c = rowLayer (fun k => A (ix2 r k)) X W b s (fun j => X (ix2 r j)) c := rfl

/-- The same entry with the own-features term written first (`s · X(r,j) + ∑ k, A(r,k) · X(k,j)`): addition of
    extended reals is commutative. -/
theorem layerAt_comm {N K M : ℕ} (A : (⟨2, ![N, N]⟩ : Shape).Idx → EReal) (X : (⟨2, ![N, K]⟩ : Shape).Idx → EReal)
    (W : (⟨2, ![K, M]⟩ : Shape).Idx → EReal) (b : Fin M → EReal) (s : EReal) (r : Fin N) (c : Fin M) :
    (∑ j : Fin K, (s * X (ix2 r j) + ∑ k : Fin N, A (ix2 r k) * X (ix2 k j)) * W (ix2 j c)) + b c = layerAt A X W b s r c := by
  unfold layerAt
  refine congrArg (· + b c) (Finset.sum_congr rfl fun j _ => ?_)
  rw [add_comm]

/-- A matrix product into a zero accumulator, read at (p, q): the sum over the contracted axis of the left operand's
    row p times the right operand's column q. -/
theorem matmul_rows_cols {A K B : ℕ} {φ₁ φ₂ : FTy}
    (d : DotDims ⟨2, ![A, K]⟩ ⟨2, ![K, B]⟩ ⟨2, ![A, B]⟩) (hr : d.contr.rank = 1) (hs : d.contr.size ⟨0, by omega⟩ = K)
    (hl0 : ∀ (i : (⟨2, ![A, B]⟩ : Shape).Idx) (q : d.contr.Idx), (d.lhsIdx i q 0).val = (i 0).val)
    (hl1 : ∀ (i : (⟨2, ![A, B]⟩ : Shape).Idx) (q : d.contr.Idx), (d.lhsIdx i q 1).val = (q ⟨0, by omega⟩).val)
    (hr0 : ∀ (i : (⟨2, ![A, B]⟩ : Shape).Idx) (q : d.contr.Idx), (d.rhsIdx i q 0).val = (q ⟨0, by omega⟩).val)
    (hr1 : ∀ (i : (⟨2, ![A, B]⟩ : Shape).Idx) (q : d.contr.Idx), (d.rhsIdx i q 1).val = (i 1).val)
    (prec : Option ContractPrecision) (L : FVec Ideal ⟨2, ![A, K]⟩ φ₁) (R : FVec Ideal ⟨2, ![K, B]⟩ φ₂) (p : Fin A) (q : Fin B) :
    FloatOps.matmul d prec L R (constant ⟨2, ![A, B]⟩ .f32 0x00000000#32) (ix2 p q)
      = ∑ k : Fin K, L (ix2 p k) * R (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

end Cert.DenseLayer

end
-- ==== Proof.KerPayloadEye.lean ====
/-
  The diagonal of a tile of the similarity matrix. The tile at grid coordinates (a, b) covers the rows
  a * 1024 .. a * 1024 + 1023 and the columns b * 1024 .. b * 1024 + 1023 of the 8192 by 8192 matrix; its entry (p, q)
  lies on the diagonal when the two global positions agree. The kernel computes both positions in 32-bit words; they
  are below 8192, so the words do not wrap and agree exactly when the numbers do.
-/
import proofs.«123631_j42125039239359_1_alg».proof.Proof.Gen.KernelIdeal.Skeleton
import Idealize.ShloMosaic.Lib.Pipeline.Value
import Idealize.ShloMosaic.Lib.ValueIdx

noncomputable section

namespace Cert.KernelIdeal.KerValue

open Idealize.ShloMosaic Idealize.ShloMosaic.ValueIdx Cert.KernelIdeal

/-- A block coordinate below 8 times 1024 plus an offset below 1024, computed in 32-bit words, is that number. -/
theorem position_toNat (a r : ℕ) (ha : a < 8) (hr : r < 1024) :
    (IntOp.addi (Scalar.muli (BitVec.ofNat 32 a) 1024#32) (BitVec.ofNat 32 r)).toNat = a * 1024 + r := by
  show (BitVec.ofNat 32 a * 1024#32 + BitVec.ofNat 32 r).toNat = _
  rw [BitVec.toNat_add, BitVec.toNat_mul, BitVec.toNat_ofNat, BitVec.toNat_ofNat, BitVec.toNat_ofNat]
  omega

/-- The diagonal mask at (p, q) as a comparison of the two positions' words. -/
theorem eye_word (i : grid1.Coords) (p q : Fin 1024) :
    Gen.k1_pay8 i (ix2 p q)
      = IntOp.cmpi .eq (IntOp.addi (Scalar.muli (BitVec.ofNat 32 (i 0).val) 1024#32) (BitVec.ofNat 32 p.val))
          (IntOp.addi (Scalar.muli (BitVec.ofNat 32 (i 1).val) 1024#32) (BitVec.ofNat 32 q.val)) := by
  unfold Gen.k1_pay8
  show IntOp.cmpi .eq (IntOp.addi _ (iota .tc S1024x1024 32 [0] _ (ix2 p q)))
      (IntOp.addi _ (iota .tc S1024x1024 32 [1] _ (ix2 p q))) = _
  rw [iota_single_apply, iota_single_apply]
  rfl

/-- The mask is set at (p, q) exactly when the row's and the column's global positions agree. -/
theorem eye_apply (i : grid1.Coords) (p q : Fin 1024) :
    Gen.k1_pay8 i (ix2 p q) = 1#1 ↔ (i 0).val * 1024 + p.val = (i 1).val * 1024 + q.val := by
  have ha : (i 0).val < 8 := (i 0).isLt
  have hb : (i 1).val < 8 := (i 1).isLt
  rw [eye_word]
  show BitVec.ofBool (_ == _) = 1#1 ↔ _
  constructor
  · intro h
    have h1 : (IntOp.addi (Scalar.muli (BitVec.ofNat 32 (i 0).val) 1024#32) (BitVec.ofNat 32 p.val)
        == IntOp.addi (Scalar.muli (BitVec.ofNat 32 (i 1).val) 1024#32) (BitVec.ofNat 32 q.val)) = true := by
      cases hc : (IntOp.addi (Scalar.muli (BitVec.ofNat 32 (i 0).val) 1024#32) (BitVec.ofNat 32 p.val)
        == IntOp.addi (Scalar.muli (BitVec.ofNat 32 (i 1).val) 1024#32) (BitVec.ofNat 32 q.val))
      · rw [hc] at h; exact absurd h (by decide)
      · rfl
    have h2 := congrArg BitVec.toNat (eq_of_beq h1)
    rw [position_toNat _ _ ha p.isLt, position_toNat _ _ hb q.isLt] at h2
    exact h2
  · intro h
    have h2 : IntOp.addi (Scalar.muli (BitVec.ofNat 32 (i 0).val) 1024#32) (BitVec.ofNat 32 p.val)
        = IntOp.addi (Scalar.muli (BitVec.ofNat 32 (i 1).val) 1024#32) (BitVec.ofNat 32 q.val) :=
      BitVec.eq_of_toNat_eq (by rw [position_toNat _ _ ha p.isLt, position_toNat _ _ hb q.isLt]; exact h)
    rw [h2, beq_self_eq_true]
    rfl

/-- Off the diagonal the mask is the zero bit. -/
theorem eye_zero (i : grid1.Coords) (p q : Fin 1024)
    (h : ¬ ((i 0).val * 1024 + p.val = (i 1).val * 1024 + q.val)) : Gen.k1_pay8 i (ix2 p q) = 0#1 :=
  eq_zero_of_ne_one (mt (eye_apply i p q).mp h)

end Cert.KernelIdeal.KerValue

end
-- ==== Proof.KerPayloadExp.lean ====
/-
  A tile of the similarity matrix after the exponential. Entry (p, q) of the tile at grid coordinates (a, b) is the inner
  product of row p of the row block and row q of the column block (the column block enters the matrix product
  transposed), times the reciprocal of the temperature, under the exponential; on the diagonal of the whole matrix the
  entry is 0.
-/
import proofs.«123631_j42125039239359_1_alg».proof.Proof.Gen.KernelIdeal.Skeleton
import proofs.«123631_j42125039239359_1_alg».proof.Proof.Spec
import proofs.«123631_j42125039239359_1_alg».proof.Proof.LibDenseLayer
import proofs.«123631_j42125039239359_1_alg».proof.Proof.KerPayloadSmall
import proofs.«123631_j42125039239359_1_alg».proof.Proof.KerPayloadEye
import Idealize.ShloMosaic.Lib.ValueLayout

noncomputable section

namespace Cert.KernelIdeal.KerValue

open Idealize.ShloMosaic Idealize.ShloMosaic.ValueIdx Cert.KernelIdeal

/-- The matrix product of the row block by the transposed column block, read at (p, q): the inner product of row p of
    the first and row q of the second. -/
theorem gram_apply (v3 v5 : Vec Ideal S1024x256 .bf16) (p q : Fin 1024) :
    FloatOps.matmul (F := Ideal) (φ₁ := .bf16) (φ₂ := .bf16) dot_S1024x256_S256x1024_S1024x1024_1_0_0_1_n_n none
        (shapeCast S1024x256 v3 Gen.shapeCasts_S1024x256_S1024x256)
        (transpose S256x1024 [1, 0] (shapeCast S1024x256 v5 Gen.shapeCasts_S1024x256_S1024x256)
          Gen.transposes_S1024x256_p1_0_S256x1024)
        (constant (F := Ideal) S1024x1024 .f32 0x00000000#32) (ix2 p q)
      = ∑ k : Fin 256, v3 (ix2 p k) * v5 (ix2 q k) := by
  rw [shapeCast_self, shapeCast_self]
  refine (Cert.DenseLayer.matmul_rows_cols dot_S1024x256_S256x1024_S1024x1024_1_0_0_1_n_n rfl rfl
    (fun _ _ => rfl) (fun j k => DotDims.lhsIdx_val_of_single _ rfl j k)
    (fun j k => DotDims.rhsIdx_val_of_single _ rfl j k) (fun _ _ => rfl) none v3 _ p q).trans ?_
  exact Finset.sum_congr rfl fun k _ => congrArg (v3 (ix2 p k) * ·) (transpose_ix2_apply v5 _ k q)

/-- The tile after the exponential, read at (p, q). -/
theorem exp_apply (i : grid1.Coords) (v3 v5 : Vec Ideal S1024x256 .bf16) (p q : Fin 1024) :
    Gen.k1_pay9 (F := Ideal) i v3 v5 (ix2 p q)
      = if (i 0).val * 1024 + p.val = (i 1).val * 1024 + q.val then 0
        else Ideal.exp ((∑ k : Fin 256, v3 (ix2 p k) * v5 (ix2 q k)) * Cert.Contrastive.invTemperature) := by
  unfold Gen.k1_pay9
  rw [select_apply]
  by_cases h : (i 0).val * 1024 + p.val = (i 1).val * 1024 + q.val
  · rw [(eye_apply i p q).mpr h, select_one, if_pos h]
    exact Ideal.ofBits_zero_f32
  · rw [eye_zero i p q h, select_zero, if_neg h]
    show Ideal.exp (FloatOps.matmul (F := Ideal) (φ₁ := .bf16) (φ₂ := .bf16) dot_S1024x256_S256x1024_S1024x1024_1_0_0_1_n_n none _ _ _ (ix2 p q)
      * Named.named (F := Ideal) Cert.KernelIdeal.κ "inv_temperature" (φ := .f32) 0x41649249#32) = _
    rw [invTemperature_named, gram_apply]

end Cert.KernelIdeal.KerValue

end
-- ==== Proof.KerPayloadPos.lean ====
/-
  The step's column of sums over the positives. Row p of the tile at grid coordinates (a, b) sums the tile's entries
  (p, q) after the exponential over the columns q whose label is row p's label and which are off the diagonal of the
  whole matrix; the other columns contribute 0. The mask is computed in one-bit words: "labels agree" and not "on the
  diagonal".
-/
import proofs.«123631_j42125039239359_1_alg».proof.Proof.Gen.KernelIdeal.Skeleton
import proofs.«123631_j42125039239359_1_alg».proof.Proof.LibRowReduce
import proofs.«123631_j42125039239359_1_alg».proof.Proof.KerPayloadEye
import Idealize.ShloMosaic.Lib.ValueLayout

noncomputable section

namespace Cert.KernelIdeal.KerValue

open Idealize.ShloMosaic Idealize.ShloMosaic.ValueIdx Cert.KernelIdeal

/-- "b and not e" on one-bit words is set exactly when b is and e is not. -/
theorem mask_bits : ∀ (b : Bool) (e : BitVec 1),
    IntOp.andi (BitVec.ofBool b) (IntOp.xori e 1#1) = 1#1 ↔ (b = true ∧ ¬ e = 1#1) := by decide

/-- The positives' mask: the two label words agree and the diagonal bit is not set. -/
theorem mask_iff (x y : BitVec 32) (e : BitVec 1) :
    IntOp.andi (IntOp.cmpi .eq x y) (IntOp.xori e 1#1) = 1#1 ↔ x = y ∧ ¬ e = 1#1 := by
  have h := mask_bits (x == y) e
  rw [beq_iff_eq] at h
  exact h

/-- The step's column of sums over the positives, read at row p. -/
theorem possum_apply (i : grid1.Coords) (v3 v5 : Vec Ideal S1024x256 .bf16) (v23 : Vec Ideal S1024x1 .i32)
    (v25 : Vec Ideal S1x1024 .i32) (p : Fin 1024) :
    Gen.k1_pay10 (F := Ideal) i v3 v5 v23 v25 (ix2 p 0)
      = ∑ q : Fin 1024,
          if v23 (ix2 p 0) = v25 (ix2 0 q) ∧ ¬ ((i 0).val * 1024 + p.val = (i 1).val * 1024 + q.val)
          then Gen.k1_pay9 (F := Ideal) i v3 v5 (ix2 p q) else 0 := by
  unfold Gen.k1_pay10
  refine (Cert.Keepdims.shapeCast_a_a1_apply _ _ p 0).trans ?_
  refine (Cert.RowReduce.rowSum_apply _ _ _ _ _ p).trans ?_
  refine Finset.sum_congr rfl fun q _ => ?_
  rw [select_apply]
  show Scalar.select (IntOp.andi (IntOp.cmpi .eq (broadcastTo S1024x1024 _ _ (ix2 p q))
      (broadcastTo S1024x1024 _ _ (ix2 p q))) (IntOp.xori (Gen.k1_pay8 i (ix2 p q)) 1#1)) _ _ = _
  rw [shapeCast_self, shapeCast_self, Cert.Keepdims.broadcastTo_a1_ab_apply, broadcastTo_1b_ab_apply]
  by_cases h : v23 (ix2 p 0) = v25 (ix2 0 q) ∧ ¬ ((i 0).val * 1024 + p.val = (i 1).val * 1024 + q.val)
  · rw [(mask_iff _ _ _).mpr ⟨h.1, mt (eye_apply i p q).mp h.2⟩, select_one, if_pos h]
  · rw [eq_zero_of_ne_one (mt (mask_iff _ _ _).mp fun hh => h ⟨hh.1, mt (eye_apply i p q).mpr hh.2⟩),
      select_zero, if_neg h]
    exact Ideal.ofBits_zero_f32

end Cert.KernelIdeal.KerValue

end
-- ==== Proof.KerAccTile.lean ====
/-
  The step of the second call at point t, read at a row, in the specification's words.

  The tile of point t after the exponential has, at (p, q), the kernel's exponential of the cosine of rows
  1024 (t / 8) + p and 1024 (t % 8) + q of the embeddings (0 where the two are one row): the blocks of windows 0 and 1
  are those rows of the normalised embeddings, and the kernel's test "the two positions agree" is the equation of
  the two rows.  The step's column of sums over the positives sums the tile's row p over the rows q of the column
  block that are positives of row p: the blocks of windows 2 and 3 are those rows' labels.
-/
import proofs.«123631_j42125039239359_1_alg».proof.Proof.KerAccBlocks
import proofs.«123631_j42125039239359_1_alg».proof.Proof.KerPayloadExp
import proofs.«123631_j42125039239359_1_alg».proof.Proof.KerPayloadPos
import proofs.«123631_j42125039239359_1_alg».proof.Proof.Spec

set_option maxRecDepth 16384

noncomputable section

namespace Cert.KernelIdeal.KerValue

open Cert.KernelIdeal Cert.KernelIdeal.Gen Cert.KernelIdeal.Hand
open Idealize.ShloMosaic Idealize.ShloMosaic.TcCoe
open Idealize.SL Idealize.SL.Sem
open Idealize.ShloMosaic.ValueIdx
open Cert.Contrastive

variable (V : (c : Dev nD) → (b : Ref sig .tc) → Buf (Elt Ideal) ((c : Thread nD τ).loc b)) (c : Dev nD)
  (x : Fin 8192 → Fin 256 → EReal) (ids : Fin 8192 → BitVec 32)

/-- The grid coordinates of point t: row block t / 8, column block t % 8. -/
theorem coords_facts : ∀ t : Fin cfg1.N,
    ((grid1.coords t) 0).val = t.val / 8 ∧ ((grid1.coords t) 1).val = t.val % 8 :=
  (by decide +kernel : ∀ t : Fin grid1.N, _)

/-- A tile after the exponential at (p, q), when the row block's row p is row r of the embeddings and the
    column block's row q is row s: the kernel's exponential of rows r and s. -/
theorem exp_tile_of (i : grid1.Coords) (v3 v5 : Vec Ideal S1024x256 .bf16) (r s : Fin 8192) (p q : Fin 1024)
    (h0 : (i 0).val * 1024 + p.val = r.val) (h1 : (i 1).val * 1024 + q.val = s.val)
    (h3 : ∀ k : Fin 256, v3 (ix2 p k) = unitRow x r k) (h5 : ∀ k : Fin 256, v5 (ix2 q k) = unitRow x s k) :
    k1_pay9 (F := Ideal) i v3 v5 (ix2 p q) = expKer x r s := by
  rw [exp_apply, h0, h1]
  have hsum : (∑ k : Fin 256, v3 (ix2 p k) * v5 (ix2 q k)) = ∑ k : Fin 256, unitRow x r k * unitRow x s k :=
    Finset.sum_congr rfl fun k _ => by rw [h3, h5]
  rw [hsum]
  unfold expKer cosine
  exact if_congr (Fin.ext_iff (a := r) (b := s)).symm rfl rfl

/-- A step's column of sums over the positives at row p, when the row block's row p is row r and the column
    block's row q is row s q, and the two label blocks hold those rows' labels. -/
theorem pos_tile_of (i : grid1.Coords) (v3 v5 : Vec Ideal S1024x256 .bf16) (v23 : Vec Ideal S1024x1 .i32)
    (v25 : Vec Ideal S1x1024 .i32) (r : Fin 8192) (s : Fin 1024 → Fin 8192) (p : Fin 1024)
    (h0 : (i 0).val * 1024 + p.val = r.val) (h1 : ∀ q : Fin 1024, (i 1).val * 1024 + q.val = (s q).val)
    (h3 : ∀ k : Fin 256, v3 (ix2 p k) = unitRow x r k)
    (h5 : ∀ (q : Fin 1024) (k : Fin 256), v5 (ix2 q k) = unitRow x (s q) k)
    (h23 : v23 (ix2 p 0) = ids r) (h25 : ∀ q : Fin 1024, v25 (ix2 0 q) = ids (s q)) :
    k1_pay10 (F := Ideal) i v3 v5 v23 v25 (ix2 p 0)
      = ∑ q : Fin 1024, if Positive ids r (s q) then expKer x r (s q) else 0 := by
  rw [possum_apply]
  refine Finset.sum_congr rfl fun q _ => ?_
  rw [exp_tile_of x i v3 v5 r (s q) p q h0 (h1 q) h3 (h5 q), h23, h25 q, h0, h1 q]
  exact if_congr (and_congr Iff.rfl (not_congr (Fin.ext_iff (a := r) (b := s q)).symm)) rfl rfl

/-- The tile of point t after the exponential, at (p, q). -/
theorem tile_exp (hU : ∀ (i : Fin 8192) (k : Fin 256), V c main_v0 (ix2 i k) = unitRow x i k)
    (t : Fin cfg1.N) (p q : Fin 1024) :
    k1_pay9 (F := Ideal) (grid1.coords t) (iblk1 V c 0 t) (iblk1 V c 1 t) (ix2 p q)
      = expKer x (rowOf t p) (colOf t q) := by
  obtain ⟨hc0, hc1⟩ := coords_facts t
  exact exp_tile_of x (grid1.coords t) (iblk1 V c 0 t) (iblk1 V c 1 t) (rowOf t p) (colOf t q) p q
    (by rw [hc0]; rfl) (by rw [hc1]; rfl)
    (fun k => (iblk1_0_apply V c t p k).trans (hU _ _)) (fun k => (iblk1_1_apply V c t q k).trans (hU _ _))

/-- The step's column of sums over the positives at point t, at row p. -/
theorem tile_pos (hU : ∀ (i : Fin 8192) (k : Fin 256), V c main_v0 (ix2 i k) = unitRow x i k)
    (hL1 : ∀ i : Fin 8192, V c main_v1 (ix2 i (0 : Fin 1)) = ids i)
    (hL2 : ∀ j : Fin 8192, V c main_v2 (ix2 (0 : Fin 1) j) = ids j)
    (t : Fin cfg1.N) (p : Fin 1024) :
    k1_pay10 (F := Ideal) (grid1.coords t) (iblk1 V c 0 t) (iblk1 V c 1 t) (iblk1 V c 2 t) (iblk1 V c 3 t) (ix2 p 0)
      = ∑ q : Fin 1024, if Positive ids (rowOf t p) (colOf t q) then expKer x (rowOf t p) (colOf t q) else 0 := by
  obtain ⟨hc0, hc1⟩ := coords_facts t
  exact pos_tile_of x ids (grid1.coords t) (iblk1 V c 0 t) (iblk1 V c 1 t) (iblk1 V c 2 t) (iblk1 V c 3 t)
    (rowOf t p) (colOf t) p (by rw [hc0]; rfl) (fun q => by rw [hc1]; rfl)
    (fun k => (iblk1_0_apply V c t p k).trans (hU _ _)) (fun q k => (iblk1_1_apply V c t q k).trans (hU _ _))
    ((iblk1_2_apply V c t p).trans (hL1 _)) (fun q => (iblk1_3_apply V c t q).trans (hL2 _))

end Cert.KernelIdeal.KerValue

end
-- ==== Proof.KerAccSum.lean ====
/-
  The second call's two running sums after a row block's last point, and what the body writes out there, in
  the specification's words.

  The arrays the region finds: the normalised embeddings (row i is the specification's unit row i) and the labels,
  once as a column and once as a row.  For any sequence of pairs of columns that obeys the body's two equations, after
  the point on column block 7 of row block a the first running sum at row p is the sum over the positives of row
  1024 a + p of the kernel's exponentials, the second the sum over all other rows; so the loss and the count the body
  writes out at that point are the specification's row loss and row count of that row.
-/
import proofs.«123631_j42125039239359_1_alg».proof.Proof.KerAccCore
import proofs.«123631_j42125039239359_1_alg».proof.Proof.KerAccTile

set_option maxRecDepth 16384

noncomputable section

namespace Cert.KernelIdeal.KerValue

open Cert.KernelIdeal Cert.KernelIdeal.Gen Cert.KernelIdeal.Hand
open Idealize.ShloMosaic Idealize.ShloMosaic.TcCoe
open Idealize.SL Idealize.SL.Sem
open Idealize.ShloMosaic.ValueIdx
open Cert.Contrastive

variable (V : (c : Dev nD) → (b : Ref sig .tc) → Buf (Elt Ideal) ((c : Thread nD τ).loc b)) (c : Dev nD)
  (x : Fin 8192 → Fin 256 → EReal) (ids : Fin 8192 → BitVec 32)
  (acc : (n : ℕ) → n < cfg1.N → Vec Ideal S1024x1 .f32 × Vec Ideal S1024x1 .f32)

/-- The step's column of sums over the positives at point t, as the body computes it from the windows' blocks. -/
abbrev stepPos (t : Fin cfg1.N) : Vec Ideal S1024x1 .f32 :=
  k1_pay10 (F := Ideal) (grid1.coords t) (iblk1 V c 0 t) (iblk1 V c 1 t) (iblk1 V c 2 t) (iblk1 V c 3 t)

/-- The tile after the exponential at point t, as the body computes it from the windows' blocks. -/
abbrev stepExp (t : Fin cfg1.N) : FVec Ideal S1024x1024 .f32 :=
  k1_pay9 (F := Ideal) (grid1.coords t) (iblk1 V c 0 t) (iblk1 V c 1 t)

/-- The two running sums by column block: after the point on column block b, the sums over the rows of the
    blocks 0 ... b. -/
theorem acc_partial (hU : ∀ (i : Fin 8192) (k : Fin 256), V c main_v0 (ix2 i k) = unitRow x i k)
    (hL1 : ∀ i : Fin 8192, V c main_v1 (ix2 i (0 : Fin 1)) = ids i)
    (hL2 : ∀ j : Fin 8192, V c main_v2 (ix2 (0 : Fin 1) j) = ids j)
    (hfirst : ∀ (t : Fin cfg1.N) (h : t.val % 8 = 0), acc t.val t.isLt
      = (k1_pay1 (F := Ideal) (k1_pay6 (F := Ideal)) (k1_pay10 (F := Ideal) (grid1.coords t) (iblk1 V c 0 t) (iblk1 V c 1 t) (iblk1 V c 2 t) (iblk1 V c 3 t)),
         k1_pay2 (F := Ideal) (k1_pay9 (F := Ideal) (grid1.coords t) (iblk1 V c 0 t) (iblk1 V c 1 t)) (k1_pay7 (F := Ideal))))
    (hnext : ∀ (t : Fin cfg1.N) (h : t.val % 8 ≠ 0), acc t.val t.isLt
      = (k1_pay1 (F := Ideal) (acc (t.val - 1) (pred_lt t)).1 (k1_pay10 (F := Ideal) (grid1.coords t) (iblk1 V c 0 t) (iblk1 V c 1 t) (iblk1 V c 2 t) (iblk1 V c 3 t)),
         k1_pay2 (F := Ideal) (k1_pay9 (F := Ideal) (grid1.coords t) (iblk1 V c 0 t) (iblk1 V c 1 t)) (acc (t.val - 1) (pred_lt t)).2))
    (t : Fin cfg1.N) (p : Fin 1024) :
    (acc t.val t.isLt).1 (ix2 p 0)
        = ∑ b' ∈ Finset.range (t.val % 8 + 1),
            blockSum (fun j => if Positive ids (rowOf t p) j then expKer x (rowOf t p) j else 0) b'
      ∧ (acc t.val t.isLt).2 (ix2 p 0)
        = ∑ b' ∈ Finset.range (t.val % 8 + 1), blockSum (fun j => expKer x (rowOf t p) j) b' :=
  ⟨acc_fst_partial acc (stepPos V c) (stepExp V c) hfirst hnext
      (fun i j => if Positive ids i j then expKer x i j else 0) (tile_pos V c x ids hU hL1 hL2) t p,
    acc_snd_partial acc (stepPos V c) (stepExp V c) hfirst hnext
      (fun i j => expKer x i j) (tile_exp V c x hU) t p⟩

/-- After the point on column block 7 the running sums at row p are the specification's two sums of row
    1024 (t / 8) + p. -/
theorem acc_last (hU : ∀ (i : Fin 8192) (k : Fin 256), V c main_v0 (ix2 i k) = unitRow x i k)
    (hL1 : ∀ i : Fin 8192, V c main_v1 (ix2 i (0 : Fin 1)) = ids i)
    (hL2 : ∀ j : Fin 8192, V c main_v2 (ix2 (0 : Fin 1) j) = ids j)
    (hfirst : ∀ (t : Fin cfg1.N) (h : t.val % 8 = 0), acc t.val t.isLt
      = (k1_pay1 (F := Ideal) (k1_pay6 (F := Ideal)) (k1_pay10 (F := Ideal) (grid1.coords t) (iblk1 V c 0 t) (iblk1 V c 1 t) (iblk1 V c 2 t) (iblk1 V c 3 t)),
         k1_pay2 (F := Ideal) (k1_pay9 (F := Ideal) (grid1.coords t) (iblk1 V c 0 t) (iblk1 V c 1 t)) (k1_pay7 (F := Ideal))))
    (hnext : ∀ (t : Fin cfg1.N) (h : t.val % 8 ≠ 0), acc t.val t.isLt
      = (k1_pay1 (F := Ideal) (acc (t.val - 1) (pred_lt t)).1 (k1_pay10 (F := Ideal) (grid1.coords t) (iblk1 V c 0 t) (iblk1 V c 1 t) (iblk1 V c 2 t) (iblk1 V c 3 t)),
         k1_pay2 (F := Ideal) (k1_pay9 (F := Ideal) (grid1.coords t) (iblk1 V c 0 t) (iblk1 V c 1 t)) (acc (t.val - 1) (pred_lt t)).2))
    (t : Fin cfg1.N) (ht : t.val % 8 = 7) (p : Fin 1024) :
    (acc t.val t.isLt).1 (ix2 p 0) = posKer x ids (rowOf t p)
      ∧ (acc t.val t.isLt).2 (ix2 p 0) = allKer x (rowOf t p) :=
  acc_full acc (stepPos V c) (stepExp V c) hfirst hnext
    (fun i j => if Positive ids i j then expKer x i j else 0) (fun i j => expKer x i j)
    (tile_pos V c x ids hU hL1 hL2) (tile_exp V c x hU) t ht p

/-- What the body writes out after the point on column block 7: the specification's row loss and row count. -/
theorem out_last (hU : ∀ (i : Fin 8192) (k : Fin 256), V c main_v0 (ix2 i k) = unitRow x i k)
    (hL1 : ∀ i : Fin 8192, V c main_v1 (ix2 i (0 : Fin 1)) = ids i)
    (hL2 : ∀ j : Fin 8192, V c main_v2 (ix2 (0 : Fin 1) j) = ids j)
    (hfirst : ∀ (t : Fin cfg1.N) (h : t.val % 8 = 0), acc t.val t.isLt
      = (k1_pay1 (F := Ideal) (k1_pay6 (F := Ideal)) (k1_pay10 (F := Ideal) (grid1.coords t) (iblk1 V c 0 t) (iblk1 V c 1 t) (iblk1 V c 2 t) (iblk1 V c 3 t)),
         k1_pay2 (F := Ideal) (k1_pay9 (F := Ideal) (grid1.coords t) (iblk1 V c 0 t) (iblk1 V c 1 t)) (k1_pay7 (F := Ideal))))
    (hnext : ∀ (t : Fin cfg1.N) (h : t.val % 8 ≠ 0), acc t.val t.isLt
      = (k1_pay1 (F := Ideal) (acc (t.val - 1) (pred_lt t)).1 (k1_pay10 (F := Ideal) (grid1.coords t) (iblk1 V c 0 t) (iblk1 V c 1 t) (iblk1 V c 2 t) (iblk1 V c 3 t)),
         k1_pay2 (F := Ideal) (k1_pay9 (F := Ideal) (grid1.coords t) (iblk1 V c 0 t) (iblk1 V c 1 t)) (acc (t.val - 1) (pred_lt t)).2))
    (t : Fin cfg1.N) (ht : t.val % 8 = 7) (p : Fin 1024) :
    k1_pay4 (F := Ideal) (acc t.val t.isLt).1 (acc t.val t.isLt).2 (ix2 p 0) = rowLossKer x ids (rowOf t p)
      ∧ k1_pay5 (F := Ideal) (acc t.val t.isLt).1 (ix2 p 0) = rowCountKer x ids (rowOf t p) := by
  obtain ⟨h1, h2⟩ := acc_last V c x ids acc hU hL1 hL2 hfirst hnext t ht p
  constructor
  · rw [loss_apply, h1, h2]
    rfl
  · rw [count_apply, h1]
    rfl

/-! ## The same by row block -/

/-- The last point of row block a. -/
def lastPoint (a : Fin 8) : Fin cfg1.N := ⟨a.val * 8 + 7, by rw [points_eq]; have := a.isLt; omega⟩

/-- Row p of row block a, as a row of the whole array. -/
def rowIn (a : Fin 8) (p : Fin 1024) : Fin 8192 := ⟨a.val * 1024 + p.val, by have := a.isLt; have := p.isLt; omega⟩

theorem lastPoint_mod (a : Fin 8) : (lastPoint a).val % 8 = 7 := by show (a.val * 8 + 7) % 8 = 7; omega

theorem rowOf_lastPoint (a : Fin 8) (p : Fin 1024) : rowOf (lastPoint a) p = rowIn a p :=
  Fin.ext (by show (a.val * 8 + 7) / 8 * 1024 + p.val = a.val * 1024 + p.val; omega)

/-- After the last point of row block a: the two running sums, the loss and the count at row p are the
    specification's of row 1024 a + p. -/
theorem rowBlock_last (hU : ∀ (i : Fin 8192) (k : Fin 256), V c main_v0 (ix2 i k) = unitRow x i k)
    (hL1 : ∀ i : Fin 8192, V c main_v1 (ix2 i (0 : Fin 1)) = ids i)
    (hL2 : ∀ j : Fin 8192, V c main_v2 (ix2 (0 : Fin 1) j) = ids j)
    (hfirst : ∀ (t : Fin cfg1.N) (h : t.val % 8 = 0), acc t.val t.isLt
      = (k1_pay1 (F := Ideal) (k1_pay6 (F := Ideal)) (k1_pay10 (F := Ideal) (grid1.coords t) (iblk1 V c 0 t) (iblk1 V c 1 t) (iblk1 V c 2 t) (iblk1 V c 3 t)),
         k1_pay2 (F := Ideal) (k1_pay9 (F := Ideal) (grid1.coords t) (iblk1 V c 0 t) (iblk1 V c 1 t)) (k1_pay7 (F := Ideal))))
    (hnext : ∀ (t : Fin cfg1.N) (h : t.val % 8 ≠ 0), acc t.val t.isLt
      = (k1_pay1 (F := Ideal) (acc (t.val - 1) (pred_lt t)).1 (k1_pay10 (F := Ideal) (grid1.coords t) (iblk1 V c 0 t) (iblk1 V c 1 t) (iblk1 V c 2 t) (iblk1 V c 3 t)),
         k1_pay2 (F := Ideal) (k1_pay9 (F := Ideal) (grid1.coords t) (iblk1 V c 0 t) (iblk1 V c 1 t)) (acc (t.val - 1) (pred_lt t)).2))
    (a : Fin 8) (p : Fin 1024) :
    (acc (a.val * 8 + 7) (lastPoint a).isLt).1 (ix2 p 0) = posKer x ids (rowIn a p)
      ∧ (acc (a.val * 8 + 7) (lastPoint a).isLt).2 (ix2 p 0) = allKer x (rowIn a p)
      ∧ k1_pay4 (F := Ideal) (acc (a.val * 8 + 7) (lastPoint a).isLt).1 (acc (a.val * 8 + 7) (lastPoint a).isLt).2 (ix2 p 0)
          = rowLossKer x ids (rowIn a p)
      ∧ k1_pay5 (F := Ideal) (acc (a.val * 8 + 7) (lastPoint a).isLt).1 (ix2 p 0) = rowCountKer x ids (rowIn a p) := by
  obtain ⟨h1, h2⟩ := acc_last V c x ids acc hU hL1 hL2 hfirst hnext (lastPoint a) (lastPoint_mod a) p
  obtain ⟨h3, h4⟩ := out_last V c x ids acc hU hL1 hL2 hfirst hnext (lastPoint a) (lastPoint_mod a) p
  rw [rowOf_lastPoint] at h1 h2 h3 h4
  exact ⟨h1, h2, h3, h4⟩

end Cert.KernelIdeal.KerValue

end
-- ==== Proof.KerTail.lean ====
/-
  The host operations after the second kernel, on the extended reals: the sum of the 8192 row losses over the number of
  valid rows, the latter clamped below by one. Each of the two totals is a host sum over both axes of an 8192 by 1
  column from zero, which is the sum of the column's 8192 entries.
-/
import proofs.«123631_j42125039239359_1_alg».proof.Proof.Gen.KernelIdeal.Launch
import proofs.«123631_j42125039239359_1_alg».proof.Proof.Spec
import Idealize.ShloMosaic.Lib.StableHlo.Run
import Idealize.ShloMosaic.PureOps.Ideal.Laws
import Idealize.ShloMosaic.Lib.ValueIdx

noncomputable section

namespace Cert.KernelIdeal.KerValue

open Idealize.ShloMosaic Idealize.ShloMosaic.ValueIdx Idealize.ShloMosaic.StableHlo Cert.KernelIdeal

/-- A sum over the indices of an 8192 by 1 column is the sum of its 8192 entries. -/
theorem sum_column (x : S8192x1.Idx → EReal) : ∑ j : S8192x1.Idx, x j = ∑ i : Fin 8192, x (ix2 i 0) := by
  rw [sum_idx2]
  refine Finset.sum_congr rfl fun i _ => ?_
  exact Fin.sum_univ_one _

/-- The host's sum of a column over both its axes, from zero: the sum of the column's entries. -/
theorem total_apply (x : (⟨S8192x1, .f32⟩ : BufTy).Contents (Elt Ideal)) (j : S_.Idx) :
    Host.reduceAdd (F := Ideal) x (constant (F := Ideal) S_ .f32 0x00000000#32) Gen.reducesTo_S8192x1_S_d0_1 Gen.h_S_ j
      = ∑ i : Fin 8192, (x : S8192x1.Idx → EReal) (ix2 i 0) := by
  simp only [Host.reduceAdd, Ideal.hostReduceAdd_def]
  refine (Ideal.hostReduceAdd_total Gen.reducesTo_S8192x1_S_d0_1 (fun b => b.elim0) x _ j).trans ?_
  show Ideal.ofBits .f32 0x00000000#32 + _ = _
  rw [Ideal.ofBits_zero_f32, zero_add]
  exact sum_column x

/-- The program's result after the host operations that follow the second kernel, from any contents of the buffers. -/
theorem tail_apply (W : Valuation τ sig (Elt Ideal)) :
    StableHlo.after (Gen.hostOps2 (F := Ideal)) W (Proc.devRef .tc main_v7)
      = ((fun _ => Ideal.div (∑ i : Fin 8192, (W (Proc.devRef .tc main_v3_0) : S8192x1.Idx → EReal) (ix2 i 0))
            (max (∑ i : Fin 8192, (W (Proc.devRef .tc main_v3_1) : S8192x1.Idx → EReal) (ix2 i 0))
              Cert.Contrastive.countFloor)) : (⟨S_, .f32⟩ : BufTy).Contents (Elt Ideal)) := by
  show StableHlo.after Gen.hostOps2 _ (Proc.devRef .tc main_v7) = _
  after_results
  funext j
  show Ideal.div (Host.reduceAdd (F := Ideal) _ _ _ _ j) (max (Host.reduceAdd (F := Ideal) _ _ _ _ j) (Ideal.ofBits .f32 0x3F800000#32)) = _
  rw [total_apply, total_apply]
  rfl

end Cert.KernelIdeal.KerValue

end
-- ==== Proof.KerLabels.lean ====
/-
  The host operations between the two kernels, and what the host operations leave alone. The labels, a vector of 8192
  words, are viewed twice: as a column [8192, 1] (entry (i, 0) is label i) and as a row [1, 8192] (entry (0, j) is
  label j). No host operation writes an argument array or the normalised embeddings.
-/
import proofs.«123631_j42125039239359_1_alg».proof.Proof.Gen.KernelIdeal.Launch
import proofs.«123631_j42125039239359_1_alg».proof.Proof.LibKeepdims
import Idealize.ShloMosaic.Lib.StableHlo.Run
import Idealize.ShloMosaic.Lib.ValueLayout
import Idealize.ShloMosaic.Lib.ValueIdx

noncomputable section

namespace Cert.KernelIdeal.KerValue

open Idealize.ShloMosaic Idealize.ShloMosaic.ValueIdx Idealize.ShloMosaic.StableHlo Cert.KernelIdeal

variable {F : FTy → Type} [FloatOps F] [Named F]

/-- The column view of the labels after the two reshapes: the labels cast to [8192, 1]. -/
theorem labels_col_eq (W : Valuation τ sig (Elt F)) :
    StableHlo.after (Gen.hostOps1 (F := F)) W (Proc.devRef .tc main_v1)
      = shapeCast S8192x1 (W (Proc.devRef .tc main_arg1)) Gen.shapeCasts_S8192_S8192x1 := by
  show StableHlo.after Gen.hostOps1 _ (Proc.devRef .tc main_v1) = _
  after_results
  rfl

/-- The row view of the labels after the two reshapes: the labels cast to [1, 8192]. -/
theorem labels_row_eq (W : Valuation τ sig (Elt F)) :
    StableHlo.after (Gen.hostOps1 (F := F)) W (Proc.devRef .tc main_v2)
      = shapeCast S1x8192 (W (Proc.devRef .tc main_arg1)) Gen.shapeCasts_S8192_S1x8192 := by
  show StableHlo.after Gen.hostOps1 _ (Proc.devRef .tc main_v2) = _
  after_results
  rfl

/-- Entry (i, 0) of the column view is label i. -/
theorem labels_col (W : Valuation τ sig (Elt F)) (i : Fin 8192) :
    StableHlo.after (Gen.hostOps1 (F := F)) W (Proc.devRef .tc main_v1) (ix2 i 0)
      = W (Proc.devRef .tc main_arg1) (ix1 i) :=
  (congrFun (labels_col_eq W) (ix2 i 0)).trans
    (Cert.Keepdims.shapeCast_a_a1_apply (W (Proc.devRef .tc main_arg1)) Gen.shapeCasts_S8192_S8192x1 i 0)

/-- Entry (0, j) of the row view is label j. -/
theorem labels_row (W : Valuation τ sig (Elt F)) (j : Fin 8192) :
    StableHlo.after (Gen.hostOps1 (F := F)) W (Proc.devRef .tc main_v2) (ix2 0 j)
      = W (Proc.devRef .tc main_arg1) (ix1 j) :=
  (congrFun (labels_row_eq W) (ix2 0 j)).trans
    (shapeCast_a_1a_apply (W (Proc.devRef .tc main_arg1)) Gen.shapeCasts_S8192_S1x8192 0 j)

/-- The two reshapes write neither the normalised embeddings … -/
theorem keeps_v0 (W : Valuation τ sig (Elt F)) :
    StableHlo.after (Gen.hostOps1 (F := F)) W (Proc.devRef .tc main_v0) = W (Proc.devRef .tc main_v0) :=
  StableHlo.after_of_forall_not_mem (b := Proc.devRef .tc main_v0) _ _ (List.forall_iff_forall_mem.mp (by
    simp only [Gen.hostOps1, List.Forall, StableHlo.reshape_writes, Finset.mem_singleton]
    repeat' apply And.intro
    all_goals exact StableHlo.devRef_ne_of_ne (by decide)))

/-- … nor the embeddings … -/
theorem keeps_arg0 (W : Valuation τ sig (Elt F)) :
    StableHlo.after (Gen.hostOps1 (F := F)) W (Proc.devRef .tc main_arg0) = W (Proc.devRef .tc main_arg0) :=
  StableHlo.after_of_forall_not_mem (b := Proc.devRef .tc main_arg0) _ _ (List.forall_iff_forall_mem.mp (by
    simp only [Gen.hostOps1, List.Forall, StableHlo.reshape_writes, Finset.mem_singleton]
    repeat' apply And.intro
    all_goals exact StableHlo.devRef_ne_of_ne (by decide)))

/-- … nor the labels. -/
theorem keeps_arg1 (W : Valuation τ sig (Elt F)) :
    StableHlo.after (Gen.hostOps1 (F := F)) W (Proc.devRef .tc main_arg1) = W (Proc.devRef .tc main_arg1) :=
  StableHlo.after_of_forall_not_mem (b := Proc.devRef .tc main_arg1) _ _ (List.forall_iff_forall_mem.mp (by
    simp only [Gen.hostOps1, List.Forall, StableHlo.reshape_writes, Finset.mem_singleton]
    repeat' apply And.intro
    all_goals exact StableHlo.devRef_ne_of_ne (by decide)))

/-- The host operations after the second kernel write neither the embeddings … -/
theorem tail_keeps_arg0 (W : Valuation τ sig (Elt F)) :
    StableHlo.after (Gen.hostOps2 (F := F)) W (Proc.devRef .tc main_arg0) = W (Proc.devRef .tc main_arg0) :=
  StableHlo.after_of_forall_not_mem (b := Proc.devRef .tc main_arg0) _ _ (List.forall_iff_forall_mem.mp (by
    simp only [Gen.hostOps2, List.Forall, StableHlo.nullary_writes, StableHlo.binary_writes, Finset.mem_singleton]
    repeat' apply And.intro
    all_goals exact StableHlo.devRef_ne_of_ne (by decide)))

/-- … nor the labels. -/
theorem tail_keeps_arg1 (W : Valuation τ sig (Elt F)) :
    StableHlo.after (Gen.hostOps2 (F := F)) W (Proc.devRef .tc main_arg1) = W (Proc.devRef .tc main_arg1) :=
  StableHlo.after_of_forall_not_mem (b := Proc.devRef .tc main_arg1) _ _ (List.forall_iff_forall_mem.mp (by
    simp only [Gen.hostOps2, List.Forall, StableHlo.nullary_writes, StableHlo.binary_writes, Finset.mem_singleton]
    repeat' apply And.intro
    all_goals exact StableHlo.devRef_ne_of_ne (by decide)))

end Cert.KernelIdeal.KerValue

end
-- ==== Proof.KerValue.lean ====
/-
  The idealised kernel program's result, as a function of its two argument arrays.

  The run (module Ideal/Run) ends with every unscoped buffer at the last boundary's contents W4.  Reading W4 at the
  result buffer: the closing host operations give  (sum of the loss column) / max (sum of the count column) 1;  the two
  columns are what the second kernel's write-backs leave, row i = a * 1024 + p being written at the grid point of row
  block a and the last column block; there the two accumulators hold pos i and all i, the sums over all 8192 columns,
  because the second kernel's row-block window reads the normalised embeddings the first kernel left (row i of its
  output array is the normalised row i) and its label windows read the two reshapes of the labels.
-/
import proofs.«123631_j42125039239359_1_alg».proof.Proof.Ideal.Run
import proofs.«123631_j42125039239359_1_alg».proof.Proof.Ideal.Array1
import proofs.«123631_j42125039239359_1_alg».proof.Proof.KerArray0
import proofs.«123631_j42125039239359_1_alg».proof.Proof.KerAccSum
import proofs.«123631_j42125039239359_1_alg».proof.Proof.KerTail
import proofs.«123631_j42125039239359_1_alg».proof.Proof.KerLabels
import proofs.«123631_j42125039239359_1_alg».proof.Proof.Spec

noncomputable section

namespace Cert.KernelIdeal.KerValue

open Cert.KernelIdeal Cert.KernelIdeal.Gen Cert.KernelIdeal.Hand Cert.Contrastive
open Idealize.ShloMosaic Idealize.ShloMosaic.TcCoe
open Idealize.SL Idealize.SL.Sem
open Idealize.ShloMosaic.ValueIdx

variable (m : (ℓ : Loc nD τ sig) → Buf (Elt Ideal) ℓ) (ρ : Dev nD → PrngReg) (c : Dev nD)

/-- The second kernel finds the normalised embeddings in its first two windows' array. -/
theorem entry_unit (i : Fin 8192) (k : Fin 256) :
    E2 m ρ c main_v0 (ix2 i k) = unitRow (rowsOf (m ((c.tc : Thread nD τ).loc main_arg0))) i k := by
  show W2 m ρ c (Proc.devRef .tc main_v0) (ix2 i k) = _
  rw [show W2 m ρ c (Proc.devRef .tc main_v0) = W1 m ρ c (Proc.devRef .tc main_v0) from keeps_v0 _,
    show W1 m ρ c (Proc.devRef .tc main_v0) = (dat0 (E0 m ρ) c).arrAt 1 cfg0.N from W1_arr m ρ c 1]
  exact unit0_apply (E0 m ρ) c i k

/-- It finds the labels as a column … -/
theorem entry_col (i : Fin 8192) :
    E2 m ρ c main_v1 (ix2 i 0) = labelsOf (m ((c.tc : Thread nD τ).loc main_arg1)) i := by
  show StableHlo.after hostOps1 (W1 m ρ c) (Proc.devRef .tc main_v1) (ix2 i 0) = _
  rw [labels_col, W1_of_ne m ρ c main_arg1 (by decide)]
  rfl

/-- … and as a row. -/
theorem entry_row (j : Fin 8192) :
    E2 m ρ c main_v2 (ix2 0 j) = labelsOf (m ((c.tc : Thread nD τ).loc main_arg1)) j := by
  show StableHlo.after hostOps1 (W1 m ρ c) (Proc.devRef .tc main_v2) (ix2 0 j) = _
  rw [labels_row, W1_of_ne m ρ c main_arg1 (by decide)]
  rfl

/-- The accumulators at two equal positions are equal. -/
theorem accAt1_cast (V : (c : Dev nD) → (b : Ref sig .tc) → Buf (Elt Ideal) ((c : Thread nD τ).loc b)) {n n' : ℕ} (e : n = n')
    (h : n < cfg1.N) (h' : n' < cfg1.N) : accAt1 V c n h = accAt1 V c n' h' := by
  subst e; rfl

/-- Every row is row p of a row block a. -/
theorem row_split (i : Fin 8192) : ∃ (a : Fin 8) (p : Fin 1024), i = rowIn a p :=
  ⟨⟨i.val / 1024, by have := i.isLt; omega⟩, ⟨i.val % 1024, Nat.mod_lt _ (by decide)⟩,
    Fin.ext (by show i.val = i.val / 1024 * 1024 + i.val % 1024; omega)⟩

/-- The four facts of a row at the last column block of its row block, for the run's own accumulators. -/
theorem row_last (a : Fin 8) (p : Fin 1024) :
    (accAt1 (E2 m ρ) c (a.val * 8 + 7) (lastPoint a).isLt).1 (ix2 p 0) = posKer (rowsOf (m ((c.tc : Thread nD τ).loc main_arg0))) (labelsOf (m ((c.tc : Thread nD τ).loc main_arg1))) (rowIn a p)
    ∧ (accAt1 (E2 m ρ) c (a.val * 8 + 7) (lastPoint a).isLt).2 (ix2 p 0) = allKer (rowsOf (m ((c.tc : Thread nD τ).loc main_arg0))) (rowIn a p)
    ∧ k1_pay4 (F := Ideal) (accAt1 (E2 m ρ) c (a.val * 8 + 7) (lastPoint a).isLt).1 (accAt1 (E2 m ρ) c (a.val * 8 + 7) (lastPoint a).isLt).2 (ix2 p 0) = rowLossKer (rowsOf (m ((c.tc : Thread nD τ).loc main_arg0))) (labelsOf (m ((c.tc : Thread nD τ).loc main_arg1))) (rowIn a p)
    ∧ k1_pay5 (F := Ideal) (accAt1 (E2 m ρ) c (a.val * 8 + 7) (lastPoint a).isLt).1 (ix2 p 0) = rowCountKer (rowsOf (m ((c.tc : Thread nD τ).loc main_arg0))) (labelsOf (m ((c.tc : Thread nD τ).loc main_arg1))) (rowIn a p) :=
  rowBlock_last (E2 m ρ) c (rowsOf (m ((c.tc : Thread nD τ).loc main_arg0))) (labelsOf (m ((c.tc : Thread nD τ).loc main_arg1)))
    (accAt1 (E2 m ρ) c) (entry_unit m ρ c) (entry_col m ρ c) (entry_row m ρ c)
    (fun t h => accAt1_first (E2 m ρ) c t h) (fun t h => accAt1_next (E2 m ρ) c t h) a p

/-- The loss column the second kernel leaves: row i holds the specification's loss of row i. -/
theorem loss_column (i : Fin 8192) :
    (W3 m ρ c (Proc.devRef .tc main_v3_0) : S8192x1.Idx → EReal) (ix2 i 0)
      = rowLossKer (rowsOf (m ((c.tc : Thread nD τ).loc main_arg0))) (labelsOf (m ((c.tc : Thread nD τ).loc main_arg1))) i := by
  obtain ⟨a, p, rfl⟩ := row_split i
  rw [W3_v3_0]
  refine (arr4_of (dat1 (E2 m ρ) c)
    (fun a => k1_pay4 (F := Ideal) (accAt1 (E2 m ρ) c (a.val * 8 + 7) (lastPoint a).isLt).1 (accAt1 (E2 m ρ) c (a.val * 8 + 7) (lastPoint a).isLt).2)
    (fun t ht => by
      rw [after1_4, accAt1_cast c (E2 m ρ) (show t.val = (rowBlk1 t).val * 8 + 7 by show t.val = t.val / 8 * 8 + 7; omega)
        t.isLt (lastPoint (rowBlk1 t)).isLt]) a p).trans ?_
  exact (row_last m ρ c a p).2.2.1

/-- The count column: row i holds 1 where row i has a positive, else 0. -/
theorem count_column (i : Fin 8192) :
    (W3 m ρ c (Proc.devRef .tc main_v3_1) : S8192x1.Idx → EReal) (ix2 i 0)
      = rowCountKer (rowsOf (m ((c.tc : Thread nD τ).loc main_arg0))) (labelsOf (m ((c.tc : Thread nD τ).loc main_arg1))) i := by
  obtain ⟨a, p, rfl⟩ := row_split i
  rw [W3_v3_1]
  refine (arr5_of (dat1 (E2 m ρ) c)
    (fun a => k1_pay5 (F := Ideal) (accAt1 (E2 m ρ) c (a.val * 8 + 7) (lastPoint a).isLt).1)
    (fun t ht => by
      rw [after1_5, accAt1_cast c (E2 m ρ) (show t.val = (rowBlk1 t).val * 8 + 7 by show t.val = t.val / 8 * 8 + 7; omega)
        t.isLt (lastPoint (rowBlk1 t)).isLt]) a p).trans ?_
  exact (row_last m ρ c a p).2.2.2

/-- The result buffer at the end of the run. -/
theorem result_v7 : W4 m ρ c (Proc.devRef .tc main_v7)
    = fun _ => resultKer (rowsOf (m ((c.tc : Thread nD τ).loc main_arg0))) (labelsOf (m ((c.tc : Thread nD τ).loc main_arg1))) := by
  refine (tail_apply (W3 m ρ c)).trans (funext fun _ => ?_)
  unfold resultKer
  exact congrArg₂ Ideal.div (Finset.sum_congr rfl fun i _ => loss_column m ρ c i)
    (congrArg (max · countFloor) (Finset.sum_congr rfl fun i _ => count_column m ρ c i))

/-- THE KERNEL'S RUN with its result named: every weakly fair execution terminates, the result buffer ends at the
    specification's kernel-side result of the two argument arrays, and the arguments end as launched. -/
theorem run_spec (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v7)
          = (fun _ => resultKer (rowsOf (m ((c.tc : Thread nD τ).loc main_arg0))) (labelsOf (m ((c.tc : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_v7 (by decide))).trans (result_v7 m ρ c),
     (h c _ (mem_uc main_arg0 (by decide))).trans (W4_main_arg0 m ρ c),
     (h c _ (mem_uc main_arg1 (by decide))).trans (W4_main_arg1 m ρ c)⟩) (run_main m ρ)

end Cert.KernelIdeal.KerValue

end
-- ==== Proof.RefWords.lean ====
/-
  Small facts about words and bits that the reference's reading uses: the word of minus infinity, the
  diagonal test on two row numbers below 8192, a select on a decided bit as an if-then-else, the fold of
  "or" over a finite set ("is any bit set"), the bit read as a number, and a sum over a rank-one index set
  as the sum over its coordinate.
-/
import Idealize.ShloMosaic.PureOps.Ideal.Laws
import Idealize.ShloMosaic.PureOps.Reduce
import Idealize.ShloMosaic.Lib.Affine
import Idealize.ShloMosaic.Lib.ValueIdx

noncomputable section

namespace Cert.ReferenceIdeal.RefValue

open Idealize.ShloMosaic

/-- The word 0xFF800000 (sign set, exponent all ones, fraction zero) denotes minus infinity. -/
theorem ofBits_neg_inf : Ideal.ofBits .f32 0xFF800000#32 = ⊥ := by
  simp [Ideal.ofBits, Ideal.ieee]

/-- Row numbers below 8192 are equal as 32-bit words (the first with the zero word added) exactly when they are equal. -/
theorem diag_iff (i j : Fin 8192) :
    IntOp.cmpi .eq (IntOp.addi (BitVec.ofNat 32 i.val) 0#32) (BitVec.ofNat 32 j.val) = 1#1 ↔ i = j := by
  rw [IntOp.cmpi_eq]
  unfold IntOp.addi
  rw [BitVec.add_zero, ← BitVec.toNat_inj, BitVec.toNat_ofNat, BitVec.toNat_ofNat]
  have hi := i.isLt
  have hj := j.isLt
  constructor
  · intro h
    exact Fin.ext (by omega)
  · intro h
    rw [h]

/-- A select on a bit that is set exactly when p holds is the if-then-else on p. -/
theorem select_iff {α : Type} {c : BitVec 1} {p : Prop} [Decidable p] (h : c = 1#1 ↔ p) (a b : α) :
    Scalar.select c a b = if p then a else b := by
  unfold Scalar.select
  exact if_congr h rfl rfl

/-- The fold of "or" over a finite set, from a clear bit, is set exactly when some member's bit is. -/
theorem fold_ori_eq_one {ι : Type} [DecidableEq ι] (s : Finset ι) (f : ι → BitVec 1) :
    s.fold IntOp.ori 0#1 f = 1#1 ↔ ∃ k ∈ s, f k = 1#1 := by
  induction s using Finset.induction_on with
  | empty => simp
  | insert a s ha ih =>
    rw [Finset.fold_insert ha, IntOp.ori_eq_one, ih]
    constructor
    · rintro (h | ⟨k, hk, h⟩)
      · exact ⟨a, Finset.mem_insert_self a s, h⟩
      · exact ⟨k, Finset.mem_insert_of_mem hk, h⟩
    · rintro ⟨k, hk, h⟩
      rcases Finset.mem_insert.mp hk with rfl | hk
      · exact Or.inl h
      · exact Or.inr ⟨k, hk, h⟩

/-- A bit read as an unsigned number: one when set, zero otherwise. -/
theorem bit_toNat_cast {c : BitVec 1} {p : Prop} [Decidable p] (h : c = 1#1 ↔ p) :
    (((c.toNat : ℝ)) : EReal) = if p then 1 else 0 := by
  by_cases hp : p
  · rw [if_pos hp, h.mpr hp]; simp
  · rw [if_neg hp]
    have hc : c = 0#1 := ValueIdx.eq_zero_of_ne_one (fun e => hp (h.mp e))
    rw [hc]; simp

/-- A rank-one index set is its coordinate's range … -/
def idxEquiv1 {n : Nat} : (⟨1, ![n]⟩ : Shape).Idx ≃ Fin n where
  toFun j := j 0
  invFun a := ValueIdx.ix1 a
  left_inv j := (ValueIdx.eq_ix1 j).symm
  right_inv _ := rfl

/-- … so a sum over it is the sum over the coordinate. -/
theorem sum_idx1 {M : Type*} [AddCommMonoid M] {n : Nat} (f : (⟨1, ![n]⟩ : Shape).Idx → M) :
    ∑ j, f j = ∑ a : Fin n, f (ValueIdx.ix1 a) := by
  rw [← Equiv.sum_comp (idxEquiv1 (n := n)).symm f]
  rfl

end Cert.ReferenceIdeal.RefValue

end
-- ==== Proof.RefValue.lean ====
/-
  The reference program's result is the specification's "resultRef" of its two argument arrays.

  The program is read one operation at a time, each at an index given by its coordinates: the row sums of
  squares, the clamped norm, the normalised rows, their inner products (the cosines), the diagonal test,
  the exponentials with minus infinity on the diagonal, the "positive" mask (same label, another row), the
  two row sums, the row-wise "or" of the mask ("row i has a positive"), the row losses and the row counts,
  and last the quotient of their sums.
-/
import proofs.«123631_j42125039239359_1_alg».proof.Proof.RefRead
import proofs.«123631_j42125039239359_1_alg».proof.Proof.RefWords
import proofs.«123631_j42125039239359_1_alg».proof.Proof.Spec

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx Cert.ReferenceIdeal.ReadP Cert.Contrastive

variable (X : (⟨S8192x256, .f32⟩ : BufTy).Contents (Elt Ideal)) (L : (⟨S8192, .i32⟩ : BufTy).Contents (Elt Ideal))

/-! ## The normalised rows and their inner products -/

/-- The sum of squares of row i. -/
theorem sumsq_at (i : Fin 8192) :
    val_main_call0_v1 (F := Ideal) X (ix1 i) = ∑ k : Fin 256, rowsOf X i k * rowsOf X i k := by
  have e : ∀ k : Fin 256, idx_main_call0_v1 (ix1 i) k = ix2 i k := fun k =>
    funext fun a => by match a with | ⟨0, _⟩ => rfl | ⟨1, _⟩ => rfl
  rw [val_main_call0_v1_apply, val_main_call0_cst_apply, Ideal.ofBits_def, Ideal.ofBits_zero_f32, zero_add]
  refine Finset.sum_congr rfl fun k _ => ?_
  rw [val_main_call0_v0_apply, e k, Ideal.mulf_def]
  rfl

/-- The clamped norm of row i, at every column of the broadcast. -/
theorem norm_at (i : Fin 8192) (k : Fin 256) : val_main_v3 (F := Ideal) X (ix2 i k) = rowNorm (rowsOf X) i := by
  have e : idx_main_call0_v2 (idx_main_v3 (ix2 i k)) = ix1 i :=
    funext fun a => by match a with | ⟨0, _⟩ => rfl
  rw [val_main_v3_apply, val_main_v2_apply, val_main_v0_apply, val_main_call0_v2_apply, e, sumsq_at, val_main_v1_apply,
    val_main_cst_apply, Ideal.hostUnary_sqrt_def, Ideal.maximumf_def, Ideal.ofBits_def]
  rfl

/-- Row i divided by its clamped norm. -/
theorem unit_at (i : Fin 8192) (k : Fin 256) : val_main_v4 (F := Ideal) X (ix2 i k) = unitRow (rowsOf X) i k := by
  rw [val_main_v4_apply, norm_at, Ideal.hostDivf_def]
  rfl

/-- The inner product of the normalised rows i and j. -/
theorem cosine_at (i j : Fin 8192) : val_main_v6 (F := Ideal) X (ix2 i j) = cosine (rowsOf X) i j := by
  have el : ∀ k : Fin 256, lidx_main_v6 (ix2 i j) k = ix2 i k := fun k =>
    funext fun a => by match a with | ⟨0, _⟩ => rfl | ⟨1, _⟩ => rfl
  have er : ∀ k : Fin 256, idx_main_v5 (ridx_main_v6 (ix2 i j) k) = ix2 j k := fun k =>
    funext fun a => by match a with | ⟨0, _⟩ => rfl | ⟨1, _⟩ => rfl
  rw [val_main_v6_apply]
  show _ = ∑ k : Fin 256, unitRow (rowsOf X) i k * unitRow (rowsOf X) j k
  refine Finset.sum_congr rfl fun k _ => ?_
  rw [val_main_v5_apply, el k, er k, unit_at, unit_at]

/-! ## The diagonal and the exponentials -/

/-- The diagonal test is set exactly on the diagonal. -/
theorem diag_at (i j : Fin 8192) : val_main_v13 (F := Ideal) (ix2 i j) = 1#1 ↔ i = j := by
  rw [val_main_v13_apply, val_main_v12_apply, val_main_v9_apply, val_main_v10_apply, val_main_v11_apply, val_main_c_apply]
  exact diag_iff i j

/-- The exponential of the similarity, with minus infinity put on the diagonal first. -/
theorem exp_at (i j : Fin 8192) : val_main_v15 (F := Ideal) X (ix2 i j) = expRef (rowsOf X) i j := by
  rw [val_main_v15_apply, val_main_v14_apply, select_iff (diag_at i j), val_main_call1_v1_apply, val_main_call1_v0_apply,
    val_main_cst_1_apply, val_main_v8_apply, val_main_v7_apply, val_main_cst_0_apply, cosine_at, Ideal.hostUnary_exp_def,
    Ideal.hostDivf_def, Ideal.ofBits_def, Ideal.ofBits_def, ofBits_neg_inf]
  rfl

/-! ## The positives -/

/-- The mask is set exactly where row j is a positive of row i. -/
theorem pos_at (i j : Fin 8192) : val_main_v22 (F := Ideal) L (ix2 i j) = 1#1 ↔ Positive (labelsOf L) i j := by
  have e1 : idx_main_v16 (idx_main_v18 (ix2 i j)) = ix1 i := funext fun a => by match a with | ⟨0, _⟩ => rfl
  have e2 : idx_main_v17 (idx_main_v19 (ix2 i j)) = ix1 j := funext fun a => by match a with | ⟨0, _⟩ => rfl
  rw [val_main_v22_apply, IntOp.andi_eq_one, val_main_v20_apply, IntOp.cmpi_eq, val_main_v18_apply, val_main_v16_apply,
    val_main_v19_apply, val_main_v17_apply, e1, e2, val_main_v21_apply, IntOp.not_eq_one, diag_at]
  exact Iff.rfl

/-- The exponential kept at the positives, zero elsewhere. -/
theorem posexp_at (i j : Fin 8192) :
    val_main_v23 (F := Ideal) X L (ix2 i j) = if Positive (labelsOf L) i j then expRef (rowsOf X) i j else 0 := by
  rw [val_main_v23_apply, select_iff (pos_at L i j), exp_at, val_main_call2_v1_apply, val_main_call2_v0_apply,
    val_main_cst_2_apply, Ideal.ofBits_def, Ideal.ofBits_zero_f32]

/-- The sum of the exponentials over the positives of row i. -/
theorem possum_at (i : Fin 8192) : val_main_v24 (F := Ideal) X L (ix1 i) = posRef (rowsOf X) (labelsOf L) i := by
  have e : ∀ k : Fin 8192, idx_main_v24 (ix1 i) k = ix2 i k := fun k =>
    funext fun a => by match a with | ⟨0, _⟩ => rfl | ⟨1, _⟩ => rfl
  rw [val_main_v24_apply, val_main_cst_3_apply, Ideal.ofBits_def, Ideal.ofBits_zero_f32, zero_add]
  show _ = ∑ j : Fin 8192, if Positive (labelsOf L) i j then expRef (rowsOf X) i j else 0
  exact Finset.sum_congr rfl fun k _ => by rw [e k, posexp_at]

/-- The sum of the exponentials over every column of row i. -/
theorem allsum_at (i : Fin 8192) : val_main_v25 (F := Ideal) X (ix1 i) = allRef (rowsOf X) i := by
  have e : ∀ k : Fin 8192, idx_main_v25 (ix1 i) k = ix2 i k := fun k =>
    funext fun a => by match a with | ⟨0, _⟩ => rfl | ⟨1, _⟩ => rfl
  rw [val_main_v25_apply, val_main_cst_4_apply, Ideal.ofBits_def, Ideal.ofBits_zero_f32, zero_add]
  show _ = ∑ j : Fin 8192, expRef (rowsOf X) i j
  exact Finset.sum_congr rfl fun k _ => by rw [e k, exp_at]

/-! ## "Row i has a positive": the row-wise "or" of the mask -/

/-- The "or" over a row of a square bit array, from a clear bit, is set exactly when some bit of the row is. -/
theorem any_row (x : S8192x8192.Idx → BitVec 1) (init : S_.Idx → BitVec 1) (h0 : init (Shape.Idx.first h_S_) = 0#1)
    (i : Fin 8192) :
    Host.reduce IntOp.ori x init reducesTo_S8192x8192_S8192_d1 h_S_ (ix1 i) = 1#1 ↔ ∃ j : Fin 8192, x (ix2 i j) = 1#1 := by
  have hR : S8192x8192.Reduces [1] S8192 := by decide
  have e : ∀ k : Fin 8192, hR.lift (ix1 i) k = ix2 i k := fun k =>
    funext fun a => Fin.ext (by match a with | ⟨0, _⟩ => rfl | ⟨1, _⟩ => rfl)
  rw [Host.reduce_eq_fold_single IntOp.ori x init reducesTo_S8192x8192_S8192_d1 hR h_S_ (ix1 i), h0, fold_ori_eq_one]
  constructor
  · rintro ⟨k, -, hk⟩
    exact ⟨k, by rw [← e k]; exact hk⟩
  · rintro ⟨j, hj⟩
    exact ⟨j, Finset.mem_univ _, by show x (hR.lift (ix1 i) j) = 1#1; rw [e j]; exact hj⟩

/-- The row-wise "or" of the mask is set exactly when row i has a positive. -/
theorem any_at (i : Fin 8192) : val_main_v26 (F := Ideal) L (ix1 i) = 1#1 ↔ ∃ j, Positive (labelsOf L) i j := by
  unfold val_main_v26
  rw [any_row _ _ (val_main_c_5_apply _) i]
  exact exists_congr fun j => pos_at L i j

/-! ## The row losses, the row counts and the result -/

/-- The loss of row i: minus the logarithm of the quotient where the row has a positive, zero elsewhere. -/
theorem loss_at (i : Fin 8192) : val_main_v30 (F := Ideal) X L (ix1 i) = rowLossRef (rowsOf X) (labelsOf L) i := by
  rw [val_main_v30_apply, val_main_v29_apply, val_main_v28_apply, val_main_v27_apply, possum_at, allsum_at,
    val_main_call3_v1_apply, val_main_call3_v0_apply, val_main_cst_6_apply, Ideal.hostNegf_def, Ideal.negf_def,
    Ideal.hostUnary_log_def, Ideal.hostDivf_def, Ideal.ofBits_def, Ideal.ofBits_zero_f32]
  unfold rowLossRef
  by_cases h : ∃ j, Positive (labelsOf L) i j
  · rw [if_pos h, (any_at L i).mpr h]; rfl
  · rw [if_neg h, eq_zero_of_ne_one (fun e => h ((any_at L i).mp e))]; rfl

/-- The count of row i: one where the row has a positive, zero elsewhere. -/
theorem count_at (i : Fin 8192) : val_main_v32 (F := Ideal) L (ix1 i) = rowCountRef (labelsOf L) i := by
  rw [val_main_v32_apply]
  unfold rowCountRef
  by_cases h : ∃ j, Positive (labelsOf L) i j
  · rw [if_pos h, (any_at L i).mpr h]; show (((1#1 : BitVec 1).toNat : ℝ) : EReal) = 1; simp
  · rw [if_neg h, eq_zero_of_ne_one (fun e => h ((any_at L i).mp e))]; show (((0#1 : BitVec 1).toNat : ℝ) : EReal) = 0; simp

/-- The sum of the row losses. -/
theorem loss_total (i0 : S_.Idx) :
    val_main_v31 (F := Ideal) X L i0 = ∑ i : Fin 8192, rowLossRef (rowsOf X) (labelsOf L) i := by
  rw [val_main_v31_apply, val_main_cst_7_apply, Ideal.ofBits_def, Ideal.ofBits_zero_f32, zero_add]
  refine (sum_idx1 _).trans ?_
  exact Finset.sum_congr rfl fun i _ => loss_at X L i

/-- The number of rows that have a positive. -/
theorem count_total (i0 : S_.Idx) : val_main_v33 (F := Ideal) L i0 = ∑ i : Fin 8192, rowCountRef (labelsOf L) i := by
  rw [val_main_v33_apply, val_main_cst_8_apply, Ideal.ofBits_def, Ideal.ofBits_zero_f32, zero_add]
  refine (sum_idx1 _).trans ?_
  exact Finset.sum_congr rfl fun i _ => count_at L i

/-- The last stage of the reference is the specification's result, at its one index. -/
theorem result_eq : val_main_v35 (F := Ideal) X L = fun _ => resultRef (rowsOf X) (labelsOf L) := by
  funext i0
  rw [val_main_v35_apply, val_main_v34_apply, loss_total, count_total, val_main_cst_9_apply, Ideal.hostDivf_def,
    Ideal.maximumf_def, Ideal.ofBits_def]
  rfl

/-- The reference program's run: it ends with its result at "resultRef" of the two argument arrays, which it leaves unchanged. -/
theorem run_spec (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => ∀ c : Dev Cert.ReferenceIdeal.nD,
        r.2.mem ((c.tc : Thread Cert.ReferenceIdeal.nD Cert.ReferenceIdeal.τ).loc Cert.ReferenceIdeal.main_v35)
            = (fun _ => Cert.Contrastive.resultRef
                (Cert.Contrastive.rowsOf (m ((c.tc : Thread Cert.ReferenceIdeal.nD Cert.ReferenceIdeal.τ).loc Cert.ReferenceIdeal.main_arg0)))
                (Cert.Contrastive.labelsOf (m ((c.tc : Thread Cert.ReferenceIdeal.nD Cert.ReferenceIdeal.τ).loc Cert.ReferenceIdeal.main_arg1))))
        ∧ r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1)) :=
  (θ_run Cert.ReferenceIdeal.defs _ _).mono
    (fun _ h c => ⟨(h c).1.trans ((val_main_v35_eq m c).trans (result_eq _ _)), (h c).2⟩)
    (Cert.ReferenceIdeal.ValueP.run (F := Ideal) m ρ)

end Cert.ReferenceIdeal.RefValue

end
-- ==== Proof.Finite.lean ====
/-
  From the precondition to real numbers. The precondition says: every entry of the embeddings array has an
  absolute value below plus infinity. An extended real whose absolute value (the larger of itself and its
  negation) is below plus infinity is neither infinity, hence a real number.
-/
import proofs.«123631_j42125039239359_1_alg».proof.Pre_finite_inputs
import proofs.«123631_j42125039239359_1_alg».proof.Proof.Spec
import Idealize.ShloMosaic.Lib.ReduceAll
import Idealize.ShloMosaic.Lib.Pipeline.Value
import Idealize.ShloMosaic.Lib.ValueIdx
import Idealize.ShloMosaic.PureOps.Ideal.Laws

noncomputable section

namespace Cert.Contrastive

open Idealize.ShloMosaic

/-- The word 0x7F800000 (sign clear, exponent all ones, fraction zero) denotes plus infinity. -/
theorem ofBits_pos_inf : Ideal.ofBits .f32 0x7F800000#32 = ⊤ := by
  simp [Ideal.ofBits, Ideal.ieee]

/-- An extended real whose absolute value is below plus infinity is a real number. -/
theorem real_of_abs_lt_top (a : EReal) (h : max a (-a) < ⊤) : ∃ r : ℝ, a = (r : EReal) := by
  induction a using EReal.rec with
  | bot => exact absurd h (by simp)
  | top => exact absurd h (by simp)
  | coe r => exact ⟨r, rfl⟩

/-- Under the precondition every entry of the embeddings array is a real number. -/
theorem finite_of_pre [Cert.Pre_finite_inputs.Facts] (X : (⟨2, ![8192, 256]⟩ : Shape).Idx → EReal)
    (L : (⟨1, ![8192]⟩ : Shape).Idx → BitVec 32)
    (h : Cert.Pre_finite_inputs.fn (F := Ideal) X L = fun _ => 1#1) :
    ∀ i k, ∃ r : ℝ, rowsOf X i k = (r : EReal) := by
  intro i k
  haveI : Subsingleton Cert.Pre_finite_inputs.S_.Idx := ⟨fun a b => funext fun d => d.elim0⟩
  have h0 := congrFun h ValueIdx.ix0
  dsimp only [Cert.Pre_finite_inputs.fn] at h0
  have h1 := Host.reduce_andi_all _ _ _ _ _ h0 (ValueIdx.ix2 i k)
  rw [ValueIdx.cmpf_apply,
    broadcastInDim_apply _ Cert.Pre_finite_inputs.Facts.bcast_S_S8192x256 _ (ValueIdx.ix2 i k) ValueIdx.ix0 (fun a => a.elim0)] at h1
  have h2 : Ideal.cmp .olt (max (X (ValueIdx.ix2 i k)) (-(X (ValueIdx.ix2 i k)))) (Ideal.ofBits .f32 0x7F800000#32) = 1#1 := h1
  rw [ofBits_pos_inf] at h2
  have h3 : max (X (ValueIdx.ix2 i k)) (-(X (ValueIdx.ix2 i k))) < ⊤ := by
    by_contra hn
    have : Ideal.cmp .olt (max (X (ValueIdx.ix2 i k)) (-(X (ValueIdx.ix2 i k)))) ⊤ = 0#1 := by
      simp [Ideal.cmp, hn]
    rw [this] at h2
    exact absurd h2 (by decide)
  exact real_of_abs_lt_top _ h3

end Cert.Contrastive

end
-- ==== Proof.BridgeConsts.lean ====
/-
  The two binary words the bridge has to evaluate, as real numbers, and the one consequence of each that the
  bridge uses: the norm floor is a positive real, and dividing by the temperature is multiplying by its exact
  reciprocal, on every extended real.
-/
import proofs.«123631_j42125039239359_1_alg».proof.Proof.Spec

noncomputable section

namespace Cert.Contrastive

open Idealize.ShloMosaic

/-- The norm floor's word: exponent field 87, fraction field 834764, so (2^23 + 834764) * 2^(87 - 127 - 23). -/
theorem normFloor_eq : normFloor = ((9223372 / 9223372036854775808 : ℝ) : EReal) := by
  unfold normFloor
  simp [Ideal.ofBits, Ideal.ieee, -EReal.coe_mul]; norm_num

/-- The norm floor is a positive real. -/
theorem normFloor_pos : ∃ f : ℝ, 0 < f ∧ normFloor = (f : EReal) :=
  ⟨9223372 / 9223372036854775808, by norm_num, normFloor_eq⟩

/-- The temperature's word: exponent field 123, fraction field 1006633, so (2^23 + 1006633) * 2^(123 - 127 - 23). -/
theorem temperature_eq : temperature = ((9395241 / 134217728 : ℝ) : EReal) := by
  unfold temperature
  simp [Ideal.ofBits, Ideal.ieee, -EReal.coe_mul]; norm_num

/-- Dividing by the temperature is multiplying by its reciprocal, at the infinities too. -/
theorem div_temperature (c : EReal) : Ideal.div c temperature = c * invTemperature := by
  rw [temperature_eq, Ideal.div_coe (by norm_num) c]
  unfold invTemperature
  congr 2
  norm_num

end Cert.Contrastive

end
-- ==== Proof.BridgeReal.lean ====
/-
  Facts about real numbers and about the coercion of the reals into the extended reals that the bridge uses:
  the coercion commutes with finite sums and with max; an inner product of two vectors of square-norm at most
  one is at least -1; and exp (-(2^27 / 9395241)) is larger than 10^-30.
-/
import Mathlib.Data.EReal.Inv
import Mathlib.Analysis.Complex.ExponentialBounds
import Mathlib.Algebra.BigOperators.Group.Finset.Basic
import Mathlib.Algebra.Order.BigOperators.Group.Finset
import Mathlib.Tactic

namespace Cert.Contrastive

open scoped BigOperators

/-- The coercion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The coercion commutes with max. -/
theorem coe_max (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

/-- Two vectors of square-norm at most one have an inner product of at least -1:
    0 ≤ ∑ (a + b)^2 = ∑ a^2 + 2 ∑ a b + ∑ b^2 ≤ 2 + 2 ∑ a b. -/
theorem inner_ge_neg_one {κ : Type*} [Fintype κ] (a b : κ → ℝ)
    (ha : ∑ k, a k * a k ≤ 1) (hb : ∑ k, b k * b k ≤ 1) : -1 ≤ ∑ k, a k * b k := by
  have h0 : 0 ≤ ∑ k, (a k + b k) * (a k + b k) := Finset.sum_nonneg fun k _ => mul_self_nonneg _
  have h1 : ∑ k, (a k + b k) * (a k + b k)
      = ∑ k, a k * a k + 2 * ∑ k, a k * b k + ∑ k, b k * b k := by
    rw [Finset.mul_sum, ← Finset.sum_add_distrib, ← Finset.sum_add_distrib]
    exact Finset.sum_congr rfl fun k _ => by ring
  linarith

/-- exp (-(2^27 / 9395241)) > 10^-30: the exponent is above -15, and exp 15 = (exp 1)^15 < 3^15 < 10^30. -/
theorem exp_floor : (1 / 1000000000000000000000000000000 : ℝ) < Real.exp (-(134217728 / 9395241)) := by
  have h3 : Real.exp 1 < 3 := lt_trans Real.exp_one_lt_d9 (by norm_num)
  have h15 : Real.exp 15 < 3 ^ 15 := by
    have : Real.exp 15 = Real.exp 1 ^ 15 := by
      rw [← Real.exp_nat_mul]; norm_num
    rw [this]
    exact pow_lt_pow_left₀ h3 (Real.exp_pos 1).le (by norm_num)
  have hle : Real.exp (-15) ≤ Real.exp (-(134217728 / 9395241)) :=
    Real.exp_le_exp.mpr (by norm_num)
  have hinv : (1 / 1000000000000000000000000000000 : ℝ) < Real.exp (-15) := by
    rw [Real.exp_neg]
    rw [one_div]
    apply inv_strictAnti₀ (Real.exp_pos 15)
    calc Real.exp 15 < 3 ^ 15 := h15
      _ < 1000000000000000000000000000000 := by norm_num
  exact lt_of_lt_of_le hinv hle

end Cert.Contrastive
-- ==== Proof.BridgeCosine.lean ====
/-
  Finite input: with real entries, every row norm is a positive real, every normalised row is a real vector of
  square-norm at most one, every cosine is a real number not below -1, and every exponential the kernel forms
  is a nonnegative real, larger than 10^-30 off the diagonal.
-/
import proofs.«123631_j42125039239359_1_alg».proof.Proof.Spec
import proofs.«123631_j42125039239359_1_alg».proof.Proof.BridgeConsts
import proofs.«123631_j42125039239359_1_alg».proof.Proof.BridgeReal

noncomputable section

namespace Cert.Contrastive

open Idealize.ShloMosaic

variable (x : Fin 8192 → Fin 256 → EReal) (r : Fin 8192 → Fin 256 → ℝ)

/-- The clamped norm of a real row is a positive real n with n^2 at least the row's sum of squares. -/
theorem rowNorm_real (hr : ∀ i k, x i k = (r i k : EReal)) (i : Fin 8192) :
    ∃ n : ℝ, 0 < n ∧ ∑ k, r i k * r i k ≤ n * n ∧ rowNorm x i = (n : EReal) := by
  obtain ⟨f, hf, hfe⟩ := normFloor_pos
  have hS0 : 0 ≤ ∑ k, r i k * r i k := Finset.sum_nonneg fun k _ => mul_self_nonneg _
  refine ⟨max (Real.sqrt (∑ k, r i k * r i k)) f, lt_max_of_lt_right hf, ?_, ?_⟩
  · calc ∑ k, r i k * r i k
        = Real.sqrt (∑ k, r i k * r i k) * Real.sqrt (∑ k, r i k * r i k) := (Real.mul_self_sqrt hS0).symm
      _ ≤ _ := mul_self_le_mul_self (Real.sqrt_nonneg _) (le_max_left _ _)
  · unfold rowNorm
    simp only [hr, ← EReal.coe_mul]
    rw [← coe_sum, Ideal.sqrt_coe, if_neg (not_lt.mpr hS0), hfe, coe_max]

/-- The normalised rows are real vectors of square-norm at most one. -/
theorem unitRow_real (hr : ∀ i k, x i k = (r i k : EReal)) :
    ∃ u : Fin 8192 → Fin 256 → ℝ, (∀ i, ∑ k, u i k * u i k ≤ 1) ∧ ∀ i k, unitRow x i k = (u i k : EReal) := by
  choose n hn0 hnS hne using rowNorm_real x r hr
  refine ⟨fun i k => r i k / n i, fun i => ?_, fun i k => ?_⟩
  · have hnn : 0 < n i * n i := mul_pos (hn0 i) (hn0 i)
    have : ∑ k, r i k / n i * (r i k / n i) = (∑ k, r i k * r i k) / (n i * n i) := by
      rw [Finset.sum_div]
      exact Finset.sum_congr rfl fun k _ => div_mul_div_comm _ _ _ _
    rw [this, div_le_one hnn]
    exact hnS i
  · unfold unitRow
    rw [hr, hne, Ideal.div_coe (hn0 i).ne', ← EReal.coe_mul, mul_one_div]

/-- Every cosine is a real number, at least -1. -/
theorem cosine_real (hr : ∀ i k, x i k = (r i k : EReal)) :
    ∃ c : Fin 8192 → Fin 8192 → ℝ, (∀ i j, -1 ≤ c i j) ∧ ∀ i j, cosine x i j = (c i j : EReal) := by
  obtain ⟨u, hu1, hue⟩ := unitRow_real x r hr
  refine ⟨fun i j => ∑ k, u i k * u j k, fun i j => inner_ge_neg_one _ _ (hu1 i) (hu1 j), fun i j => ?_⟩
  unfold cosine
  simp only [hue, ← EReal.coe_mul]
  exact (coe_sum _ _).symm

/-- The kernel's exponentials are nonnegative reals, above 10^-30 off the diagonal. -/
theorem expKer_real (hr : ∀ i k, x i k = (r i k : EReal)) :
    ∃ e : Fin 8192 → Fin 8192 → ℝ, (∀ i j, 0 ≤ e i j) ∧
      (∀ i j, i ≠ j → (1 / 1000000000000000000000000000000 : ℝ) < e i j) ∧
      ∀ i j, expKer x i j = (e i j : EReal) := by
  obtain ⟨c, hc, hce⟩ := cosine_real x r hr
  refine ⟨fun i j => if i = j then 0 else Real.exp (c i j * (134217728 / 9395241)), fun i j => ?_,
    fun i j hij => ?_, fun i j => ?_⟩
  · beta_reduce
    by_cases h : i = j
    · rw [if_pos h]
    · rw [if_neg h]; exact (Real.exp_pos _).le
  · beta_reduce
    rw [if_neg hij]
    refine lt_of_lt_of_le exp_floor (Real.exp_le_exp.mpr ?_)
    have h1 : (-1 : ℝ) * (134217728 / 9395241) ≤ c i j * (134217728 / 9395241) :=
      mul_le_mul_of_nonneg_right (hc i j) (by norm_num)
    linarith
  · unfold expKer
    beta_reduce
    by_cases h : i = j
    · rw [if_pos h, if_pos h, EReal.coe_zero]
    · rw [if_neg h, if_neg h, hce, invTemperature, ← EReal.coe_mul, Ideal.exp_coe]

end Cert.Contrastive

end
-- ==== Proof.BridgePos.lean ====
/-
  The sum over a row's positives, when the kernel's exponentials are nonnegative reals that exceed the floor
  10^-30 off the diagonal: the sum is a real number; it is positive exactly when the row has a positive; and
  where the row has one, the sum is at least the floor, so the clamp leaves it unchanged.
-/
import proofs.«123631_j42125039239359_1_alg».proof.Proof.Spec
import proofs.«123631_j42125039239359_1_alg».proof.Proof.BridgeReal

noncomputable section

namespace Cert.Contrastive

open Idealize.ShloMosaic

variable (x : Fin 8192 → Fin 256 → EReal) (ids : Fin 8192 → BitVec 32) (e : Fin 8192 → Fin 8192 → ℝ)

/-- The sum over the positives is the coercion of the real sum. -/
theorem posKer_real (he : ∀ i j, expKer x i j = (e i j : EReal)) (i : Fin 8192) :
    posKer x ids i = ((∑ j, if Positive ids i j then e i j else 0 : ℝ) : EReal) := by
  unfold posKer
  rw [coe_sum]
  refine Finset.sum_congr rfl fun j _ => ?_
  by_cases h : Positive ids i j
  · rw [if_pos h, if_pos h, he]
  · rw [if_neg h, if_neg h, EReal.coe_zero]

/-- A row has a positive exactly when its sum over the positives is positive: one positive term among
    nonnegative ones makes the sum positive; with no positive every term is zero. -/
theorem exists_positive_iff (he0 : ∀ i j, 0 ≤ e i j)
    (hef : ∀ i j, i ≠ j → (1 / 1000000000000000000000000000000 : ℝ) < e i j)
    (he : ∀ i j, expKer x i j = (e i j : EReal)) (i : Fin 8192) :
    (∃ j, Positive ids i j) ↔ 0 < posKer x ids i := by
  rw [posKer_real x ids e he i, EReal.coe_pos]
  constructor
  · rintro ⟨j, hj⟩
    refine Finset.sum_pos' (fun j _ => ?_) ⟨j, Finset.mem_univ j, ?_⟩
    · by_cases h : Positive ids i j
      · rw [if_pos h]; exact he0 i j
      · rw [if_neg h]
    · rw [if_pos hj]
      exact lt_trans (by norm_num) (hef i j hj.2)
  · intro hpos
    by_contra hne
    have hall : ∀ j, ¬ Positive ids i j := fun j hj => hne ⟨j, hj⟩
    have hz : (∑ j, if Positive ids i j then e i j else 0 : ℝ) = 0 :=
      Finset.sum_eq_zero fun j _ => if_neg (hall j)
    rw [hz] at hpos
    exact lt_irrefl _ hpos

/-- Where the row has a positive, the sum over the positives is at least the floor. -/
theorem max_posFloor (he0 : ∀ i j, 0 ≤ e i j)
    (hef : ∀ i j, i ≠ j → (1 / 1000000000000000000000000000000 : ℝ) < e i j)
    (he : ∀ i j, expKer x i j = (e i j : EReal)) (i : Fin 8192) (h : ∃ j, Positive ids i j) :
    max (posKer x ids i) posFloor = posKer x ids i := by
  apply max_eq_left
  rw [posKer_real x ids e he i]
  unfold posFloor
  rw [EReal.coe_le_coe_iff]
  obtain ⟨j, hj⟩ := h
  have hnn : ∀ j ∈ (Finset.univ : Finset (Fin 8192)), 0 ≤ (if Positive ids i j then e i j else 0 : ℝ) := by
    intro j _
    by_cases h : Positive ids i j
    · rw [if_pos h]; exact he0 i j
    · rw [if_neg h]
  calc (1 / 1000000000000000000000000000000 : ℝ) ≤ e i j := (hef i j hj.2).le
    _ = (if Positive ids i j then e i j else 0 : ℝ) := (if_pos hj).symm
    _ ≤ ∑ j, (if Positive ids i j then e i j else 0 : ℝ) :=
        Finset.single_le_sum hnn (Finset.mem_univ j)

end Cert.Contrastive

end
-- ==== Proof.Bridge.lean ====
/-
  The reference's result and the kernel's result are one extended real when every embedding entry is finite.

  For every input, finite or not, the two exponentials agree entry by entry: on the diagonal the reference takes
  exp (-infinity) = 0 where the kernel writes 0, and off it dividing by the temperature is multiplying by its
  reciprocal.  So the sums over the positives agree, and the sums over the other rows agree.  For finite input
  the kernel's exponentials are reals above 10^-30 off the diagonal, so "the row has a positive" and "the sum over
  the positives is positive" are one condition, the clamp at 10^-30 changes nothing where it holds, and -y = 0 - y.
-/
import proofs.«123631_j42125039239359_1_alg».proof.Proof.Spec
import proofs.«123631_j42125039239359_1_alg».proof.Proof.BridgeConsts
import proofs.«123631_j42125039239359_1_alg».proof.Proof.BridgeCosine
import proofs.«123631_j42125039239359_1_alg».proof.Proof.BridgePos

noncomputable section

namespace Cert.Contrastive

open Idealize.ShloMosaic

/-- The exponentials agree entry by entry, for every input. -/
theorem expRef_eq (x : Fin 8192 → Fin 256 → EReal) (i j : Fin 8192) : expRef x i j = expKer x i j := by
  unfold expRef expKer
  by_cases h : i = j
  · rw [if_pos h, if_pos h, Ideal.exp_bot]
  · rw [if_neg h, if_neg h, div_temperature]

/-- The sums over the positives agree, for every input. -/
theorem posRef_eq (x : Fin 8192 → Fin 256 → EReal) (ids : Fin 8192 → BitVec 32) (i : Fin 8192) :
    posRef x ids i = posKer x ids i := by
  unfold posRef posKer
  simp only [expRef_eq]

/-- The sums over the other rows agree, for every input. -/
theorem allRef_eq (x : Fin 8192 → Fin 256 → EReal) (i : Fin 8192) : allRef x i = allKer x i := by
  unfold allRef allKer
  simp only [expRef_eq]

/-- The row losses agree for finite input. -/
theorem rowLoss_eq (x : Fin 8192 → Fin 256 → EReal) (ids : Fin 8192 → BitVec 32)
    (hx : ∀ i k, ∃ r : ℝ, x i k = (r : EReal)) (i : Fin 8192) :
    rowLossRef x ids i = rowLossKer x ids i := by
  choose r hr using hx
  obtain ⟨e, he0, hef, he⟩ := expKer_real x r hr
  have hiff := exists_positive_iff x ids e he0 hef he i
  unfold rowLossRef rowLossKer
  by_cases h : ∃ j, Positive ids i j
  · rw [if_pos h, if_pos (hiff.mp h), max_posFloor x ids e he0 hef he i h, posRef_eq, allRef_eq, zero_sub]
  · rw [if_neg h, if_neg (fun hp => h (hiff.mpr hp))]

/-- The row counts agree for finite input. -/
theorem rowCount_eq (x : Fin 8192 → Fin 256 → EReal) (ids : Fin 8192 → BitVec 32)
    (hx : ∀ i k, ∃ r : ℝ, x i k = (r : EReal)) (i : Fin 8192) :
    rowCountRef ids i = rowCountKer x ids i := by
  choose r hr using hx
  obtain ⟨e, he0, hef, he⟩ := expKer_real x r hr
  have hiff := exists_positive_iff x ids e he0 hef he i
  unfold rowCountRef rowCountKer
  by_cases h : ∃ j, Positive ids i j
  · rw [if_pos h, if_pos (hiff.mp h)]
  · rw [if_neg h, if_neg (fun hp => h (hiff.mpr hp))]

/-- The two results agree for finite input. -/
theorem result_eq (x : Fin 8192 → Fin 256 → EReal) (ids : Fin 8192 → BitVec 32)
    (hx : ∀ i k, ∃ r : ℝ, x i k = (r : EReal)) : resultRef x ids = resultKer x ids := by
  unfold resultRef resultKer
  simp only [rowLoss_eq x ids hx, rowCount_eq x ids hx]

end Cert.Contrastive

end
-- ==== Proof.lean ====
/-
  A contrastive loss (normalised temperature-scaled cross entropy) computed by two kernels against its plain
  reference, on the extended reals, for finite embeddings.

  Input: 8192 rows of 256 features and one integer label per row.  Each row is divided by its Euclidean norm
  (clamped below); cosine i j is the inner product of two such rows; row j is a positive of row i when it carries the
  same label and is another row.  Both programs return

      ( sum over the rows i that have a positive of  -log (pos i / all i) )  /  max (number of such rows) 1,

  pos i the sum over the positives j of exp (cosine i j / T), all i the sum over every j other than i.

  The kernel side: the first kernel normalises the rows block by block; the second walks an 8 x 8 grid of
  1024 x 1024 similarity tiles, keeps the two row sums in accumulators carried across the eight column blocks of a
  row block, and at the last column block writes the row's loss and whether the row has a positive; the host sums
  both columns and divides.  Its result is "resultKer" (module KerValue, over the run of module Ideal/Run).
  The reference side: one host program; its result is "resultRef" (module RefValue).
  The two are one function of finite inputs (module Bridge): the kernel multiplies by the exact reciprocal of the
  temperature the reference divides by; it masks the diagonal with 0 after the exponential where the reference masks
  with minus infinity before it; it decides "the row has a positive" by pos i > 0, the same for finite input since
  every exponential of a finite number is positive; and its lower clamp 10^-30 of pos i never binds, a cosine of two
  vectors of norm at most one being at least -1.

  The three frame claims: both kernel programs by their runs (modules Bits/Run and Ideal/Run), the reference by its
  run with the result dropped.  The idealisation named two constants: the reciprocal temperature 2^27 / 9395241 and
  the clamp 10^-30; each conjunct of "preserves" is that name's value in the table.
-/
import proofs.«123631_j42125039239359_1_alg».proof.Defs
import proofs.«123631_j42125039239359_1_alg».proof.Proof.Gen.Kernel
import proofs.«123631_j42125039239359_1_alg».proof.Proof.Gen.KernelIdeal
import proofs.«123631_j42125039239359_1_alg».proof.Proof.Gen.ReferenceIdeal
import proofs.«123631_j42125039239359_1_alg».proof.Proof.Gen.Pre_finite_inputs
import proofs.«123631_j42125039239359_1_alg».proof.Proof.Bits.Run
import proofs.«123631_j42125039239359_1_alg».proof.Proof.Ideal.Run
import proofs.«123631_j42125039239359_1_alg».proof.Proof.KerValue
import proofs.«123631_j42125039239359_1_alg».proof.Proof.RefValue
import proofs.«123631_j42125039239359_1_alg».proof.Proof.Finite
import proofs.«123631_j42125039239359_1_alg».proof.Proof.Bridge
import Idealize.ShloMosaic.Adequacy
import Idealize.ShloMosaic.Init

noncomputable section

namespace Cert.Proof

open Idealize.ShloMosaic Idealize.SL.Sem

/-- The word-level kernel program runs and leaves both arguments as launched. -/
theorem frame_kernel : Cert.frame_Kernel := fun m ρ _ => Cert.Kernel.Hand.frame m ρ

/-- So does the idealised kernel program. -/
theorem frame_kernelIdeal : Cert.frame_KernelIdeal := fun m ρ _ => Cert.KernelIdeal.Hand.frame m ρ

/-- The reference's frame is its run with the result dropped. -/
theorem frame_reference : Cert.frame_ReferenceIdeal := fun m ρ _ =>
  (θ_run Cert.ReferenceIdeal.defs _ _).mono (fun _ h c => (h c).2) (Cert.ReferenceIdeal.RefValue.run_spec m ρ)

/-- The two named constants denote, at the ideal instance, the values the table gives them. -/
theorem preserves : Cert.preserves_Kernel_KernelIdeal :=
  ⟨IdealRules.named_const.statement Cert.KernelIdeal.κ "inv_temperature" .f32 0x41649249#32 ((134217728 / 9395241 : ℝ) : EReal) rfl,
   IdealRules.named_const.statement Cert.KernelIdeal.κ "inv_1000000000000000000000000000000" .f32 0x0DA24260#32
     ((1 / 1000000000000000000000000000000 : ℝ) : EReal) rfl⟩

/-- From memories that agree on the arguments both programs end with one result: the kernel's run ends at resultKer of
    the arguments, the reference's at resultRef, and the two agree on finite embeddings. -/
theorem algebraic : Cert.algebraic_KernelIdeal_ReferenceIdeal := by
  intro m ρ m' ρ' hpre hagree
  refine ⟨_, Cert.KernelIdeal.KerValue.run_spec m ρ, ?_⟩
  refine (θ_run Cert.ReferenceIdeal.defs _ _).mono (fun _ h c => ⟨(h c).1.trans ?_, (h c).2⟩)
    (Cert.ReferenceIdeal.RefValue.run_spec m' ρ')
  rw [(hagree c).1, (hagree c).2]
  funext _
  exact Cert.Contrastive.result_eq _ _ (Cert.Contrastive.finite_of_pre _ _ (hpre c))

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
